-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S32x8192 : Shape := ⟨2, ![32, 8192]⟩
abbrev S32x1 : Shape := ⟨2, ![32, 1]⟩
abbrev S_ : Shape := ⟨0, ![]⟩

class Facts : Prop where
  bcast_S_S32x8192 : S_.BroadcastsInDim S32x8192 (![] : Fin 0 → Fin S32x8192.rank)
  reducesTo_S32x8192_S_d0_1 : S32x8192.ReducesTo [0, 1] S_
  h_S_ : 0 < S_.numel
  bcast_S_S32x1 : S_.BroadcastsInDim S32x1 (![] : Fin 0 → Fin S32x1.rank)
  reducesTo_S32x1_S_d0_1 : S32x1.ReducesTo [0, 1] S_

variable [Facts]

def fn {F : FTy → Type} [FloatOps F] (main_arg0 : IVec S32x8192 32) (main_arg1 : IVec S32x1 32) : IVec S_ 1 :=
  let main_c : IVec S_ 32 := constantI S_ 32 0#32
  let main_v0 : IVec S32x8192 32 := broadcastInDim S32x8192 ![] bcast_S_S32x8192 main_c
  let main_v1 : IVec S32x8192 1 := cmpi .sge main_arg0 main_v0
  let main_c_0 : IVec S_ 32 := constantI S_ 32 99999#32
  let main_v2 : IVec S32x8192 32 := broadcastInDim S32x8192 ![] bcast_S_S32x8192 main_c_0
  let main_v3 : IVec S32x8192 1 := cmpi .sle main_arg0 main_v2
  let main_v4 : IVec S32x8192 1 := andi main_v1 main_v3
  let main_c_1 : IVec S_ 1 := constantI S_ 1 1#1
  let main_v5 : IVec S_ 1 := (fun x v => Host.reduce IntOp.andi x v reducesTo_S32x8192_S_d0_1 h_S_) main_v4 main_c_1
  let main_c_2 : IVec S_ 32 := constantI S_ 32 0#32
  let main_v6 : IVec S32x1 32 := broadcastInDim S32x1 ![] bcast_S_S32x1 main_c_2
  let main_v7 : IVec S32x1 1 := cmpi .sge main_arg1 main_v6
  let main_c_3 : IVec S_ 32 := constantI S_ 32 8191#32
  let main_v8 : IVec S32x1 32 := broadcastInDim S32x1 ![] bcast_S_S32x1 main_c_3
  let main_v9 : IVec S32x1 1 := cmpi .sle main_arg1 main_v8
  let main_v10 : IVec S32x1 1 := andi main_v7 main_v9
  let main_c_4 : IVec S_ 1 := constantI S_ 1 1#1
  let main_v11 : IVec S_ 1 := (fun x v => Host.reduce IntOp.andi x v reducesTo_S32x1_S_d0_1 h_S_) main_v10 main_c_4
  let main_v12 : IVec S_ 1 := andi main_v5 main_v11
  main_v12
-- ==== Kernel.lean ====
abbrev S32x8192 : Shape := ⟨2, ![32, 8192]⟩
abbrev S32x1 : Shape := ⟨2, ![32, 1]⟩
abbrev S32 : Shape := ⟨1, ![32]⟩
abbrev S32x100000 : Shape := ⟨2, ![32, 100000]⟩
abbrev S8192 : Shape := ⟨1, ![8192]⟩
abbrev S48 : Shape := ⟨1, ![48]⟩
abbrev S100000 : Shape := ⟨1, ![100000]⟩
abbrev S_ : Shape := ⟨0, ![]⟩
abbrev S1x8192 : Shape := ⟨2, ![1, 8192]⟩
abbrev S16 : Shape := ⟨1, ![16]⟩
abbrev S1 : Shape := ⟨1, ![1]⟩
abbrev S1x100000 : Shape := ⟨2, ![1, 100000]⟩

abbrev nBuf : Table → Nat
  | .hbm => 4
  | .local .scVector .vmem => 3
  | _ => 0

abbrev bufTy : (tb : Table) → Fin (nBuf tb) → BufTy
  | .hbm, ⟨0, _⟩ => ⟨S32x8192, .i32⟩
  | .hbm, ⟨1, _⟩ => ⟨S32x1, .i32⟩
  | .hbm, ⟨2, _⟩ => ⟨S32, .i32⟩
  | .hbm, ⟨3, _⟩ => ⟨S32x100000, .i32⟩
  | .local .scVector .vmem, ⟨0, _⟩ => ⟨S8192, .i32⟩
  | .local .scVector .vmem, ⟨1, _⟩ => ⟨S48, .i32⟩
  | .local .scVector .vmem, ⟨2, _⟩ => ⟨S100000, .i32⟩
  | _, _ => ⟨S32x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  ![v1.toNat, 0]
@[reducible] def k0_t1_loop : Scf.Loop 32 :=
  let c0_i32_5 : BitVec 32 := 0#32
  let c6250_i32 : BitVec 32 := 6250#32
  let v9 : BitVec 32 := Scalar.addi c0_i32_5 c6250_i32
  let c1_i32 : BitVec 32 := 1#32
  ⟨c0_i32_5, v9, c1_i32⟩
def k0_off2 (k0_t1 : Fin k0_t1_loop.trips) : Fin 1 → Nat :=
  let c0_i32_5 : BitVec 32 := 0#32
  let c1_i32 : BitVec 32 := 1#32
  let arg10 : BitVec 32 := Scf.iv c0_i32_5 c1_i32 k0_t1
  let c16_i32 : BitVec 32 := 16#32
  let v46 : BitVec 32 := Scalar.muli arg10 c16_i32
  let v47 : Index := Scalar.indexCast v46
  ![v47.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v16 : Index := Scalar.indexCast v1
  ![v16.toNat]
@[reducible] def k0_t2_loop (v19 : BitVec 32) : Scf.Loop 32 :=
  let c0_i32_21 : BitVec 32 := 0#32
  let c64_i32 : BitVec 32 := 64#32
  let v22 : BitVec 32 := Scalar.addi v19 c64_i32
  let c1_i32_12 : BitVec 32 := 1#32
  let v23 : BitVec 32 := Scalar.subi v22 c1_i32_12
  let c0_i32_14 : BitVec 32 := 0#32
  let v25 : BitVec 1 := Scalar.cmpi .sgt v23 c0_i32_14
  let v26 : BitVec 32 := Scalar.extui v25
  let c0_i32_15 : BitVec 32 := 0#32
  let v27 : BitVec 1 := Scalar.cmpi .slt v23 c0_i32_15
  let v28 : BitVec 32 := Scalar.extui v27
  let v29 : BitVec 32 := Scalar.subi v26 v28
  let c64_i32_13 : BitVec 32 := 64#32
  let c0_i32_16 : BitVec 32 := 0#32
  let v30 : BitVec 1 := Scalar.cmpi .sgt c64_i32_13 c0_i32_16
  let v31 : BitVec 32 := Scalar.extui v30
  let c0_i32_17 : BitVec 32 := 0#32
  let v32 : BitVec 1 := Scalar.cmpi .slt c64_i32_13 c0_i32_17
  let v33 : BitVec 32 := Scalar.extui v32
  let v34 : BitVec 32 := Scalar.subi v31 v33
  let v35 : BitVec 1 := Scalar.cmpi .ne v29 v34
  let v36 : BitVec 32 := Scalar.remsi v23 c64_i32_13
  let c0_i32_18 : BitVec 32 := 0#32
  let v37 : BitVec 1 := Scalar.cmpi .ne v36 c0_i32_18
  let v38 : BitVec 1 := Scalar.andi v35 v37
  let v24 : BitVec 32 := Scalar.divsi v23 c64_i32_13
  let c1_i32_19 : BitVec 32 := 1#32
  let v39 : BitVec 32 := Scalar.subi v24 c1_i32_19
  let v40 : BitVec 32 := Scalar.select v38 v39 v24
  let v41 : BitVec 32 := Scalar.subi v40 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_23 : BitVec 32 := 1#32
  ⟨c0_i32_21, v45, c1_i32_23⟩

def k0_off4 (v19 : BitVec 32) (k0_t2 : Fin (k0_t2_loop v19).trips) : Fin 1 → Nat :=
  let c0_i32_21 : BitVec 32 := 0#32
  let c1_i32_23 : BitVec 32 := 1#32
  let arg10 : BitVec 32 := Scf.iv c0_i32_21 c1_i32_23 k0_t2
  let c4_i32 : BitVec 32 := 4#32
  let v46 : BitVec 32 := Scalar.muli arg10 c4_i32
  let c0_i32_25 : BitVec 32 := 0#32
  let v47 : BitVec 32 := Scalar.addi v46 c0_i32_25
  let c16_i32 : BitVec 32 := 16#32
  let v48 : BitVec 32 := Scalar.muli v47 c16_i32
  let v49 : Index := Scalar.indexCast v48
  ![v49.toNat]

def k0_chk2 (v50 : IVec S16 32) : Prop :=
  (∀ a x, ((![v50] : Fin 1 → IVec S16 32) a x).toNat < S100000.size a)
instance k0_chk2.dec : ∀ (v50 : IVec S16 32), Decidable (k0_chk2 v50) := fun v50 => decidable_of_iff' _ (Iff.of_eq (k0_chk2.eq_1 v50))
theorem k0_idx1_inb : ∀ (v50 : IVec S16 32) (k0_hw2 : k0_chk2 v50), ∀ a x, ((![v50] : Fin 1 → IVec S16 32) a x).toNat < S100000.size a := fun v50 k0_hw2 => k0_hw2
def k0_off5 (v19 : BitVec 32) (k0_t2 : Fin (k0_t2_loop v19).trips) : Fin 1 → Nat :=
  let c0_i32_21 : BitVec 32 := 0#32
  let c1_i32_23 : BitVec 32 := 1#32
  let arg10 : BitVec 32 := Scf.iv c0_i32_21 c1_i32_23 k0_t2
  let c4_i32_26 : BitVec 32 := 4#32
  let v55 : BitVec 32 := Scalar.muli arg10 c4_i32_26
  let c1_i32_27 : BitVec 32 := 1#32
  let v56 : BitVec 32 := Scalar.addi v55 c1_i32_27
  let c16_i32_28 : BitVec 32 := 16#32
  let v57 : BitVec 32 := Scalar.muli v56 c16_i32_28
  let v58 : Index := Scalar.indexCast v57
  ![v58.toNat]

def k0_chk3 (v59 : IVec S16 32) : Prop :=
  (∀ a x, ((![v59] : Fin 1 → IVec S16 32) a x).toNat < S100000.size a)
instance k0_chk3.dec : ∀ (v59 : IVec S16 32), Decidable (k0_chk3 v59) := fun v59 => decidable_of_iff' _ (Iff.of_eq (k0_chk3.eq_1 v59))
theorem k0_idx2_inb : ∀ (v59 : IVec S16 32) (k0_hw3 : k0_chk3 v59), ∀ a x, ((![v59] : Fin 1 → IVec S16 32) a x).toNat < S100000.size a := fun v59 k0_hw3 => k0_hw3
def k0_off6 (v19 : BitVec 32) (k0_t2 : Fin (k0_t2_loop v19).trips) : Fin 1 → Nat :=
  let c0_i32_21 : BitVec 32 := 0#32
  let c1_i32_23 : BitVec 32 := 1#32
  let arg10 : BitVec 32 := Scf.iv c0_i32_21 c1_i32_23 k0_t2
  let c4_i32_29 : BitVec 32 := 4#32
  let v64 : BitVec 32 := Scalar.muli arg10 c4_i32_29
  let c2_i32_30 : BitVec 32 := 2#32
  let v65 : BitVec 32 := Scalar.addi v64 c2_i32_30
  let c16_i32_31 : BitVec 32 := 16#32
  let v66 : BitVec 32 := Scalar.muli v65 c16_i32_31
  let v67 : Index := Scalar.indexCast v66
  ![v67.toNat]

def k0_chk4 (v68 : IVec S16 32) : Prop :=
  (∀ a x, ((![v68] : Fin 1 → IVec S16 32) a x).toNat < S100000.size a)
instance k0_chk4.dec : ∀ (v68 : IVec S16 32), Decidable (k0_chk4 v68) := fun v68 => decidable_of_iff' _ (Iff.of_eq (k0_chk4.eq_1 v68))
theorem k0_idx3_inb : ∀ (v68 : IVec S16 32) (k0_hw4 : k0_chk4 v68), ∀ a x, ((![v68] : Fin 1 → IVec S16 32) a x).toNat < S100000.size a := fun v68 k0_hw4 => k0_hw4
def k0_off7 (v19 : BitVec 32) (k0_t2 : Fin (k0_t2_loop v19).trips) : Fin 1 → Nat :=
  let c0_i32_21 : BitVec 32 := 0#32
  let c1_i32_23 : BitVec 32 := 1#32
  let arg10 : BitVec 32 := Scf.iv c0_i32_21 c1_i32_23 k0_t2
  let c4_i32_32 : BitVec 32 := 4#32
  let v73 : BitVec 32 := Scalar.muli arg10 c4_i32_32
  let c3_i32 : BitVec 32 := 3#32
  let v74 : BitVec 32 := Scalar.addi v73 c3_i32
  let c16_i32_33 : BitVec 32 := 16#32
  let v75 : BitVec 32 := Scalar.muli v74 c16_i32_33
  let v76 : Index := Scalar.indexCast v75
  ![v76.toNat]

def k0_chk5 (v77 : IVec S16 32) : Prop :=
  (∀ a x, ((![v77] : Fin 1 → IVec S16 32) a x).toNat < S100000.size a)
instance k0_chk5.dec : ∀ (v77 : IVec S16 32), Decidable (k0_chk5 v77) := fun v77 => decidable_of_iff' _ (Iff.of_eq (k0_chk5.eq_1 v77))
theorem k0_idx4_inb : ∀ (v77 : IVec S16 32) (k0_hw5 : k0_chk5 v77), ∀ a x, ((![v77] : Fin 1 → IVec S16 32) a x).toNat < S100000.size a := fun v77 k0_hw5 => k0_hw5
@[reducible] def k0_t3_loop (v19 : BitVec 32) : Scf.Loop 32 :=
  let c0_i32_21 : BitVec 32 := 0#32
  let c64_i32 : BitVec 32 := 64#32
  let v22 : BitVec 32 := Scalar.addi v19 c64_i32
  let c1_i32_12 : BitVec 32 := 1#32
  let v23 : BitVec 32 := Scalar.subi v22 c1_i32_12
  let c0_i32_14 : BitVec 32 := 0#32
  let v25 : BitVec 1 := Scalar.cmpi .sgt v23 c0_i32_14
  let v26 : BitVec 32 := Scalar.extui v25
  let c0_i32_15 : BitVec 32 := 0#32
  let v27 : BitVec 1 := Scalar.cmpi .slt v23 c0_i32_15
  let v28 : BitVec 32 := Scalar.extui v27
  let v29 : BitVec 32 := Scalar.subi v26 v28
  let c64_i32_13 : BitVec 32 := 64#32
  let c0_i32_16 : BitVec 32 := 0#32
  let v30 : BitVec 1 := Scalar.cmpi .sgt c64_i32_13 c0_i32_16
  let v31 : BitVec 32 := Scalar.extui v30
  let c0_i32_17 : BitVec 32 := 0#32
  let v32 : BitVec 1 := Scalar.cmpi .slt c64_i32_13 c0_i32_17
  let v33 : BitVec 32 := Scalar.extui v32
  let v34 : BitVec 32 := Scalar.subi v31 v33
  let v35 : BitVec 1 := Scalar.cmpi .ne v29 v34
  let v36 : BitVec 32 := Scalar.remsi v23 c64_i32_13
  let c0_i32_18 : BitVec 32 := 0#32
  let v37 : BitVec 1 := Scalar.cmpi .ne v36 c0_i32_18
  let v38 : BitVec 1 := Scalar.andi v35 v37
  let v24 : BitVec 32 := Scalar.divsi v23 c64_i32_13
  let c1_i32_19 : BitVec 32 := 1#32
  let v39 : BitVec 32 := Scalar.subi v24 c1_i32_19
  let v40 : BitVec 32 := Scalar.select v38 v39 v24
  let v41 : BitVec 32 := Scalar.subi v40 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let v42 : BitVec 32 := Scalar.addi c0_i32_21 v41
  let c1_i32_24 : BitVec 32 := 1#32
  ⟨v45, v42, c1_i32_24⟩
def k0_off8 (v19 : BitVec 32) (k0_t3 : Fin (k0_t3_loop v19).trips) : Fin 1 → Nat :=
  let c0_i32_21 : BitVec 32 := 0#32
  let c64_i32 : BitVec 32 := 64#32
  let v22 : BitVec 32 := Scalar.addi v19 c64_i32
  let c1_i32_12 : BitVec 32 := 1#32
  let v23 : BitVec 32 := Scalar.subi v22 c1_i32_12
  let c0_i32_14 : BitVec 32 := 0#32
  let v25 : BitVec 1 := Scalar.cmpi .sgt v23 c0_i32_14
  let v26 : BitVec 32 := Scalar.extui v25
  let c0_i32_15 : BitVec 32 := 0#32
  let v27 : BitVec 1 := Scalar.cmpi .slt v23 c0_i32_15
  let v28 : BitVec 32 := Scalar.extui v27
  let v29 : BitVec 32 := Scalar.subi v26 v28
  let c64_i32_13 : BitVec 32 := 64#32
  let c0_i32_16 : BitVec 32 := 0#32
  let v30 : BitVec 1 := Scalar.cmpi .sgt c64_i32_13 c0_i32_16
  let v31 : BitVec 32 := Scalar.extui v30
  let c0_i32_17 : BitVec 32 := 0#32
  let v32 : BitVec 1 := Scalar.cmpi .slt c64_i32_13 c0_i32_17
  let v33 : BitVec 32 := Scalar.extui v32
  let v34 : BitVec 32 := Scalar.subi v31 v33
  let v35 : BitVec 1 := Scalar.cmpi .ne v29 v34
  let v36 : BitVec 32 := Scalar.remsi v23 c64_i32_13
  let c0_i32_18 : BitVec 32 := 0#32
  let v37 : BitVec 1 := Scalar.cmpi .ne v36 c0_i32_18
  let v38 : BitVec 1 := Scalar.andi v35 v37
  let v24 : BitVec 32 := Scalar.divsi v23 c64_i32_13
  let c1_i32_19 : BitVec 32 := 1#32
  let v39 : BitVec 32 := Scalar.subi v24 c1_i32_19
  let v40 : BitVec 32 := Scalar.select v38 v39 v24
  let v41 : BitVec 32 := Scalar.subi v40 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg10 : BitVec 32 := Scf.iv v45 c1_i32_24 k0_t3
  let c4_i32 : BitVec 32 := 4#32
  let v46 : BitVec 32 := Scalar.muli arg10 c4_i32
  let c0_i32_25 : BitVec 32 := 0#32
  let v47 : BitVec 32 := Scalar.addi v46 c0_i32_25
  let c16_i32 : BitVec 32 := 16#32
  let v48 : BitVec 32 := Scalar.muli v47 c16_i32
  let v49 : Index := Scalar.indexCast v48
  ![v49.toNat]

def k0_chk6 (v50 : IVec S16 32) : Prop :=
  (∀ a x, ((![v50] : Fin 1 → IVec S16 32) a x).toNat < S100000.size a)
instance k0_chk6.dec : ∀ (v50 : IVec S16 32), Decidable (k0_chk6 v50) := fun v50 => decidable_of_iff' _ (Iff.of_eq (k0_chk6.eq_1 v50))
theorem k0_idx5_inb : ∀ (v50 : IVec S16 32) (k0_hw6 : k0_chk6 v50), ∀ a x, ((![v50] : Fin 1 → IVec S16 32) a x).toNat < S100000.size a := fun v50 k0_hw6 => k0_hw6
def k0_off9 (v19 : BitVec 32) (k0_t3 : Fin (k0_t3_loop v19).trips) : Fin 1 → Nat :=
  let c0_i32_21 : BitVec 32 := 0#32
  let c64_i32 : BitVec 32 := 64#32
  let v22 : BitVec 32 := Scalar.addi v19 c64_i32
  let c1_i32_12 : BitVec 32 := 1#32
  let v23 : BitVec 32 := Scalar.subi v22 c1_i32_12
  let c0_i32_14 : BitVec 32 := 0#32
  let v25 : BitVec 1 := Scalar.cmpi .sgt v23 c0_i32_14
  let v26 : BitVec 32 := Scalar.extui v25
  let c0_i32_15 : BitVec 32 := 0#32
  let v27 : BitVec 1 := Scalar.cmpi .slt v23 c0_i32_15
  let v28 : BitVec 32 := Scalar.extui v27
  let v29 : BitVec 32 := Scalar.subi v26 v28
  let c64_i32_13 : BitVec 32 := 64#32
  let c0_i32_16 : BitVec 32 := 0#32
  let v30 : BitVec 1 := Scalar.cmpi .sgt c64_i32_13 c0_i32_16
  let v31 : BitVec 32 := Scalar.extui v30
  let c0_i32_17 : BitVec 32 := 0#32
  let v32 : BitVec 1 := Scalar.cmpi .slt c64_i32_13 c0_i32_17
  let v33 : BitVec 32 := Scalar.extui v32
  let v34 : BitVec 32 := Scalar.subi v31 v33
  let v35 : BitVec 1 := Scalar.cmpi .ne v29 v34
  let v36 : BitVec 32 := Scalar.remsi v23 c64_i32_13
  let c0_i32_18 : BitVec 32 := 0#32
  let v37 : BitVec 1 := Scalar.cmpi .ne v36 c0_i32_18
  let v38 : BitVec 1 := Scalar.andi v35 v37
  let v24 : BitVec 32 := Scalar.divsi v23 c64_i32_13
  let c1_i32_19 : BitVec 32 := 1#32
  let v39 : BitVec 32 := Scalar.subi v24 c1_i32_19
  let v40 : BitVec 32 := Scalar.select v38 v39 v24
  let v41 : BitVec 32 := Scalar.subi v40 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg10 : BitVec 32 := Scf.iv v45 c1_i32_24 k0_t3
  let c4_i32_26 : BitVec 32 := 4#32
  let v55 : BitVec 32 := Scalar.muli arg10 c4_i32_26
  let c1_i32_27 : BitVec 32 := 1#32
  let v56 : BitVec 32 := Scalar.addi v55 c1_i32_27
  let c16_i32_28 : BitVec 32 := 16#32
  let v57 : BitVec 32 := Scalar.muli v56 c16_i32_28
  let v58 : Index := Scalar.indexCast v57
  ![v58.toNat]

def k0_chk7 (v59 : IVec S16 32) : Prop :=
  (∀ a x, ((![v59] : Fin 1 → IVec S16 32) a x).toNat < S100000.size a)
instance k0_chk7.dec : ∀ (v59 : IVec S16 32), Decidable (k0_chk7 v59) := fun v59 => decidable_of_iff' _ (Iff.of_eq (k0_chk7.eq_1 v59))
theorem k0_idx6_inb : ∀ (v59 : IVec S16 32) (k0_hw7 : k0_chk7 v59), ∀ a x, ((![v59] : Fin 1 → IVec S16 32) a x).toNat < S100000.size a := fun v59 k0_hw7 => k0_hw7
def k0_off10 (v19 : BitVec 32) (k0_t3 : Fin (k0_t3_loop v19).trips) : Fin 1 → Nat :=
  let c0_i32_21 : BitVec 32 := 0#32
  let c64_i32 : BitVec 32 := 64#32
  let v22 : BitVec 32 := Scalar.addi v19 c64_i32
  let c1_i32_12 : BitVec 32 := 1#32
  let v23 : BitVec 32 := Scalar.subi v22 c1_i32_12
  let c0_i32_14 : BitVec 32 := 0#32
  let v25 : BitVec 1 := Scalar.cmpi .sgt v23 c0_i32_14
  let v26 : BitVec 32 := Scalar.extui v25
  let c0_i32_15 : BitVec 32 := 0#32
  let v27 : BitVec 1 := Scalar.cmpi .slt v23 c0_i32_15
  let v28 : BitVec 32 := Scalar.extui v27
  let v29 : BitVec 32 := Scalar.subi v26 v28
  let c64_i32_13 : BitVec 32 := 64#32
  let c0_i32_16 : BitVec 32 := 0#32
  let v30 : BitVec 1 := Scalar.cmpi .sgt c64_i32_13 c0_i32_16
  let v31 : BitVec 32 := Scalar.extui v30
  let c0_i32_17 : BitVec 32 := 0#32
  let v32 : BitVec 1 := Scalar.cmpi .slt c64_i32_13 c0_i32_17
  let v33 : BitVec 32 := Scalar.extui v32
  let v34 : BitVec 32 := Scalar.subi v31 v33
  let v35 : BitVec 1 := Scalar.cmpi .ne v29 v34
  let v36 : BitVec 32 := Scalar.remsi v23 c64_i32_13
  let c0_i32_18 : BitVec 32 := 0#32
  let v37 : BitVec 1 := Scalar.cmpi .ne v36 c0_i32_18
  let v38 : BitVec 1 := Scalar.andi v35 v37
  let v24 : BitVec 32 := Scalar.divsi v23 c64_i32_13
  let c1_i32_19 : BitVec 32 := 1#32
  let v39 : BitVec 32 := Scalar.subi v24 c1_i32_19
  let v40 : BitVec 32 := Scalar.select v38 v39 v24
  let v41 : BitVec 32 := Scalar.subi v40 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg10 : BitVec 32 := Scf.iv v45 c1_i32_24 k0_t3
  let c4_i32_29 : BitVec 32 := 4#32
  let v64 : BitVec 32 := Scalar.muli arg10 c4_i32_29
  let c2_i32_30 : BitVec 32 := 2#32
  let v65 : BitVec 32 := Scalar.addi v64 c2_i32_30
  let c16_i32_31 : BitVec 32 := 16#32
  let v66 : BitVec 32 := Scalar.muli v65 c16_i32_31
  let v67 : Index := Scalar.indexCast v66
  ![v67.toNat]

def k0_chk8 (v68 : IVec S16 32) : Prop :=
  (∀ a x, ((![v68] : Fin 1 → IVec S16 32) a x).toNat < S100000.size a)
instance k0_chk8.dec : ∀ (v68 : IVec S16 32), Decidable (k0_chk8 v68) := fun v68 => decidable_of_iff' _ (Iff.of_eq (k0_chk8.eq_1 v68))
theorem k0_idx7_inb : ∀ (v68 : IVec S16 32) (k0_hw8 : k0_chk8 v68), ∀ a x, ((![v68] : Fin 1 → IVec S16 32) a x).toNat < S100000.size a := fun v68 k0_hw8 => k0_hw8
def k0_off11 (v19 : BitVec 32) (k0_t3 : Fin (k0_t3_loop v19).trips) : Fin 1 → Nat :=
  let c0_i32_21 : BitVec 32 := 0#32
  let c64_i32 : BitVec 32 := 64#32
  let v22 : BitVec 32 := Scalar.addi v19 c64_i32
  let c1_i32_12 : BitVec 32 := 1#32
  let v23 : BitVec 32 := Scalar.subi v22 c1_i32_12
  let c0_i32_14 : BitVec 32 := 0#32
  let v25 : BitVec 1 := Scalar.cmpi .sgt v23 c0_i32_14
  let v26 : BitVec 32 := Scalar.extui v25
  let c0_i32_15 : BitVec 32 := 0#32
  let v27 : BitVec 1 := Scalar.cmpi .slt v23 c0_i32_15
  let v28 : BitVec 32 := Scalar.extui v27
  let v29 : BitVec 32 := Scalar.subi v26 v28
  let c64_i32_13 : BitVec 32 := 64#32
  let c0_i32_16 : BitVec 32 := 0#32
  let v30 : BitVec 1 := Scalar.cmpi .sgt c64_i32_13 c0_i32_16
  let v31 : BitVec 32 := Scalar.extui v30
  let c0_i32_17 : BitVec 32 := 0#32
  let v32 : BitVec 1 := Scalar.cmpi .slt c64_i32_13 c0_i32_17
  let v33 : BitVec 32 := Scalar.extui v32
  let v34 : BitVec 32 := Scalar.subi v31 v33
  let v35 : BitVec 1 := Scalar.cmpi .ne v29 v34
  let v36 : BitVec 32 := Scalar.remsi v23 c64_i32_13
  let c0_i32_18 : BitVec 32 := 0#32
  let v37 : BitVec 1 := Scalar.cmpi .ne v36 c0_i32_18
  let v38 : BitVec 1 := Scalar.andi v35 v37
  let v24 : BitVec 32 := Scalar.divsi v23 c64_i32_13
  let c1_i32_19 : BitVec 32 := 1#32
  let v39 : BitVec 32 := Scalar.subi v24 c1_i32_19
  let v40 : BitVec 32 := Scalar.select v38 v39 v24
  let v41 : BitVec 32 := Scalar.subi v40 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg10 : BitVec 32 := Scf.iv v45 c1_i32_24 k0_t3
  let c4_i32_32 : BitVec 32 := 4#32
  let v73 : BitVec 32 := Scalar.muli arg10 c4_i32_32
  let c3_i32 : BitVec 32 := 3#32
  let v74 : BitVec 32 := Scalar.addi v73 c3_i32
  let c16_i32_33 : BitVec 32 := 16#32
  let v75 : BitVec 32 := Scalar.muli v74 c16_i32_33
  let v76 : Index := Scalar.indexCast v75
  ![v76.toNat]

def k0_chk1 (v19 : BitVec 32) : Prop :=
  ((k0_t2_loop v19).OK) ∧
  (∀ k0_t2 : Fin (k0_t2_loop v19).trips, ∀ a, (k0_off4 v19 k0_t2) a + S16.size a ≤ S8192.size a) ∧
  (∀ k0_t2 : Fin (k0_t2_loop v19).trips, ∀ a, (k0_off5 v19 k0_t2) a + S16.size a ≤ S8192.size a) ∧
  (∀ k0_t2 : Fin (k0_t2_loop v19).trips, ∀ a, (k0_off6 v19 k0_t2) a + S16.size a ≤ S8192.size a) ∧
  (∀ k0_t2 : Fin (k0_t2_loop v19).trips, ∀ a, (k0_off7 v19 k0_t2) a + S16.size a ≤ S8192.size a) ∧
  ((k0_t3_loop v19).OK) ∧
  (∀ k0_t3 : Fin (k0_t3_loop v19).trips, ∀ a, (k0_off8 v19 k0_t3) a + S16.size a ≤ S8192.size a) ∧
  (∀ k0_t3 : Fin (k0_t3_loop v19).trips, ∀ a, (k0_off9 v19 k0_t3) a + S16.size a ≤ S8192.size a) ∧
  (∀ k0_t3 : Fin (k0_t3_loop v19).trips, ∀ a, (k0_off10 v19 k0_t3) a + S16.size a ≤ S8192.size a) ∧
  (∀ k0_t3 : Fin (k0_t3_loop v19).trips, ∀ a, (k0_off11 v19 k0_t3) a + S16.size a ≤ S8192.size a)
instance k0_chk1.dec : ∀ (v19 : BitVec 32), Decidable (k0_chk1 v19) := fun v19 => decidable_of_iff' _ (Iff.of_eq (k0_chk1.eq_1 v19))
theorem k0_t2_ok : ∀ (v19 : BitVec 32) (k0_hw1 : k0_chk1 v19), (k0_t2_loop v19).OK := fun v19 k0_hw1 => k0_hw1.1
theorem k0_off4_inb : ∀ (v19 : BitVec 32) (k0_hw1 : k0_chk1 v19) (k0_t2 : Fin (k0_t2_loop v19).trips), ∀ a, (k0_off4 v19 k0_t2) a + S16.size a ≤ S8192.size a := fun v19 k0_hw1 k0_t2 => k0_hw1.2.1 k0_t2
theorem k0_off5_inb : ∀ (v19 : BitVec 32) (k0_hw1 : k0_chk1 v19) (k0_t2 : Fin (k0_t2_loop v19).trips), ∀ a, (k0_off5 v19 k0_t2) a + S16.size a ≤ S8192.size a := fun v19 k0_hw1 k0_t2 => k0_hw1.2.2.1 k0_t2
theorem k0_off6_inb : ∀ (v19 : BitVec 32) (k0_hw1 : k0_chk1 v19) (k0_t2 : Fin (k0_t2_loop v19).trips), ∀ a, (k0_off6 v19 k0_t2) a + S16.size a ≤ S8192.size a := fun v19 k0_hw1 k0_t2 => k0_hw1.2.2.2.1 k0_t2
theorem k0_off7_inb : ∀ (v19 : BitVec 32) (k0_hw1 : k0_chk1 v19) (k0_t2 : Fin (k0_t2_loop v19).trips), ∀ a, (k0_off7 v19 k0_t2) a + S16.size a ≤ S8192.size a := fun v19 k0_hw1 k0_t2 => k0_hw1.2.2.2.2.1 k0_t2
theorem k0_t3_ok : ∀ (v19 : BitVec 32) (k0_hw1 : k0_chk1 v19), (k0_t3_loop v19).OK := fun v19 k0_hw1 => k0_hw1.2.2.2.2.2.1
theorem k0_off8_inb : ∀ (v19 : BitVec 32) (k0_hw1 : k0_chk1 v19) (k0_t3 : Fin (k0_t3_loop v19).trips), ∀ a, (k0_off8 v19 k0_t3) a + S16.size a ≤ S8192.size a := fun v19 k0_hw1 k0_t3 => k0_hw1.2.2.2.2.2.2.1 k0_t3
theorem k0_off9_inb : ∀ (v19 : BitVec 32) (k0_hw1 : k0_chk1 v19) (k0_t3 : Fin (k0_t3_loop v19).trips), ∀ a, (k0_off9 v19 k0_t3) a + S16.size a ≤ S8192.size a := fun v19 k0_hw1 k0_t3 => k0_hw1.2.2.2.2.2.2.2.1 k0_t3
theorem k0_off10_inb : ∀ (v19 : BitVec 32) (k0_hw1 : k0_chk1 v19) (k0_t3 : Fin (k0_t3_loop v19).trips), ∀ a, (k0_off10 v19 k0_t3) a + S16.size a ≤ S8192.size a := fun v19 k0_hw1 k0_t3 => k0_hw1.2.2.2.2.2.2.2.2.1 k0_t3
theorem k0_off11_inb : ∀ (v19 : BitVec 32) (k0_hw1 : k0_chk1 v19) (k0_t3 : Fin (k0_t3_loop v19).trips), ∀ a, (k0_off11 v19 k0_t3) a + S16.size a ≤ S8192.size a := fun v19 k0_hw1 k0_t3 => k0_hw1.2.2.2.2.2.2.2.2.2 k0_t3

def k0_chk9 (v77 : IVec S16 32) : Prop :=
  (∀ a x, ((![v77] : Fin 1 → IVec S16 32) a x).toNat < S100000.size a)
instance k0_chk9.dec : ∀ (v77 : IVec S16 32), Decidable (k0_chk9 v77) := fun v77 => decidable_of_iff' _ (Iff.of_eq (k0_chk9.eq_1 v77))
theorem k0_idx8_inb : ∀ (v77 : IVec S16 32) (k0_hw9 : k0_chk9 v77), ∀ a x, ((![v77] : Fin 1 → IVec S16 32) a x).toNat < S100000.size a := fun v77 k0_hw9 => k0_hw9
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_25_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S32x1_S32 : S32x1.ShapeCasts S32
  squeezes_S1x8192_S8192 : S1x8192.Squeezes S8192
  inb_S48_S32_0 : ∀ a, (![0] : Fin 1 → Nat) a + S32.size a ≤ S48.size a
  h_S16 : 0 < S16.numel
  slices_S16_o0_S1 : S16.Slices ![0] S1
  inpos_S1_p0 : ∀ a, (![0] : Fin 1 → Nat) a < S1.size a
  iota_S16_d0_w32_scVector : S16.Iotas .scVector 32 [0]
  h_S100000 : 0 < S100000.numel
  squeezes_S1x100000_S100000 : S1x100000.Squeezes S100000
  hcc0_scratch3 : 0 + S_.numel ≤ 3
  hcc0_scratch4 : 1 + S_.numel ≤ 3
  hcc0_scoped0 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x8192.size a ≤ S32x8192.size a
  k0_t1_ok : k0_t1_loop.OK
  k0_off2_inb : ∀ k0_t1 : Fin k0_t1_loop.trips, ∀ a, (k0_off2 k0_t1) a + S16.size a ≤ S100000.size a
  k0_off3_inb : ∀ i : grid0.Coords, ∀ a, (k0_off3 i) a + S16.size a ≤ S48.size a
  k0_off12_inb : ∀ i : grid0.Coords, ∀ a, (k0_off12 i) a + S1x100000.size a ≤ S32x100000.size a

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0

class Facts : Prop extends Facts₀ where

variable [Facts]
-- ==== ReferenceIdeal.lean ====
abbrev S32x8192 : Shape := ⟨2, ![32, 8192]⟩
abbrev S32x1 : Shape := ⟨2, ![32, 1]⟩
abbrev S8192 : Shape := ⟨1, ![8192]⟩
abbrev S1x8192 : Shape := ⟨2, ![1, 8192]⟩
abbrev S_ : Shape := ⟨0, ![]⟩
abbrev S32 : Shape := ⟨1, ![32]⟩
abbrev S32x100000 : Shape := ⟨2, ![32, 100000]⟩
abbrev S32x8192x1 : Shape := ⟨3, ![32, 8192, 1]⟩
abbrev S32x8192x2 : Shape := ⟨3, ![32, 8192, 2]⟩

abbrev nBuf : Space → Nat
  | .hbm => 46
  | .vmem => 0
  | .smem => 0
  | _ => 0

abbrev bufTy : (tb : Table) → Fin (tcTables nBuf tb) → BufTy
  | .hbm, ⟨0, _⟩ => ⟨S32x8192, .i32⟩
  | .hbm, ⟨1, _⟩ => ⟨S32x1, .i32⟩
  | .hbm, ⟨2, _⟩ => ⟨S8192, .i32⟩
  | .hbm, ⟨3, _⟩ => ⟨S1x8192, .i32⟩
  | .hbm, ⟨4, _⟩ => ⟨S32x8192, .i32⟩
  | .hbm, ⟨5, _⟩ => ⟨S32x8192, .i32⟩
  | .hbm, ⟨6, _⟩ => ⟨S32x8192, .i32⟩
  | .hbm, ⟨7, _⟩ => ⟨S_, .i32⟩
  | .hbm, ⟨8, _⟩ => ⟨S32x8192, .i32⟩
  | .hbm, ⟨9, _⟩ => ⟨S32x8192, .i1⟩
  | .hbm, ⟨10, _⟩ => ⟨S_, .i32⟩
  | .hbm, ⟨11, _⟩ => ⟨S_, .i32⟩
  | .hbm, ⟨12, _⟩ => ⟨S32x8192, .i32⟩
  | .hbm, ⟨13, _⟩ => ⟨S32x8192, .i32⟩
  | .hbm, ⟨14, _⟩ => ⟨S32x8192, .i32⟩
  | .hbm, ⟨15, _⟩ => ⟨S_, .i32⟩
  | .hbm, ⟨16, _⟩ => ⟨S32x8192, .i32⟩
  | .hbm, ⟨17, _⟩ => ⟨S32x8192, .i1⟩
  | .hbm, ⟨18, _⟩ => ⟨S_, .i32⟩
  | .hbm, ⟨19, _⟩ => ⟨S32x8192, .i32⟩
  | .hbm, ⟨20, _⟩ => ⟨S32x8192, .i32⟩
  | .hbm, ⟨21, _⟩ => ⟨S32, .i32⟩
  | .hbm, ⟨22, _⟩ => ⟨S32x1, .i32⟩
  | .hbm, ⟨23, _⟩ => ⟨S_, .i32⟩
  | .hbm, ⟨24, _⟩ => ⟨S32x100000, .i32⟩
  | .hbm, ⟨25, _⟩ => ⟨S_, .i32⟩
  | .hbm, ⟨26, _⟩ => ⟨S32x1, .i32⟩
  | .hbm, ⟨27, _⟩ => ⟨S32x1, .i1⟩
  | .hbm, ⟨28, _⟩ => ⟨S_, .i32⟩
  | .hbm, ⟨29, _⟩ => ⟨S32x1, .i32⟩
  | .hbm, ⟨30, _⟩ => ⟨S32x1, .i32⟩
  | .hbm, ⟨31, _⟩ => ⟨S32x1, .i32⟩
  | .hbm, ⟨32, _⟩ => ⟨S_, .i32⟩
  | .hbm, ⟨33, _⟩ => ⟨S32x8192, .i32⟩
  | .hbm, ⟨34, _⟩ => ⟨S32x8192, .i1⟩
  | .hbm, ⟨35, _⟩ => ⟨S_, .i32⟩
  | .hbm, ⟨36, _⟩ => ⟨S32x8192, .i32⟩
  | .hbm, ⟨37, _⟩ => ⟨S32x8192, .i32⟩
  | .hbm, ⟨38, _⟩ => ⟨S32x8192, .i32⟩
  | .hbm, ⟨39, _⟩ => ⟨S32x8192, .i32⟩
  | .hbm, ⟨40, _⟩ => ⟨S32x8192x1, .i32⟩
  | .hbm, ⟨41, _⟩ => ⟨S32x8192x1, .i32⟩
  | .hbm, ⟨42, _⟩ => ⟨S32x8192x2, .i32⟩
  | .hbm, ⟨43, _⟩ => ⟨S_, .i32⟩
  | .hbm, ⟨44, _⟩ => ⟨S32x8192, .i32⟩
  | .hbm, ⟨45, _⟩ => ⟨S32x100000, .i32⟩
  | _, _ => ⟨S32x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_c_5 : Ref sig .tc := ⟨.hbm, 25, rfl⟩
abbrev main_v14 : Ref sig .tc := ⟨.hbm, 26, rfl⟩
abbrev main_v15 : Ref sig .tc := ⟨.hbm, 27, rfl⟩
abbrev main_c_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_7 : Ref sig .tc := ⟨.hbm, 32, rfl⟩
abbrev main_v19 : Ref sig .tc := ⟨.hbm, 33, rfl⟩
abbrev main_v20 : Ref sig .tc := ⟨.hbm, 34, rfl⟩
abbrev main_c_8 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_9 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S32x8192_0_1 : S1x8192.BroadcastsInDim S32x8192 (![0, 1] : Fin 2 → Fin S32x8192.rank)
  bcast_S32x1_S32x8192_0_1 : S32x1.BroadcastsInDim S32x8192 (![0, 1] : Fin 2 → Fin S32x8192.rank)
  bcast_S_S32x8192 : S_.BroadcastsInDim S32x8192 (![] : Fin 0 → Fin S32x8192.rank)
  bcast_S32_S32x1_0 : S32.BroadcastsInDim S32x1 (![0] : Fin 1 → Fin S32x1.rank)
  bcast_S_S32x100000 : S_.BroadcastsInDim S32x100000 (![] : Fin 0 → Fin S32x100000.rank)
  bcast_S_S32x1 : S_.BroadcastsInDim S32x1 (![] : Fin 0 → Fin S32x1.rank)
  bcast_S32x8192_S32x8192x1_0_1 : S32x8192.BroadcastsInDim S32x8192x1 (![0, 1] : Fin 2 → Fin S32x8192x1.rank)
  concatenates_S32x8192x1_S32x8192x1_S32x8192x2_d2 : Shape.Concatenates [S32x8192x1, S32x8192x1] S32x8192x2 2
  scatter_S32x100000_S32x8192x2_S32x8192_n_01_01_2_wf : ScatterDims.WF S32x100000 S32x8192x2 S32x8192 [] [0, 1] [0, 1] 2

variable [Facts₀]

def scatter_S32x100000_S32x8192x2_S32x8192_n_01_01_2 : ScatterDims S32x100000 S32x8192x2 S32x8192 where
  updateWindowDims := []
  insertedWindowDims := [0, 1]
  scatterDimsToOperandDims := [0, 1]
  indexVectorDim := 2
  wf := scatter_S32x100000_S32x8192x2_S32x8192_n_01_01_2_wf

class Facts : Prop extends Facts₀ where

variable [Facts]
-- ==== Proof.HistSpec.lean ====
/-
  The token-count table, as one function of the two argument arrays.

  For a row of 8192 tokens and a row length `n`, the count of a token value `v` is the number of positions
  `s < n` whose token, read as an unsigned word, is `v` — kept as a 32-bit word, so that it is literally the
  wrapping sum of ones both programs accumulate. `countUpTo` is the same count restricted to the first `p`
  positions: the quantity a scan over the row, sixteen positions at a time, has accumulated after `p` positions.
-/
import Idealize.ShloMosaic.Lib.ValueIdx
import Mathlib.Data.BitVec

noncomputable section

open scoped BigOperators

namespace Cert.Hist

open Idealize.ShloMosaic Idealize.ShloMosaic.ValueIdx

/-- Among the first `p` positions of a row, those below the row's length `n` whose token is `v`, counted as a
    32-bit word (a wrapping sum of ones). -/
def countUpTo (ids : Fin 8192 → BitVec 32) (n p v : Nat) : BitVec 32 :=
  ∑ s : Fin 8192, if s.val < p ∧ s.val < n ∧ (ids s).toNat = v then 1 else 0

/-- The whole row's count of the token `v`: every position below the row's length `n`. -/
def count (ids : Fin 8192 → BitVec 32) (n v : Nat) : BitVec 32 := countUpTo ids n 8192 v

/-- Row `b` of the token array. -/
def row (x0 : IVec ⟨2, ![32, 8192]⟩ 32) (b : Fin 32) : Fin 8192 → BitVec 32 := fun s => x0 (ix2 b s)

/-- The length of row `b`: the row's entry of the lengths column, read unsigned. -/
def len (x1 : IVec ⟨2, ![32, 1]⟩ 32) (b : Fin 32) : Nat := (x1 (ix2 b (0 : Fin 1))).toNat

/-- The token-count table: entry `(b, v)` is the count of `v` among the first `len b` tokens of row `b`. -/
def G (x0 : IVec ⟨2, ![32, 8192]⟩ 32) (x1 : IVec ⟨2, ![32, 1]⟩ 32) : IVec ⟨2, ![32, 100000]⟩ 32 :=
  fun i => count (row x0 ⟨(i 0).val, idx2_lt0 i⟩) (len x1 ⟨(i 0).val, idx2_lt0 i⟩) (i 1).val

/-- Before any position is scanned the count is zero. -/
theorem countUpTo_zero (ids : Fin 8192 → BitVec 32) (n v : Nat) : countUpTo ids n 0 v = 0 := by
  unfold countUpTo
  apply Finset.sum_eq_zero
  intro s _
  rw [if_neg]
  rintro ⟨h, -⟩
  exact Nat.not_lt_zero _ h

/-- Once the scan has passed the row's length, or the row's end, it holds the whole count. -/
theorem countUpTo_of_le (ids : Fin 8192 → BitVec 32) (n p v : Nat) (h : n ≤ p ∨ 8192 ≤ p) :
    countUpTo ids n p v = count ids n v := by
  unfold count countUpTo
  apply Finset.sum_congr rfl
  intro s _
  have hs := s.isLt
  congr 1
  apply propext
  constructor
  · rintro ⟨_, h2, h3⟩; exact ⟨hs, h2, h3⟩
  · rintro ⟨_, h2, h3⟩; exact ⟨by omega, h2, h3⟩

end Cert.Hist

end
-- ==== Proof.TileSetupBits.lean ====
/-
  The histogram kernel's launch, its resources and how they are shared out.

  Thirty-two workers — two SparseCores, sixteen vector subcores each — each count one row of the token array:
  worker (core c, subcore s) owns row 2·s + c of the tokens and of the result, and every worker reads the whole
  32-word array of row lengths. So the call hands each SparseCore the sixteen token rows and result rows of its
  parity, and a read share of the lengths; a SparseCore hands each of its subcores its one row of each and a
  sixteenth of that read share. Rows of distinct workers are disjoint and together they are the whole array
  (every row number is 2·(w / 2) + w % 2), so what the workers hand back joins to the whole result, each row at the
  one table `Cert.Hist.G` of the launch contents.
-/
import proofs.«213801_g6897717477520_cont_9to1_m_30_22_alg».proof.Defs
import proofs.«213801_g6897717477520_cont_9to1_m_30_22_alg».proof.Proof.HistSpec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«213801_g6897717477520_cont_9to1_m_30_22_alg».proof.Proof.Gen.Kernel
import proofs.«213801_g6897717477520_cont_9to1_m_30_22_alg».proof.Proof.Gen.Kernel.Skeleton

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The tokens, the row lengths as the program's first line reshapes them to a flat array, the result, and the row
    lengths as the argument gives them, as locations of device `d`. -/
abbrev idsLoc (d : Dev nD) : Loc nD τ sig := (SparseCore.T d).loc main_arg0
abbrev lenLoc (d : Dev nD) : Loc nD τ sig := (SparseCore.T d).loc main_v0
abbrev outLoc (d : Dev nD) : Loc nD τ sig := (SparseCore.T d).loc main_v1
abbrev argLenLoc (d : Dev nD) : Loc nD τ sig := (SparseCore.T d).loc main_arg1

/-- The flat array of row lengths: entry `b` is the argument's entry `(b, 0)`. -/
def lenF (d : Dev nD) : Buf (Elt F) (lenLoc d) := fun j => m (argLenLoc d) (ValueIdx.ix2 (j 0) (0 : Fin 1))

/-- The table of counts of device `d`'s launch contents. -/
def outG (d : Dev nD) : Buf (Elt F) (outLoc d) := Cert.Hist.G (m (idsLoc d)) (m (argLenLoc d))

/-- What the proof asks of the launch memory: every token names a table entry and every row length is at most the
    row's extent — what the precondition says. -/
def PreOK : Prop := ∀ d : Dev nD, (∀ i, (m (idsLoc d) i).toNat < 100000) ∧ (∀ i, (m (argLenLoc d) i).toNat < 8192)

/-! ## Workers and their rows -/

/-- The row a worker counts: twice its subcore number plus its core number. -/
def wid (c : Fin 2) (s : Fin 16) : Fin 32 := ⟨2 * s.val + c.val, by omega⟩

theorem wid_inj {c c' : Fin 2} {s s' : Fin 16} (h : wid c s = wid c' s') : c = c' ∧ s = s' := by
  have := congrArg Fin.val h
  simp only [wid] at this
  exact ⟨Fin.ext (by omega), Fin.ext (by omega)⟩

/-- The entries of row `w` of a 32-row array. -/
def rowSet {n : Nat} (w : Fin 32) : Finset (⟨2, ![32, n]⟩ : Shape).Idx := Finset.univ.filter fun j => (j 0).val = w.val

theorem mem_rowSet {n : Nat} {w : Fin 32} {j : (⟨2, ![32, n]⟩ : Shape).Idx} : j ∈ rowSet w ↔ (j 0).val = w.val := by
  simp [rowSet]

theorem rowSet_disjoint {n : Nat} {w w' : Fin 32} (h : w ≠ w') : Disjoint (rowSet (n := n) w) (rowSet w') :=
  Finset.disjoint_left.mpr fun j h1 h2 => h (Fin.ext ((mem_rowSet.mp h1).symm.trans (mem_rowSet.mp h2)))

/-- The rows of one SparseCore's workers. -/
def coreSet {n : Nat} (c : Fin 2) : Finset (⟨2, ![32, n]⟩ : Shape).Idx := (Finset.univ : Finset (Fin 16)).biUnion fun s => rowSet (wid c s)

theorem core_rows_disjoint {n : Nat} (c : Fin 2) :
    ∀ s ∈ (Finset.univ : Finset (Fin 16)), ∀ s' ∈ (Finset.univ : Finset (Fin 16)), s ≠ s' → Disjoint (rowSet (n := n) (wid c s)) (rowSet (wid c s')) :=
  fun _ _ _ _ h => rowSet_disjoint fun e => h (wid_inj e).2

theorem coreSets_disjoint {n : Nat} :
    ∀ c ∈ (Finset.univ : Finset (Fin 2)), ∀ c' ∈ (Finset.univ : Finset (Fin 2)), c ≠ c' → Disjoint (coreSet (n := n) c) (coreSet c') := by
  intro c _ c' _ h
  refine Finset.disjoint_left.mpr fun j h1 h2 => ?_
  obtain ⟨s, -, hs⟩ := Finset.mem_biUnion.mp h1
  obtain ⟨s', -, hs'⟩ := Finset.mem_biUnion.mp h2
  exact h (wid_inj (Fin.ext ((mem_rowSet.mp hs).symm.trans (mem_rowSet.mp hs')))).1

theorem coreSets_cover {n : Nat} : (Finset.univ : Finset (Fin 2)).biUnion (coreSet (n := n)) = Finset.univ := by
  ext j
  simp only [Finset.mem_biUnion, Finset.mem_univ, true_and, iff_true]
  have hj : (j 0).val < 32 := ValueIdx.idx2_lt0 j
  exact ⟨⟨(j 0).val % 2, by omega⟩, Finset.mem_biUnion.mpr ⟨⟨(j 0).val / 2, by omega⟩, Finset.mem_univ _, mem_rowSet.mpr (by simp only [wid]; omega)⟩⟩

/-! ## What a worker is handed and hands back -/

/-- The worker's share of the lengths array: the SparseCore's token of the whole, then the subcore's token of that. -/
abbrev lenShare (c : Fin 2) (i : Fin 16) : PosShare TreeShare := Transfers.shareTok (Transfers.shareTok fullShare 2 c) 16 i

/-- What a worker is handed, and what it hands back: its row of the tokens, its share of the lengths, its row of the
    result — on the way back holding its row of the table of counts. -/
def goRes (d : Dev nD) (c : Fin 2) (i : Fin 16) : sProp 𝕄 :=
  iprop((idsLoc d ↦[rowSet (wid c i)]{fullShare} m (idsLoc d)) ∗ (lenLoc d ↦{lenShare c i} lenF m d)
    ∗ (outLoc d ↦[rowSet (wid c i)]{fullShare} m (outLoc d)))
def tdRes (d : Dev nD) (c : Fin 2) (i : Fin 16) : sProp 𝕄 :=
  iprop((idsLoc d ↦[rowSet (wid c i)]{fullShare} m (idsLoc d)) ∗ (lenLoc d ↦{lenShare c i} lenF m d)
    ∗ (outLoc d ↦[rowSet (wid c i)]{fullShare} outG m d))

end Cert.Kernel.Tile

end
-- ==== Proof.HistStep.lean ====
/-
  The histogram step, as a pure function.

  One indexed store with add takes the table of counts after the first p positions of a row to the table after
  p + 16 positions: each of the sixteen lanes whose position p + k lies below the row's length adds 1 at the entry
  its token names, the lanes taken in ascending order, so that equal tokens within the chunk accumulate. Read at
  one entry v, the fold over the lanes adds to the old value the number of set lanes whose token is v, and that
  number is exactly the difference between the count over the first p + 16 positions and the count over the
  first p. Everything is a wrapping sum of ones in the ring of 32-bit words.
-/
import Idealize.ShloMosaic.PureOps
import Idealize.ShloMosaic.Lib.Scf
import proofs.«213801_g6897717477520_cont_9to1_m_30_22_alg».proof.Proof.HistSpec

noncomputable section

open scoped BigOperators

namespace Cert.Hist

open Idealize.ShloMosaic Idealize.ShloMosaic.ValueIdx

abbrev S16 : Shape := ⟨1, ![16]⟩
abbrev S100000 : Shape := ⟨1, ![100000]⟩

/-- The table after the first p positions of the row have been scanned. -/
def tbl (ids : Fin 8192 → BitVec 32) (n p : Nat) : IVec S100000 32 := fun j => countUpTo ids n p (j 0).val

theorem tbl_zero (ids : Fin 8192 → BitVec 32) (n : Nat) : tbl ids n 0 = fun _ => 0#32 := by
  funext j
  exact countUpTo_zero ids n (j 0).val

/-! ## The count over sixteen more positions -/

/-- Position p + k of the row, for a lane k of a chunk that starts at p and fits in the row. -/
def posEmb (p : Nat) (hp : p + 16 ≤ 8192) : Fin 16 ↪ Fin 8192 where
  toFun k := ⟨p + k.val, by omega⟩
  inj' := by
    intro a b hab
    have := congrArg Fin.val hab
    simp only at this
    exact Fin.ext (by omega)

/-- The count over the first p + 16 positions is the count over the first p plus the number of lanes k
    with position p + k below the length and token v. -/
theorem countUpTo_add16 (ids : Fin 8192 → BitVec 32) (n p v : Nat) (hp : p + 16 ≤ 8192) :
    countUpTo ids n (p + 16) v
      = countUpTo ids n p v
        + ∑ k : Fin 16, if p + k.val < n ∧ (ids ⟨p + k.val, by omega⟩).toNat = v then (1 : BitVec 32) else 0 := by
  unfold countUpTo
  -- each position of the first p + 16 is either one of the first p or one of the sixteen after them
  have hsplit : ∀ s : Fin 8192,
      (if s.val < p + 16 ∧ s.val < n ∧ (ids s).toNat = v then (1 : BitVec 32) else 0)
        = (if s.val < p ∧ s.val < n ∧ (ids s).toNat = v then (1 : BitVec 32) else 0)
          + (if p ≤ s.val ∧ s.val < p + 16 ∧ s.val < n ∧ (ids s).toNat = v then (1 : BitVec 32) else 0) := by
    intro s
    by_cases h1 : s.val < p
    · by_cases h2 : s.val < n ∧ (ids s).toNat = v
      · rw [if_pos ⟨by omega, h2⟩, if_pos ⟨h1, h2⟩, if_neg (by omega), add_zero]
      · rw [if_neg (fun h => h2 h.2), if_neg (fun h => h2 h.2), if_neg (fun h => h2 h.2.2), add_zero]
    · by_cases h2 : s.val < p + 16 ∧ s.val < n ∧ (ids s).toNat = v
      · rw [if_pos h2, if_neg (fun h => h1 h.1), if_pos ⟨by omega, h2⟩, zero_add]
      · rw [if_neg h2, if_neg (fun h => h1 h.1), if_neg (fun h => h2 h.2), add_zero]
  rw [Finset.sum_congr rfl (fun s _ => hsplit s), Finset.sum_add_distrib]
  refine congrArg (fun t => _ + t) ?_
  -- the sixteen positions after the first p are the image of the lanes under k ↦ p + k
  rw [← Finset.sum_subset (Finset.subset_univ (Finset.univ.map (posEmb p hp)))]
  · rw [Finset.sum_map]
    apply Finset.sum_congr rfl
    intro k _
    have hk := k.isLt
    show (if p ≤ p + k.val ∧ p + k.val < p + 16 ∧ p + k.val < n ∧ (ids ⟨p + k.val, _⟩).toNat = v then (1 : BitVec 32) else 0) = _
    by_cases h2 : p + k.val < n ∧ (ids ⟨p + k.val, by omega⟩).toNat = v
    · rw [if_pos ⟨by omega, by omega, h2⟩, if_pos h2]
    · rw [if_neg (fun h => h2 h.2.2), if_neg h2]
  · intro s _ hs
    rw [if_neg]
    rintro ⟨h1, h2, -⟩
    apply hs
    rw [Finset.mem_map]
    exact ⟨⟨s.val - p, by omega⟩, Finset.mem_univ _, Fin.ext (by show p + (s.val - p) = s.val; omega)⟩

/-! ## The fold over the lanes, read at one entry -/

/-- Lane k of the sixteen, as an index of the chunk's shape. -/
theorem ofLane_eq_ix1 (k : Fin 16) : Shape.ofLane (d := ![16]) k = ix1 k := by
  funext a
  match a with
  | ⟨0, _⟩ => rfl

/-- The fold of the indexed store with add over a list of lanes, read at the entry j: the value before plus, for
    each lane of the list that is set and whose index word names j, the word that lane stores (a lane further
    down the list sees the additions of the lanes before it, which is what makes equal indices accumulate). -/
theorem fold_apply {F : FTy → Type} [FloatOps F] (chunk ones : IVec S16 32) (mask : IVec S16 1)
    (h : ∀ a x, ((![chunk] : Fin 1 → IVec S16 32) a x).toNat < S100000.size a)
    (l : List (Fin 16)) (g : Vec F S100000 .i32) (j : S100000.Idx) :
    (l.foldl (fun (g : Vec F S100000 .i32) (k : Fin 16) =>
      let x : S16.Idx := Shape.ofLane (d := ![16]) k
      if mask x = 1 then
        let i := idxAt (s := S100000) ![chunk] h x
        let y := if (true : Bool) then Elt.idxAdd (F := F) .i32 (g i) (ones x) else ones x
        fun j => if (∀ a, (j a).val = (i a).val) then y else g j
      else g) g) j
      = g j + (l.map (fun k => if mask (ix1 k) = 1 ∧ (chunk (ix1 k)).toNat = (j 0).val then ones (ix1 k) else 0)).sum := by
  induction l generalizing g with
  | nil => simp
  | cons k l ih =>
    rw [List.foldl_cons, ih, List.map_cons, List.sum_cons, ← add_assoc]
    refine congrArg (fun t => t + _) ?_
    simp only [ofLane_eq_ix1]
    by_cases hm : mask (ix1 k) = 1
    · rw [if_pos hm]
      by_cases hj : (chunk (ix1 k)).toNat = (j 0).val
      · have hij : idxAt (s := S100000) ![chunk] h (ix1 k) = j := by
          funext a
          match a with
          | ⟨0, _⟩ => exact Fin.ext hj
        have hc : ∀ a : Fin S100000.rank, (j a).val = (idxAt (s := S100000) ![chunk] h (ix1 k) a).val := by
          rw [hij]; intro a; rfl
        rw [if_pos (And.intro hm hj), if_pos hc, hij]
        rfl
      · have hc : ¬ ∀ a : Fin S100000.rank, (j a).val = (idxAt (s := S100000) ![chunk] h (ix1 k) a).val :=
          fun hall => hj (hall 0).symm
        rw [if_neg (show ¬ (mask (ix1 k) = 1 ∧ (chunk (ix1 k)).toNat = (j 0).val) from fun hh => hj hh.2), add_zero,
          if_neg hc]
    · rw [if_neg hm, if_neg (show ¬ (mask (ix1 k) = 1 ∧ (chunk (ix1 k)).toNat = (j 0).val) from fun hh => hm hh.1),
        add_zero]

theorem hist_step {F : FTy → Type} [FloatOps F] (ids : Fin 8192 → BitVec 32) (n p : Nat) (hp : p + 16 ≤ 8192)
    (chunk : IVec S16 32) (hchunk : ∀ k : Fin 16, chunk (ix1 k) = ids ⟨p + k.val, by omega⟩)
    (ones : IVec S16 32) (hones : ∀ x, ones x = 1#32)
    (mask : IVec S16 1) (hmask : ∀ k : Fin 16, mask (ix1 k) = 1#1 ↔ p + k.val < n)
    (h : ∀ a x, ((![chunk] : Fin 1 → IVec S16 32) a x).toNat < S100000.size a) :
    storeIdx (F := F) (s := S100000) (e := .i32) (tbl ids n p) ![chunk] ones mask true h = tbl ids n (p + 16) := by
  funext j
  refine (fold_apply (F := F) chunk ones mask h (List.finRange 16) (tbl ids n p) j).trans ?_
  show countUpTo ids n p (j 0).val + _ = countUpTo ids n (p + 16) (j 0).val
  rw [countUpTo_add16 ids n p (j 0).val hp, ← Fin.sum_univ_def]
  refine congrArg (fun t => _ + t) ?_
  apply Finset.sum_congr rfl
  intro k _
  rw [hones, hchunk]
  by_cases hk : p + k.val < n
  · have hm : mask (ix1 k) = 1 := (hmask k).2 hk
    by_cases hv : (ids ⟨p + k.val, by omega⟩).toNat = (j 0).val
    · rw [if_pos (And.intro hm hv), if_pos (And.intro hk hv)]
      rfl
    · rw [if_neg (show ¬ (mask (ix1 k) = 1 ∧ _) from fun hh => hv hh.2),
        if_neg (show ¬ (p + k.val < n ∧ _) from fun hh => hv hh.2)]
  · have hm : ¬ mask (ix1 k) = 1 := fun hh => hk ((hmask k).1 hh)
    rw [if_neg (show ¬ (mask (ix1 k) = 1 ∧ _) from fun hh => hm hh.1),
      if_neg (show ¬ (p + k.val < n ∧ _) from fun hh => hk hh.1)]

/-! ## The lane mask and the chunk base, as the program computes them -/

/-- A one-bit word made from a truth value is 1 exactly when the value is true. -/
theorem ofBool_eq_one_iff (b : Bool) : BitVec.ofBool b = 1#1 ↔ b = true := by
  cases b
  · exact ⟨fun hh => absurd hh (by decide), fun hh => absurd hh (by decide)⟩
  · exact ⟨fun _ => rfl, fun _ => rfl⟩

/-- The kernel's lane mask: lane k of chunk position p is set exactly when position p + k is below the row length. -/
theorem mask_iff (hι : S16.Iotas .scVector 32 [0]) (p : Nat) (hp : p + 16 ≤ 8192) (nb : BitVec 32) (hn : nb.toNat < 8192) (k : Fin 16) :
    cmpi .slt (addi (iota .scVector S16 32 [0] hι) (broadcast S16 (BitVec.ofNat 32 p))) (broadcast S16 nb) (ix1 k) = 1#1 ↔ p + k.val < nb.toNat := by
  have hk := k.isLt
  -- the lane's own number plus the chunk base is the word p + k, a small non-negative number
  show BitVec.ofBool ((BitVec.ofNat 32 (0 * 16 + k.val) + BitVec.ofNat 32 p).slt nb) = 1#1 ↔ _
  rw [ofBool_eq_one_iff, BitVec.slt_iff_toInt_lt, ← BitVec.ofNat_add]
  have h1 : (BitVec.ofNat 32 (0 * 16 + k.val + p)).toNat = p + k.val := by
    rw [BitVec.toNat_ofNat]; omega
  rw [BitVec.toInt_eq_toNat_of_lt (by rw [h1]; omega), BitVec.toInt_eq_toNat_of_lt (by omega), h1]
  omega

/-- The kernel's chunk base, as the scalar unit computes it: trip t, unrolled copy j. -/
theorem base_eq (t : Nat) (ht : t < 128) (j : Nat) (hj : j < 4) :
    Scalar.muli (Scalar.addi (Scalar.muli (Scf.iv 0#32 1#32 t) 4#32) (BitVec.ofNat 32 j)) 16#32 = BitVec.ofNat 32 (16 * (4 * t + j)) := by
  show ((0#32 + BitVec.ofNat 32 t * 1#32) * 4#32 + BitVec.ofNat 32 j) * 16#32 = _
  apply BitVec.eq_of_toNat_eq
  simp only [BitVec.toNat_mul, BitVec.toNat_add, BitVec.toNat_ofNat]
  omega

theorem base_eq0 (t : Nat) (ht : t < 128) :
    Scalar.muli (Scalar.addi (Scalar.muli (Scf.iv 0#32 1#32 t) 4#32) 0#32) 16#32 = BitVec.ofNat 32 (16 * (4 * t + 0)) :=
  base_eq t ht 0 (by omega)
theorem base_eq1 (t : Nat) (ht : t < 128) :
    Scalar.muli (Scalar.addi (Scalar.muli (Scf.iv 0#32 1#32 t) 4#32) 1#32) 16#32 = BitVec.ofNat 32 (16 * (4 * t + 1)) :=
  base_eq t ht 1 (by omega)
theorem base_eq2 (t : Nat) (ht : t < 128) :
    Scalar.muli (Scalar.addi (Scalar.muli (Scf.iv 0#32 1#32 t) 4#32) 2#32) 16#32 = BitVec.ofNat 32 (16 * (4 * t + 2)) :=
  base_eq t ht 2 (by omega)
theorem base_eq3 (t : Nat) (ht : t < 128) :
    Scalar.muli (Scalar.addi (Scalar.muli (Scf.iv 0#32 1#32 t) 4#32) 3#32) 16#32 = BitVec.ofNat 32 (16 * (4 * t + 3)) :=
  base_eq t ht 3 (by omega)

end Cert.Hist

end
-- ==== Proof.ZeroStepBits.lean ====
/-
  The zeroing loop's step, as a pure function.

  The table of 100000 words is cleared sixteen words at a time: trip k stores sixteen zero words at the entries
  16k, …, 16k + 15. A table whose first p entries are zero and whose other entries are those of a table f is
  zeroTo f p; the store of trip k takes zeroTo f (16k) to zeroTo f (16(k + 1)): an entry inside the stored
  rectangle takes the zero written there, an entry outside keeps its value, and outside the rectangle "below 16k"
  and "below 16(k + 1)" say the same. After the 6250 trips every entry is zero.
-/
import proofs.«213801_g6897717477520_cont_9to1_m_30_22_alg».proof.Proof.Gen.Kernel.Skeleton
import Idealize.ShloMosaic.Lib.Writes

noncomputable section

namespace Cert.Kernel.Tile

open Cert.Kernel Cert.Kernel.Gen Idealize.ShloMosaic

variable {F : FTy → Type} [FloatOps F]

/-- A table whose first p entries have been zeroed. -/
def zeroTo (f : IVec S100000 32) (p : Nat) : IVec S100000 32 := fun j => if (j 0).val < p then 0#32 else f j

/-- The zeroing loop runs 6250 trips. -/
theorem t1_trips : Scf.trips k0_t1_loop.lb k0_t1_loop.ub k0_t1_loop.st = 6250 := by decide

/-- Once the first 16 · 6250 = 100000 entries are zeroed, every entry is. -/
theorem zeroTo_all (f2 : IVec S100000 32) : zeroTo f2 (16 * 6250) = fun _ => 0#32 := by
  funext j
  have hj : (j 0).val < 100000 := (j 0).isLt
  unfold zeroTo
  rw [if_pos (by omega)]

/-- Trip k of the zeroing loop: sixteen zero words stored at the entries from 16k take the table zeroed below 16k
    to the table zeroed below 16(k + 1). -/
theorem zero_step (f2 : IVec S100000 32) (k : Fin (Scf.trips k0_t1_loop.lb k0_t1_loop.ub k0_t1_loop.st)) :
    (Memref.whole cc0_scratch2 : Memref sig .scVector .vmem S100000 .i32).view.writes (Elt F) (zeroTo f2 (16 * k.val))
        [⟨Rect.unit (s := S100000) (k0_off2 k) S16.size (k0_off2_inb k), k0_pay9⟩]
      = zeroTo f2 (16 * (k.val + 1)) := by
  funext j
  -- the stored rectangle is the sixteen entries from 16k
  have hmem : j ∈ (Rect.unit (s := S100000) (k0_off2 k) S16.size (k0_off2_inb k)).set
      ↔ 16 * k.val ≤ (j 0).val ∧ (j 0).val < 16 * k.val + 16 := by
    rw [Rect.mem_set_unit, k0_off2_eq k]
    constructor
    · intro hh; exact hh 0
    · intro hh a
      match a with
      | ⟨0, _⟩ => exact hh
  by_cases hc : 16 * k.val ≤ (j 0).val ∧ (j 0).val < 16 * k.val + 16
  · -- inside: the entry takes the stored zero
    have hz : zeroTo f2 (16 * (k.val + 1)) j = 0#32 := by
      unfold zeroTo
      rw [if_pos (by omega)]
    obtain ⟨x, hx⟩ := (Rect.unit (s := S100000) (k0_off2 k) S16.size (k0_off2_inb k)).exists_idx_of_mem (hmem.2 hc)
    rw [hz, ← hx]
    exact View.write_emb_of_mem (Val := Elt F)
      (v := (View.whole cc0_scratch2 : View sig .scVector .vmem S100000 .i32).slice
        (Rect.unit (s := S100000) (k0_off2 k) S16.size (k0_off2_inb k)))
      (zeroTo f2 (16 * k.val)) k0_pay9 (Finset.mem_univ x)
  · -- outside: the entry keeps its value, and the two thresholds agree on it
    have hn : j ∉ ((View.whole cc0_scratch2 : View sig .scVector .vmem S100000 .i32).slice
        (Rect.unit (s := S100000) (k0_off2 k) S16.size (k0_off2_inb k))).setOn Finset.univ := by
      rw [View.setOn_univ, View.set_slice_whole]
      exact fun hh => hc (hmem.1 hh)
    refine (View.write_of_not_mem (Val := Elt F) (zeroTo f2 (16 * k.val)) k0_pay9 Finset.univ hn).trans ?_
    unfold zeroTo
    by_cases h1 : (j 0).val < 16 * k.val
    · rw [if_pos h1, if_pos (by omega)]
    · rw [if_neg h1, if_neg (by omega)]

end Cert.Kernel.Tile

end
-- ==== Proof.LoopArithBits.lean ====
import proofs.«213801_g6897717477520_cont_9to1_m_30_22_alg».proof.Proof.Gen.Kernel

/-!
# The scan loop's bounds and chunk offsets

The row's length word `v19` is below 8192. The program computes the number of 64-word chunks
`⌈v19 / 64⌉` as the floor-division chain `(v19 + 64 − 1) /ₛ 64` with a sign correction: the
quotient is lowered by one when the dividend and the divisor differ in sign and the remainder is
not zero. Here `v19 + 63` is between 63 and 8254, so both signs are `+1`, the correction is not
taken, and the chain's value is `(v19 + 63) / 64` in the integers. The first loop runs from 0 to
that number by 1; the second runs from that number to itself (the same word after a division and a
multiplication by the step 1), so it has no trips. At trip `t` of the first loop the four chunk
offsets are `16 · (4·t + j)`, `j = 0, 1, 2, 3`; since `t < 128` each is at most `8176`, and
sixteen words from it stay inside the 8192 words of the row.

Every line of the chains is read as a signed integer (`Affine.IsInt`), with a linear side condition
saying the line does not wrap.
-/

namespace Cert.Kernel.LoopArith

open Cert.Kernel Idealize.ShloMosaic

/-- A signed reading, opened. -/
private theorem toInt_of {x : BitVec 32} {e : Int} (hx : Affine.IsInt x e) : x.toInt = e := by
  unfold Affine.IsInt at hx; exact hx

/-- A word below `8192` reads signed as it reads unsigned. -/
private theorem isInt_word (v : BitVec 32) (h : v.toNat < 8192) : Affine.IsInt v (v.toNat : Int) :=
  Affine.relit (Affine.word v) (by have := BitVec.toInt_eq_toNat_cond v; split at this <;> omega)

/-- A loop's trips from the signed readings of its three operands. -/
private theorem trips_of {L : Scf.Loop 32} {el eu k : Int} (hlb : Affine.IsInt L.lb el) (hub : Affine.IsInt L.ub eu)
    (hst : Affine.IsInt L.st k) : L.trips = ((eu - el + k - 1) / k).toNat := by
  show Scf.trips L.lb L.ub L.st = _
  rw [Scf.trips, toInt_of hlb, toInt_of hub, toInt_of hst]

/-- The operands of both loops, read signed: the first loop is `0 … (v19 + 63) / 64` by `1`, the second
    `(v19 + 63) / 64 … (v19 + 63) / 64` by `1`. -/
private theorem bounds (v19 : BitVec 32) (h : v19.toNat < 8192) :
    (Affine.IsInt (k0_t2_loop v19).lb 0 ∧
      Affine.IsInt (k0_t2_loop v19).ub (((v19.toNat : Int) + 63) / 64) ∧
      Affine.IsInt (k0_t2_loop v19).st 1) ∧
    (Affine.IsInt (k0_t3_loop v19).lb (((v19.toNat : Int) + 63) / 64) ∧
      Affine.IsInt (k0_t3_loop v19).ub (((v19.toNat : Int) + 63) / 64) ∧
      Affine.IsInt (k0_t3_loop v19).st 1) := by
  have h_v19 : Affine.IsInt v19 (v19.toNat : Int) := isInt_word v19 h
  have h_c0 : Affine.IsInt 0#32 (0) := Affine.ofNat _ (by omega)
  have h_c1 : Affine.IsInt 1#32 (1) := Affine.ofNat _ (by omega)
  have h_c64 : Affine.IsInt 64#32 (64) := Affine.ofNat _ (by omega)
  -- the dividend v19 + 64 − 1
  have h_v22 : Affine.IsInt _ ((v19.toNat : Int) + 64) := Affine.addi h_v19 h_c64 (by omega)
  have h_v23 : Affine.IsInt _ ((v19.toNat : Int) + 63) := Affine.subi h_v22 h_c1 (by omega)
  -- its sign is +1
  have c_v25 := Affine.sgt_holds h_v23 h_c0 (by omega)
  have h_v26 : Affine.IsInt _ (1) := Affine.extui_holds c_v25 rfl
  have c_v27 := Affine.slt_fails h_v23 h_c0 (by omega)
  have h_v28 : Affine.IsInt _ (0) := Affine.extui_fails c_v27 rfl
  have h_v29 : Affine.IsInt _ (1) := Affine.subi h_v26 h_v28 (by omega)
  -- the divisor's sign is +1
  have c_v30 := Affine.sgt_holds h_c64 h_c0 (by omega)
  have h_v31 : Affine.IsInt _ (1) := Affine.extui_holds c_v30 rfl
  have c_v32 := Affine.slt_fails h_c64 h_c0 (by omega)
  have h_v33 : Affine.IsInt _ (0) := Affine.extui_fails c_v32 rfl
  have h_v34 : Affine.IsInt _ (1) := Affine.subi h_v31 h_v33 (by omega)
  -- the signs agree, so the correction is not taken whatever the remainder
  have c_v35 := Affine.ne_fails h_v29 h_v34 rfl
  have h_v36 : Affine.IsInt _ (((v19.toNat : Int) + 63) % 64) := Affine.remsi h_v23 h_c64 ⟨rfl, by omega, by omega⟩
  have t_v37 := Affine.cmpi_term .ne h_v36 h_c0
  have c_v38 := Affine.andi_fails_left c_v35 t_v37
  -- the quotient
  have h_v24 : Affine.IsInt _ (((v19.toNat : Int) + 63) / 64) := Affine.divsi h_v23 h_c64 ⟨rfl, by omega, by omega⟩
  have h_v39 : Affine.IsInt _ (((v19.toNat : Int) + 63) / 64 - 1) := Affine.subi h_v24 h_c1 (by omega)
  have h_v40 : Affine.IsInt _ (((v19.toNat : Int) + 63) / 64) := Affine.select_fails c_v38 h_v39 h_v24 rfl
  -- the loop bounds normalised to the step 1
  have h_v41 : Affine.IsInt _ (((v19.toNat : Int) + 63) / 64) := Affine.subi h_v40 h_c0 (by omega)
  have h_v43 : Affine.IsInt _ (((v19.toNat : Int) + 63) / 64) := Affine.divsi_one h_v41 h_c1 ⟨rfl, rfl⟩
  have h_v44 : Affine.IsInt _ (((v19.toNat : Int) + 63) / 64) := Affine.muli h_v43 h_c1 (by omega)
  have h_v45 : Affine.IsInt _ (((v19.toNat : Int) + 63) / 64) := Affine.addi h_c0 h_v44 (by omega)
  have h_v42 : Affine.IsInt _ (((v19.toNat : Int) + 63) / 64) := Affine.addi h_c0 h_v41 (by omega)
  exact ⟨⟨h_c0, h_v45, h_c1⟩, ⟨h_v45, h_v42, h_c1⟩⟩

/-- The first loop has `⌈v19 / 64⌉` trips. -/
theorem t2_trips (v19 : BitVec 32) (h : v19.toNat < 8192) : (k0_t2_loop v19).trips = (v19.toNat + 63) / 64 := by
  obtain ⟨⟨hlb, hub, hst⟩, -⟩ := bounds v19 h
  rw [trips_of hlb hub hst]
  omega

/-- The second loop runs from a number to itself: no trips. -/
theorem t3_trips (v19 : BitVec 32) (h : v19.toNat < 8192) : (k0_t3_loop v19).trips = 0 := by
  obtain ⟨-, hlb, hub, hst⟩ := bounds v19 h
  rw [trips_of hlb hub hst]
  omega

/-- A trip of the first loop is below 128. -/
private theorem trip_lt (v19 : BitVec 32) (h : v19.toNat < 8192) (t : Fin (k0_t2_loop v19).trips) : t.val < 128 := by
  have h1 : t.val < (v19.toNat + 63) / 64 := Nat.lt_of_lt_of_eq t.isLt (t2_trips v19 h)
  omega

/-- The chunk offset `((t · 4 + j) · 16)` at trip `t`, read signed, for `j < 4`. -/
private theorem off_isInt (v19 : BitVec 32) (h : v19.toNat < 8192) (t : Fin (k0_t2_loop v19).trips) (j : Nat) (hj : j < 4) :
    Affine.IsInt (Scalar.indexCast (Scalar.muli (Scalar.addi (Scalar.muli (Scf.iv 0#32 1#32 t.val) 4#32) (BitVec.ofNat 32 j)) 16#32))
      (16 * (4 * (t.val : Int) + (j : Int))) := by
  have ht := trip_lt v19 h t
  have h_c0 : Affine.IsInt 0#32 (0) := Affine.ofNat _ (by omega)
  have h_c1 : Affine.IsInt 1#32 (1) := Affine.ofNat _ (by omega)
  have h_c4 : Affine.IsInt 4#32 (4) := Affine.ofNat _ (by omega)
  have h_c16 : Affine.IsInt 16#32 (16) := Affine.ofNat _ (by omega)
  have h_cj : Affine.IsInt (BitVec.ofNat 32 j) (j : Int) := Affine.ofNat _ (by omega)
  have h_arg10 : Affine.IsInt _ ((t.val : Int)) := Affine.iv h_c0 h_c1 t.val (by omega)
  have h_a : Affine.IsInt _ (4 * (t.val : Int)) := Affine.muli h_arg10 h_c4 (by omega)
  have h_b : Affine.IsInt _ (4 * (t.val : Int) + (j : Int)) := Affine.addi h_a h_cj (by omega)
  have h_c : Affine.IsInt _ (16 * (4 * (t.val : Int) + (j : Int))) := Affine.muli h_b h_c16 (by omega)
  exact Affine.indexCast h_c

theorem off4_eq (v19 : BitVec 32) (h : v19.toNat < 8192) (t : Fin (k0_t2_loop v19).trips) :
    k0_off4 v19 t = ![16 * (4 * t.val + 0)] :=
  Affine.vec_cons (off_isInt v19 h t 0 (by omega)) (by omega) Affine.vec_nil

theorem off5_eq (v19 : BitVec 32) (h : v19.toNat < 8192) (t : Fin (k0_t2_loop v19).trips) :
    k0_off5 v19 t = ![16 * (4 * t.val + 1)] :=
  Affine.vec_cons (off_isInt v19 h t 1 (by omega)) (by omega) Affine.vec_nil

theorem off6_eq (v19 : BitVec 32) (h : v19.toNat < 8192) (t : Fin (k0_t2_loop v19).trips) :
    k0_off6 v19 t = ![16 * (4 * t.val + 2)] :=
  Affine.vec_cons (off_isInt v19 h t 2 (by omega)) (by omega) Affine.vec_nil

theorem off7_eq (v19 : BitVec 32) (h : v19.toNat < 8192) (t : Fin (k0_t2_loop v19).trips) :
    k0_off7 v19 t = ![16 * (4 * t.val + 3)] :=
  Affine.vec_cons (off_isInt v19 h t 3 (by omega)) (by omega) Affine.vec_nil

/-- The side condition the body assumes of the length word: both loops' operands are meaningful, every
    chunk of the first loop lies inside the row, and the second loop has no trip to speak of. -/
theorem chk1_of_lt (v19 : BitVec 32) (h : v19.toNat < 8192) : k0_chk1 v19 := by
  obtain ⟨⟨hlb2, hub2, hst2⟩, hlb3, hub3, hst3⟩ := bounds v19 h
  have e3 : ∀ t : Fin (k0_t3_loop v19).trips, False := fun t =>
    Nat.not_lt_zero _ (Nat.lt_of_lt_of_eq t.isLt (t3_trips v19 h))
  refine ⟨Affine.ok hlb2 hub2 hst2 (by omega), ?_, ?_, ?_, ?_, Affine.ok hlb3 hub3 hst3 (by omega),
    fun t => (e3 t).elim, fun t => (e3 t).elim, fun t => (e3 t).elim, fun t => (e3 t).elim⟩
  · intro t
    have ht := trip_lt v19 h t
    exact Affine.inb_cons (off_isInt v19 h t 0 (by omega)) (by omega) Affine.inb_nil
  · intro t
    have ht := trip_lt v19 h t
    exact Affine.inb_cons (off_isInt v19 h t 1 (by omega)) (by omega) Affine.inb_nil
  · intro t
    have ht := trip_lt v19 h t
    exact Affine.inb_cons (off_isInt v19 h t 2 (by omega)) (by omega) Affine.inb_nil
  · intro t
    have ht := trip_lt v19 h t
    exact Affine.inb_cons (off_isInt v19 h t 3 (by omega)) (by omega) Affine.inb_nil

end Cert.Kernel.LoopArith
-- ==== Proof.ChunkBits.lean ====
/-
  The scan loop's memory accesses, read as values.

  A trip of the scan loads four chunks of sixteen consecutive words of the row scratch; the chunk `j` of trip `t` starts at
  position `16·(4t + j)`, so its lane `l` holds the row's word at position `16·(4t + j) + l`. Each chunk's words index an
  add-store into the table scratch, through the table's whole rectangle: that access is the table itself, read and written
  entry for entry. The store assumes of the words it indexes by that each is inside the table, which a bound on the tokens
  gives.
-/
import proofs.«213801_g6897717477520_cont_9to1_m_30_22_alg».proof.Proof.Gen.Kernel.Skeleton
import proofs.«213801_g6897717477520_cont_9to1_m_30_22_alg».proof.Proof.LoopArithBits
import Idealize.ShloMosaic.Lib.Writes
import Idealize.ShloMosaic.Lib.ValueIdx

noncomputable section

namespace Cert.Kernel.Tile

open Cert.Kernel Cert.Kernel.Gen Idealize.ShloMosaic Idealize.ShloMosaic.ValueIdx

variable {F : FTy → Type} [FloatOps F]

/-! ## The indexed add-store's view of the table scratch: the whole table -/

/-- An access to the whole table goes through every one of its 100000 entries, -/
theorem access_whole_set :
    ((Memref.whole cc0_scratch2 : Memref sig .scVector .vmem S100000 .i32).access (.whole S100000)).set = Finset.univ :=
  Memref.set_access_whole cc0_scratch2

/-- reads the table as it is, -/
theorem access_whole_read (f : IVec S100000 32) :
    ((Memref.whole cc0_scratch2 : Memref sig .scVector .vmem S100000 .i32).access (.whole S100000)).read (Elt F) f = f :=
  Memref.read_access_whole (Elt F) cc0_scratch2 f

/-- and, written at every entry, leaves exactly the payload. -/
theorem access_whole_write (f g : IVec S100000 32) :
    ((Memref.whole cc0_scratch2 : Memref sig .scVector .vmem S100000 .i32).access (.whole S100000)).write (Elt F) f g
      Finset.univ = g :=
  Memref.write_access_whole_univ (Elt F) cc0_scratch2 f g

/-! ## The index checks of the four indexed add-stores -/

/-- Sixteen token words all below 100000 are inside the table: the check the first store of a trip assumes of the words
    it indexes by. -/
theorem chk2_of_bound (v : IVec S16 32) (h : ∀ x, (v x).toNat < 100000) : k0_chk2 v := by
  intro a x
  obtain rfl : a = 0 := Subsingleton.elim _ _
  exact h x

/-- The same for the second store of a trip. -/
theorem chk3_of_bound (v : IVec S16 32) (h : ∀ x, (v x).toNat < 100000) : k0_chk3 v := by
  intro a x
  obtain rfl : a = 0 := Subsingleton.elim _ _
  exact h x

/-- The same for the third store of a trip. -/
theorem chk4_of_bound (v : IVec S16 32) (h : ∀ x, (v x).toNat < 100000) : k0_chk4 v := by
  intro a x
  obtain rfl : a = 0 := Subsingleton.elim _ _
  exact h x

/-- The same for the fourth store of a trip. -/
theorem chk5_of_bound (v : IVec S16 32) (h : ∀ x, (v x).toNat < 100000) : k0_chk5 v := by
  intro a x
  obtain rfl : a = 0 := Subsingleton.elim _ _
  exact h x

/-! ## The four chunk loads of a trip -/

/-- Chunk `j < 4` of any trip lies inside the row: the loop has at most 128 trips. -/
theorem chunk_le (v19 : BitVec 32) (h : v19.toNat < 8192) (t : Fin (k0_t2_loop v19).trips) (j : Nat) (hj : j < 4) :
    16 * (4 * t.val + j) + 16 ≤ 8192 := by
  have ht : t.val < (v19.toNat + 63) / 64 :=
    Nat.lt_of_lt_of_eq t.isLt (Cert.Kernel.LoopArith.t2_trips v19 h)
  omega

/-- Lane `l` of the first chunk of trip `t` is the row's word at position `16·(4t + 0) + l`. -/
theorem chunk_read4 (buf : IVec S8192 32) (v19 : BitVec 32) (h : v19.toNat < 8192) (hw : k0_chk1 v19)
    (t : Fin (k0_t2_loop v19).trips) (l : Fin 16) :
    View.readAt (Elt F) (Memref.whole cc0_scratch0 : Memref sig .scVector .vmem S8192 .i32).view
        (Rect.unit (s := S8192) (k0_off4 v19 t) S16.size (k0_off4_inb v19 hw t)).toLoadRect buf (ix1 l)
      = buf (ix1 ⟨16 * (4 * t.val + 0) + l.val, by
          have := Nat.lt_of_lt_of_eq t.isLt (Cert.Kernel.LoopArith.t2_trips v19 h); omega⟩) := by
  have e : (Rect.unit (s := S8192) (k0_off4 v19 t) S16.size (k0_off4_inb v19 hw t)).toLoadRect.idx (ix1 l)
      = (ix1 ⟨16 * (4 * t.val + 0) + l.val, by
          have := Nat.lt_of_lt_of_eq t.isLt (Cert.Kernel.LoopArith.t2_trips v19 h); omega⟩ : S8192.Idx) := by
    funext a
    obtain rfl : a = 0 := Subsingleton.elim _ _
    refine Fin.ext ?_
    show (k0_off4 v19 t) 0 + 1 * l.val = 16 * (4 * t.val + 0) + l.val
    rw [Cert.Kernel.LoopArith.off4_eq v19 h t]
    simp
  rw [View.readAt_apply]
  show buf ((Rect.unit (s := S8192) (k0_off4 v19 t) S16.size (k0_off4_inb v19 hw t)).toLoadRect.idx (ix1 l)) = _
  rw [e]

/-- Lane `l` of the second chunk of trip `t` is the row's word at position `16·(4t + 1) + l`. -/
theorem chunk_read5 (buf : IVec S8192 32) (v19 : BitVec 32) (h : v19.toNat < 8192) (hw : k0_chk1 v19)
    (t : Fin (k0_t2_loop v19).trips) (l : Fin 16) :
    View.readAt (Elt F) (Memref.whole cc0_scratch0 : Memref sig .scVector .vmem S8192 .i32).view
        (Rect.unit (s := S8192) (k0_off5 v19 t) S16.size (k0_off5_inb v19 hw t)).toLoadRect buf (ix1 l)
      = buf (ix1 ⟨16 * (4 * t.val + 1) + l.val, by
          have := Nat.lt_of_lt_of_eq t.isLt (Cert.Kernel.LoopArith.t2_trips v19 h); omega⟩) := by
  have e : (Rect.unit (s := S8192) (k0_off5 v19 t) S16.size (k0_off5_inb v19 hw t)).toLoadRect.idx (ix1 l)
      = (ix1 ⟨16 * (4 * t.val + 1) + l.val, by
          have := Nat.lt_of_lt_of_eq t.isLt (Cert.Kernel.LoopArith.t2_trips v19 h); omega⟩ : S8192.Idx) := by
    funext a
    obtain rfl : a = 0 := Subsingleton.elim _ _
    refine Fin.ext ?_
    show (k0_off5 v19 t) 0 + 1 * l.val = 16 * (4 * t.val + 1) + l.val
    rw [Cert.Kernel.LoopArith.off5_eq v19 h t]
    simp
  rw [View.readAt_apply]
  show buf ((Rect.unit (s := S8192) (k0_off5 v19 t) S16.size (k0_off5_inb v19 hw t)).toLoadRect.idx (ix1 l)) = _
  rw [e]

/-- Lane `l` of the third chunk of trip `t` is the row's word at position `16·(4t + 2) + l`. -/
theorem chunk_read6 (buf : IVec S8192 32) (v19 : BitVec 32) (h : v19.toNat < 8192) (hw : k0_chk1 v19)
    (t : Fin (k0_t2_loop v19).trips) (l : Fin 16) :
    View.readAt (Elt F) (Memref.whole cc0_scratch0 : Memref sig .scVector .vmem S8192 .i32).view
        (Rect.unit (s := S8192) (k0_off6 v19 t) S16.size (k0_off6_inb v19 hw t)).toLoadRect buf (ix1 l)
      = buf (ix1 ⟨16 * (4 * t.val + 2) + l.val, by
          have := Nat.lt_of_lt_of_eq t.isLt (Cert.Kernel.LoopArith.t2_trips v19 h); omega⟩) := by
  have e : (Rect.unit (s := S8192) (k0_off6 v19 t) S16.size (k0_off6_inb v19 hw t)).toLoadRect.idx (ix1 l)
      = (ix1 ⟨16 * (4 * t.val + 2) + l.val, by
          have := Nat.lt_of_lt_of_eq t.isLt (Cert.Kernel.LoopArith.t2_trips v19 h); omega⟩ : S8192.Idx) := by
    funext a
    obtain rfl : a = 0 := Subsingleton.elim _ _
    refine Fin.ext ?_
    show (k0_off6 v19 t) 0 + 1 * l.val = 16 * (4 * t.val + 2) + l.val
    rw [Cert.Kernel.LoopArith.off6_eq v19 h t]
    simp
  rw [View.readAt_apply]
  show buf ((Rect.unit (s := S8192) (k0_off6 v19 t) S16.size (k0_off6_inb v19 hw t)).toLoadRect.idx (ix1 l)) = _
  rw [e]

/-- Lane `l` of the fourth chunk of trip `t` is the row's word at position `16·(4t + 3) + l`. -/
theorem chunk_read7 (buf : IVec S8192 32) (v19 : BitVec 32) (h : v19.toNat < 8192) (hw : k0_chk1 v19)
    (t : Fin (k0_t2_loop v19).trips) (l : Fin 16) :
    View.readAt (Elt F) (Memref.whole cc0_scratch0 : Memref sig .scVector .vmem S8192 .i32).view
        (Rect.unit (s := S8192) (k0_off7 v19 t) S16.size (k0_off7_inb v19 hw t)).toLoadRect buf (ix1 l)
      = buf (ix1 ⟨16 * (4 * t.val + 3) + l.val, by
          have := Nat.lt_of_lt_of_eq t.isLt (Cert.Kernel.LoopArith.t2_trips v19 h); omega⟩) := by
  have e : (Rect.unit (s := S8192) (k0_off7 v19 t) S16.size (k0_off7_inb v19 hw t)).toLoadRect.idx (ix1 l)
      = (ix1 ⟨16 * (4 * t.val + 3) + l.val, by
          have := Nat.lt_of_lt_of_eq t.isLt (Cert.Kernel.LoopArith.t2_trips v19 h); omega⟩ : S8192.Idx) := by
    funext a
    obtain rfl : a = 0 := Subsingleton.elim _ _
    refine Fin.ext ?_
    show (k0_off7 v19 t) 0 + 1 * l.val = 16 * (4 * t.val + 3) + l.val
    rw [Cert.Kernel.LoopArith.off7_eq v19 h t]
    simp
  rw [View.readAt_apply]
  show buf ((Rect.unit (s := S8192) (k0_off7 v19 t) S16.size (k0_off7_inb v19 hw t)).toLoadRect.idx (ix1 l)) = _
  rw [e]

end Cert.Kernel.Tile

end
-- ==== Proof.ReadsBits.lean ====
import proofs.«213801_g6897717477520_cont_9to1_m_30_22_alg».proof.Proof.Gen.Kernel.Skeleton
import Idealize.ShloMosaic.Lib.Writes
import Idealize.ShloMosaic.Lib.ValueIdx

/-!
# Reading and writing through the views the body forms

Processor `L` of the grid handles row `w = 2·(L 1) + (L 0)` of the arrays; `w < 32`.

* Its row length: the 32 lengths were copied into the first 32 words of a 48-word buffer; a load of
  16 words at offset `w` followed by the extraction of lane 0 reads word `w` of the buffer, which
  lies under the copy (`w < 32`), so it is length `w`.
* A whole array read through itself is the array.
* Row `w` of a `[32, n]` array, taken as the `[1, n]` rectangle at offsets `(w, 0)` and then
  re-indexed as `[n]` (dropping the axis of size one keeps the row-major position, so index `s`
  of `[n]` is index `(0, s)` of `[1, n]`), places its index `s` at `(w + 0, 0 + s) = (w, s)` of
  the array: reading through it reads entry `(w, s)`, and writing a whole row through it leaves
  the row's entry `s` at `(w, s)`.
-/

noncomputable section

namespace Cert.Kernel.Tile

open Cert.Kernel Cert.Kernel.Gen Idealize.ShloMosaic Idealize.ShloMosaic.ValueIdx

variable {F : FTy → Type} [FloatOps F]

/-- The processor's row length: lane 0 of the 16-word load at offset `w` from the 48-word buffer whose
    first 32 words hold `g` is `g w`. -/
theorem read_len (L : grid0.Coords) (f1 : IVec S48 32) (g : IVec S32 32) :
    extractAt ![0] (k0_pay10 (F := F) (View.readAt (Elt F) (Memref.whole cc0_scratch1 : Memref sig .scVector .vmem S48 .i32).view
        (Rect.unit (s := S48) (k0_off3 L) S16.size (k0_off3_inb L)).toLoadRect
        ((Memref.whole cc0_scratch1 : Memref sig .scVector .vmem S48 .i32).view.writes (Elt F) f1 [⟨Rect.unit (s := S48) ![0] S32.size inb_S48_S32_0, g⟩]))) inpos_S1_p0
      = g (ix1 ⟨2 * (L 1).val + (L 0).val, by have h0 : (L 0).val < 2 := (L 0).isLt; have h1 : (L 1).val < 16 := (L 1).isLt; omega⟩) := by
  have hw : 2 * (L 1).val + (L 0).val < 32 := by
    have h0 : (L 0).val < 2 := (L 0).isLt; have h1 : (L 1).val < 16 := (L 1).isLt; omega
  have e := View.read_writes_cons_emb (Val := Elt F) (Memref.whole cc0_scratch1 : Memref sig .scVector .vmem S48 .i32).view f1
    (Rect.unit (s := S48) ![0] S32.size inb_S48_S32_0) g [] (ix1 ⟨2 * (L 1).val + (L 0).val, hw⟩)
  refine Eq.trans ?_ e
  show View.read (Elt F) (Memref.whole cc0_scratch1 : Memref sig .scVector .vmem S48 .i32).view
      ((Memref.whole cc0_scratch1 : Memref sig .scVector .vmem S48 .i32).view.writes (Elt F) f1 [⟨Rect.unit (s := S48) ![0] S32.size inb_S48_S32_0, g⟩])
      ((Rect.unit (s := S48) (k0_off3 L) S16.size (k0_off3_inb L)).toLoadRect.idx _) = _
  congr 1
  have h3 := congrFun (Gen.k0_off3_eq L) 0
  funext a
  apply Fin.ext
  match a with
  | ⟨0, _⟩ =>
    show k0_off3 L 0 + 1 * (0 + 0) = 0 + 1 * (2 * (L 1).val + (L 0).val)
    rw [h3]; simp

/-- The 32 lengths, read whole. -/
theorem readAs_len (f : IVec S32 32) : ReadAs.same.apply (View.read (Elt F) (Memref.whole main_v0_scv : Memref sig .scVector .hbm S32 .i32).view f) = f := rfl

/-- The table of counts, read whole. -/
theorem readAs_tbl (f : IVec S100000 32) : ReadAs.same.apply (View.read (Elt F) (Memref.whole cc0_scratch2 : Memref sig .scVector .vmem S100000 .i32).view f) = f := rfl

/-- The processor's row of identifiers: entry `s` read through row `w`'s view is entry `(w, s)`. -/
theorem read_idsRow (L : grid0.Coords) (f : IVec S32x8192 32) (s : Fin 8192) :
    ReadAs.same.apply (View.read (Elt F) (((Memref.whole main_arg0_scv : Memref sig .scVector .hbm S32x8192 .i32).slice (Rect.unit (s := S32x8192) (k0_off1 L) S1x8192.size (k0_off1_inb L)) (fun _ => rfl)).squeeze S8192 squeezes_S1x8192_S8192).view f) (ix1 s)
      = f (ix2 ⟨2 * (L 1).val + (L 0).val, by have h0 : (L 0).val < 2 := (L 0).isLt; have h1 : (L 1).val < 16 := (L 1).isLt; omega⟩ s) := by
  have e1 : Shape.reshapeEquiv Gen.squeezes_S1x8192_S8192.numel_eq (ix1 s) = (ix2 (⟨0, Nat.one_pos⟩ : Fin 1) s) :=
    Shape.reshapeEquiv_eq_of_rowMajor _ (by rw [Shape.rowMajor_val_two, Shape.rowMajor_val_one]; simp)
  show f _ = f _
  congr 1
  show (Rect.unit (s := S32x8192) (k0_off1 L) S1x8192.size (k0_off1_inb L)).emb (Shape.reshapeEquiv Gen.squeezes_S1x8192_S8192.numel_eq (ix1 s)) = _
  rw [e1]
  have h0 := congrFun (Gen.k0_off1_eq L) 0
  have h1 := congrFun (Gen.k0_off1_eq L) 1
  funext a
  apply Fin.ext
  match a with
  | ⟨0, _⟩ =>
    show k0_off1 L 0 + 1 * 0 = 2 * (L 1).val + (L 0).val
    rw [h0]; simp
  | ⟨1, _⟩ =>
    show k0_off1 L 1 + 1 * s.val = s.val
    rw [h1]; simp

/-- Entry `c` of row `w`'s view sits at `(w, c)` of the result. -/
private theorem outRow_emb (L : grid0.Coords) (i : S32x100000.Idx) (hi : (i 0).val = 2 * (L 1).val + (L 0).val) :
    (((Memref.whole main_v1_scv : Memref sig .scVector .hbm S32x100000 .i32).slice (Rect.unit (s := S32x100000) (k0_off12 L) S1x100000.size (k0_off12_inb L)) (fun _ => rfl)).squeeze S100000 squeezes_S1x100000_S100000).view.emb (ix1 (⟨(i 1).val, idx2_lt1 i⟩ : Fin 100000)) = i := by
  have hlt : (i 1).val < 100000 := idx2_lt1 i
  have e1 : Shape.reshapeEquiv Gen.squeezes_S1x100000_S100000.numel_eq (ix1 (⟨(i 1).val, hlt⟩ : Fin 100000)) = (ix2 (⟨0, Nat.one_pos⟩ : Fin 1) (⟨(i 1).val, hlt⟩ : Fin 100000)) :=
    Shape.reshapeEquiv_eq_of_rowMajor _ (by rw [Shape.rowMajor_val_two, Shape.rowMajor_val_one]; simp)
  show (Rect.unit (s := S32x100000) (k0_off12 L) S1x100000.size (k0_off12_inb L)).emb (Shape.reshapeEquiv Gen.squeezes_S1x100000_S100000.numel_eq (ix1 (⟨(i 1).val, hlt⟩ : Fin 100000))) = _
  rw [e1]
  have h0 := congrFun (Gen.k0_off12_eq L) 0
  have h1 := congrFun (Gen.k0_off12_eq L) 1
  funext a
  apply Fin.ext
  match a with
  | ⟨0, _⟩ =>
    show k0_off12 L 0 + 1 * 0 = (i 0).val
    rw [h0, hi]; simp
  | ⟨1, _⟩ =>
    show k0_off12 L 1 + 1 * (i 1).val = (i 1).val
    rw [h1]; simp

/-- The processor's row of the result: after the table `g` is written whole through row `w`'s view, entry
    `(w, c)` of the result holds `g c`. -/
theorem write_outRow (L : grid0.Coords) (f : IVec S32x100000 32) (g : IVec S100000 32) (i : S32x100000.Idx) (hi : (i 0).val = 2 * (L 1).val + (L 0).val) :
    View.write (Elt F) (((Memref.whole main_v1_scv : Memref sig .scVector .hbm S32x100000 .i32).slice (Rect.unit (s := S32x100000) (k0_off12 L) S1x100000.size (k0_off12_inb L)) (fun _ => rfl)).squeeze S100000 squeezes_S1x100000_S100000).view f g Finset.univ i = g (ix1 ⟨(i 1).val, idx2_lt1 i⟩) := by
  have key := View.write_emb_of_mem (Val := Elt F) (v := (((Memref.whole main_v1_scv : Memref sig .scVector .hbm S32x100000 .i32).slice (Rect.unit (s := S32x100000) (k0_off12 L) S1x100000.size (k0_off12_inb L)) (fun _ => rfl)).squeeze S100000 squeezes_S1x100000_S100000).view)
    f g (M := Finset.univ) (x := ix1 (⟨(i 1).val, idx2_lt1 i⟩ : Fin 100000)) (Finset.mem_univ _)
  rw [outRow_emb L i hi] at key
  rw [key]
  rfl

/-- The same with the write stated as a list of one piece through the whole of row `w`'s view: the
    whole rectangle places each index at itself, so the piece is the write above. -/
theorem writes_outRow (L : grid0.Coords) (f : IVec S32x100000 32) (g : IVec S100000 32) (i : S32x100000.Idx) (hi : (i 0).val = 2 * (L 1).val + (L 0).val) :
    (((Memref.whole main_v1_scv : Memref sig .scVector .hbm S32x100000 .i32).slice (Rect.unit (s := S32x100000) (k0_off12 L) S1x100000.size (k0_off12_inb L)) (fun _ => rfl)).squeeze S100000 squeezes_S1x100000_S100000).view.writes (Elt F) f [⟨Rect.whole S100000, g⟩] i
      = g (ix1 ⟨(i 1).val, idx2_lt1 i⟩) := by
  have key := View.write_emb_of_mem (Val := Elt F) (v := (((Memref.whole main_v1_scv : Memref sig .scVector .hbm S32x100000 .i32).slice (Rect.unit (s := S32x100000) (k0_off12 L) S1x100000.size (k0_off12_inb L)) (fun _ => rfl)).squeeze S100000 squeezes_S1x100000_S100000).view.slice (Rect.whole S100000))
    f g (M := Finset.univ) (x := (ix1 (⟨(i 1).val, idx2_lt1 i⟩ : Fin 100000) : (Rect.whole S100000).shape.Idx)) (Finset.mem_univ _)
  have hemb : ((((Memref.whole main_v1_scv : Memref sig .scVector .hbm S32x100000 .i32).slice (Rect.unit (s := S32x100000) (k0_off12 L) S1x100000.size (k0_off12_inb L)) (fun _ => rfl)).squeeze S100000 squeezes_S1x100000_S100000).view.slice (Rect.whole S100000)).emb (ix1 (⟨(i 1).val, idx2_lt1 i⟩ : Fin 100000) : (Rect.whole S100000).shape.Idx) = i := by
    show (((Memref.whole main_v1_scv : Memref sig .scVector .hbm S32x100000 .i32).slice (Rect.unit (s := S32x100000) (k0_off12 L) S1x100000.size (k0_off12_inb L)) (fun _ => rfl)).squeeze S100000 squeezes_S1x100000_S100000).view.emb ((Rect.whole S100000).emb (ix1 (⟨(i 1).val, idx2_lt1 i⟩ : Fin 100000) : (Rect.whole S100000).shape.Idx)) = i
    rw [Rect.emb_whole_apply]
    exact outRow_emb L i hi
  rw [hemb] at key
  show ((((Memref.whole main_v1_scv : Memref sig .scVector .hbm S32x100000 .i32).slice (Rect.unit (s := S32x100000) (k0_off12 L) S1x100000.size (k0_off12_inb L)) (fun _ => rfl)).squeeze S100000 squeezes_S1x100000_S100000).view.slice (Rect.whole S100000)).write (Elt F) f g Finset.univ i = _
  rw [key]
  rfl

end Cert.Kernel.Tile

end
-- ==== Proof.MaskBits.lean ====
/-
  The lane masks of the scan, read at a lane.

  A trip t of the scan handles four chunks of sixteen positions, the chunk J = 0, 1, 2, 3 starting at position
  16 · (4t + J). The mask of a chunk compares, lane by lane and as signed words, the lane's position (the lane's
  number plus the chunk's base, both small non-negative numbers) with the row length; for a length below 8192 and
  at most 128 trips nothing wraps, so lane l is set exactly when 16 · (4t + J) + l is below the length. The word
  the store adds at every lane is 1.
-/
import proofs.«213801_g6897717477520_cont_9to1_m_30_22_alg».proof.Proof.Gen.Kernel.Skeleton
import proofs.«213801_g6897717477520_cont_9to1_m_30_22_alg».proof.Proof.HistStep
import proofs.«213801_g6897717477520_cont_9to1_m_30_22_alg».proof.Proof.LoopArithBits

noncomputable section

namespace Cert.Kernel.Tile

open Cert.Kernel Cert.Kernel.Gen Idealize.ShloMosaic Idealize.ShloMosaic.ValueIdx

/-- A row shorter than 8192 is scanned in at most 128 trips of 64 positions. -/
private theorem trip_lt (v19 : BitVec 32) (h : v19.toNat < 8192) (t : Fin (k0_t2_loop v19).trips) : t.val < 128 := by
  have ht := Nat.lt_of_lt_of_eq t.isLt (LoopArith.t2_trips v19 h)
  omega

/-- Lane l of the first chunk of trip t is set exactly when its position, 16 · (4t + 0) + l, is below the row length. -/
theorem pay1_iff (v19 : BitVec 32) (h : v19.toNat < 8192) (t : Fin (k0_t2_loop v19).trips) (l : Fin 16) :
    k0_pay1 v19 (iota .scVector S16 32 [0] iota_S16_d0_w32_scVector) t (ix1 l) = 1#1 ↔ 16 * (4 * t.val + 0) + l.val < v19.toNat := by
  have ht : t.val < 128 := trip_lt v19 h t
  have hm := Cert.Hist.mask_iff iota_S16_d0_w32_scVector (16 * (4 * t.val + 0)) (by omega) v19 h l
  rw [← Cert.Hist.base_eq0 t.val ht] at hm
  exact hm

/-- Lane l of the second chunk of trip t is set exactly when its position, 16 · (4t + 1) + l, is below the row length. -/
theorem pay2_iff (v19 : BitVec 32) (h : v19.toNat < 8192) (t : Fin (k0_t2_loop v19).trips) (l : Fin 16) :
    k0_pay2 v19 (iota .scVector S16 32 [0] iota_S16_d0_w32_scVector) t (ix1 l) = 1#1 ↔ 16 * (4 * t.val + 1) + l.val < v19.toNat := by
  have ht : t.val < 128 := trip_lt v19 h t
  have hm := Cert.Hist.mask_iff iota_S16_d0_w32_scVector (16 * (4 * t.val + 1)) (by omega) v19 h l
  rw [← Cert.Hist.base_eq1 t.val ht] at hm
  exact hm

/-- Lane l of the third chunk of trip t is set exactly when its position, 16 · (4t + 2) + l, is below the row length. -/
theorem pay3_iff (v19 : BitVec 32) (h : v19.toNat < 8192) (t : Fin (k0_t2_loop v19).trips) (l : Fin 16) :
    k0_pay3 v19 (iota .scVector S16 32 [0] iota_S16_d0_w32_scVector) t (ix1 l) = 1#1 ↔ 16 * (4 * t.val + 2) + l.val < v19.toNat := by
  have ht : t.val < 128 := trip_lt v19 h t
  have hm := Cert.Hist.mask_iff iota_S16_d0_w32_scVector (16 * (4 * t.val + 2)) (by omega) v19 h l
  rw [← Cert.Hist.base_eq2 t.val ht] at hm
  exact hm

/-- Lane l of the fourth chunk of trip t is set exactly when its position, 16 · (4t + 3) + l, is below the row length. -/
theorem pay4_iff (v19 : BitVec 32) (h : v19.toNat < 8192) (t : Fin (k0_t2_loop v19).trips) (l : Fin 16) :
    k0_pay4 v19 (iota .scVector S16 32 [0] iota_S16_d0_w32_scVector) t (ix1 l) = 1#1 ↔ 16 * (4 * t.val + 3) + l.val < v19.toNat := by
  have ht : t.val < 128 := trip_lt v19 h t
  have hm := Cert.Hist.mask_iff iota_S16_d0_w32_scVector (16 * (4 * t.val + 3)) (by omega) v19 h l
  rw [← Cert.Hist.base_eq3 t.val ht] at hm
  exact hm

/-- The stored vector is 1 at every lane. -/
theorem pay11_one (x : S16.Idx) : k0_pay11 x = 1#32 := rfl

end Cert.Kernel.Tile

end
-- ==== Proof.TileBodyBits.lean ====
/-
  One worker's task: count its row.

  The worker fetches its row of tokens and the array of row lengths into its own memory, zeroes its table of
  100000 counts sixteen entries at a time while the fetches are under way, waits for both, reads its row's length
  `n` out of the fetched lengths, then scans the row sixty-four positions a trip for ⌈n / 64⌉ trips — each chunk of
  sixteen tokens adds one at the entry each token names, under the mask "position below n" — and copies the table
  out to its row of the result. After `p` positions the table is `Cert.Hist.tbl ids n p`; the scan stops at or past
  `n`, where that is the row's whole count.
-/
import proofs.«213801_g6897717477520_cont_9to1_m_30_22_alg».proof.Proof.TileSetupBits
import proofs.«213801_g6897717477520_cont_9to1_m_30_22_alg».proof.Proof.HistStep
import proofs.«213801_g6897717477520_cont_9to1_m_30_22_alg».proof.Proof.ZeroStepBits
import proofs.«213801_g6897717477520_cont_9to1_m_30_22_alg».proof.Proof.ChunkBits
import proofs.«213801_g6897717477520_cont_9to1_m_30_22_alg».proof.Proof.ReadsBits
import proofs.«213801_g6897717477520_cont_9to1_m_30_22_alg».proof.Proof.MaskBits
import proofs.«213801_g6897717477520_cont_9to1_m_30_22_alg».proof.Proof.LoopArithBits

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "idsW" => (Memref.whole Cert.Kernel.main_arg0_scv : Memref Cert.Kernel.sig Kind.scVector Space.hbm Cert.Kernel.S32x8192 EltTy.i32)
local notation "lenW" => (Memref.whole Cert.Kernel.main_v0_scv : Memref Cert.Kernel.sig Kind.scVector Space.hbm Cert.Kernel.S32 EltTy.i32)
local notation "outW" => (Memref.whole Cert.Kernel.main_v1_scv : Memref Cert.Kernel.sig Kind.scVector Space.hbm Cert.Kernel.S32x100000 EltTy.i32)
local notation "s0W" => (Memref.whole Cert.Kernel.cc0_scratch0 : Memref Cert.Kernel.sig Kind.scVector Space.vmem Cert.Kernel.S8192 EltTy.i32)
local notation "s1W" => (Memref.whole Cert.Kernel.cc0_scratch1 : Memref Cert.Kernel.sig Kind.scVector Space.vmem Cert.Kernel.S48 EltTy.i32)
local notation "s2W" => (Memref.whole Cert.Kernel.cc0_scratch2 : Memref Cert.Kernel.sig Kind.scVector Space.vmem Cert.Kernel.S100000 EltTy.i32)

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
/-- The worker's row. -/
abbrev wL (L : grid0.Coords) : Fin 32 := wid (cL L) (jL L)

/-- The worker's row of the tokens and of the result, and the part of its lengths scratch the fetch fills, as the
    body slices them. -/
abbrev idsRowK (L : grid0.Coords) : Memref sig .scVector .hbm S8192 .i32 :=
  ((idsW).slice (Rect.unit (s := S32x8192) (k0_off1 L) S1x8192.size (k0_off1_inb L)) (fun _ => rfl)).squeeze S8192 squeezes_S1x8192_S8192
abbrev outRowK (L : grid0.Coords) : Memref sig .scVector .hbm S100000 .i32 :=
  ((outW).slice (Rect.unit (s := S32x100000) (k0_off12 L) S1x100000.size (k0_off12_inb L)) (fun _ => rfl)).squeeze S100000 squeezes_S1x100000_S100000
abbrev lenSlot : Memref sig .scVector .vmem S32 .i32 :=
  (s1W).slice (Rect.unit (s := S48) ![0] S32.size inb_S48_S32_0) (fun _ => rfl)

theorem set_idsRowK : (idsRowK L).view.set = rowSet (n := 8192) (wL L) := by
  show (((idsW).view.slice (Rect.unit (s := S32x8192) (k0_off1 L) S1x8192.size (k0_off1_inb L))).reshape S8192 squeezes_S1x8192_S8192.numel_eq).set = _
  refine (View.set_reshape _ _).trans ((View.set_slice_whole (main_arg0_scv : Ref sig .scVector) _).trans ?_)
  ext j
  rw [Rect.mem_set_unit, mem_rowSet, k0_off1_eq]
  have h0 : (L 0).val < 2 := (L 0).isLt
  have h1 : (L 1).val < 16 := (L 1).isLt
  constructor
  · intro h
    have := h 0
    simp only [wid, cL, jL, Fin.coe_cast] at this ⊢
    simp at this
    omega
  · intro h a
    have hj1 : (j 1).val < 8192 := ValueIdx.idx2_lt1 j
    simp only [wid, cL, jL, Fin.coe_cast] at h
    match a with
    | 0 => simp; omega
    | 1 => simp; omega

theorem set_outRowK : (outRowK L).view.set = rowSet (n := 100000) (wL L) := by
  show (((outW).view.slice (Rect.unit (s := S32x100000) (k0_off12 L) S1x100000.size (k0_off12_inb L))).reshape S100000 squeezes_S1x100000_S100000.numel_eq).set = _
  refine (View.set_reshape _ _).trans ((View.set_slice_whole (main_v1_scv : Ref sig .scVector) _).trans ?_)
  ext j
  rw [Rect.mem_set_unit, mem_rowSet, k0_off12_eq]
  have h0 : (L 0).val < 2 := (L 0).isLt
  have h1 : (L 1).val < 16 := (L 1).isLt
  constructor
  · intro h
    have := h 0
    simp only [wid, cL, jL, Fin.coe_cast] at this ⊢
    simp at this
    omega
  · intro h a
    have hj1 : (j 1).val < 100000 := ValueIdx.idx2_lt1 j
    simp only [wid, cL, jL, Fin.coe_cast] at h
    match a with
    | 0 => simp; omega
    | 1 => simp; omega

/-! ## The subcore's own cells and buffers -/

abbrev cAcell (d : Dev nD) (c : Fin τ.nSC) (i : Fin τ.nSub) : GSem nD τ sig := (V d c i, .dma cc0_scratch3.sem)
abbrev cBcell (d : Dev nD) (c : Fin τ.nSC) (i : Fin τ.nSub) : GSem nD τ sig := (V d c i, .dma cc0_scratch4.sem)
abbrev cCcell (d : Dev nD) (c : Fin τ.nSC) (i : Fin τ.nSub) : GSem nD τ sig := (V d c i, .dma cc0_scoped0.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch4.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped0.sem : SemLoc sig).isScoped .scVector = true; decide⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

variable [FloatOps F]

omit [FloatOps F] in
theorem pts_idsRowK (f : Buf (Elt F) (idsLoc d)) :
    ((idsRowK L).view.loc (V d (cV L) (jV L)) ↦[(idsRowK L).view.set]{fullShare} f : sProp 𝕄) = idsLoc d ↦[rowSet (wL L)]{fullShare} f := by
  rw [set_idsRowK]
omit [FloatOps F] in
theorem pts_outRowK (f : Buf (Elt F) (outLoc d)) :
    ((outRowK L).view.loc (V d (cV L) (jV L)) ↦[(outRowK L).view.set]{fullShare} f : sProp 𝕄) = outLoc d ↦[rowSet (wL L)]{fullShare} f := by
  rw [set_outRowK]
omit [FloatOps F] in
theorem pts_lenW (q : PosShare TreeShare) (f : Buf (Elt F) (lenLoc d)) :
    ((lenW).view.loc (V d (cV L) (jV L)) ↦{q} f : sProp 𝕄) = lenLoc d ↦{q} f := rfl
omit [FloatOps F] in
theorem pts_s0 (f : Buf (Elt F) ((V d (cV L) (jV L)).loc cc0_scratch0)) :
    ((s0W).view.loc (V d (cV L) (jV L)) ↦{fullShare} f : sProp 𝕄) = (V d (cV L) (jV L)).loc cc0_scratch0 ↦{fullShare} f := rfl
omit [FloatOps F] in
theorem pts_s1 (f : Buf (Elt F) ((V d (cV L) (jV L)).loc cc0_scratch1)) :
    ((s1W).view.loc (V d (cV L) (jV L)) ↦{fullShare} f : sProp 𝕄) = (V d (cV L) (jV L)).loc cc0_scratch1 ↦{fullShare} f := rfl
omit [FloatOps F] in
theorem pts_s2 (f : Buf (Elt F) ((V d (cV L) (jV L)).loc cc0_scratch2)) :
    ((s2W).view.loc (V d (cV L) (jV L)) ↦{fullShare} f : sProp 𝕄) = (V d (cV L) (jV L)).loc cc0_scratch2 ↦{fullShare} f := rfl

/-- The zeroing loop's invariant: before trip `k` the first 16·k entries of the table are zero. -/
def invZ (f2 : IVec S100000 32) (k : Nat) (_ : PUnit) : sProp 𝕄 :=
  iprop((s2W).view.loc (V d (cV L) (jV L)) ↦{fullShare} zeroTo f2 (16 * k))

/-- The scan's invariant: before trip `k` the table holds the counts over the row's first 64·k positions, and the
    fetched row is untouched. -/
def invS (buf : IVec S8192 32) (n : Nat) (k : Nat) (_ : PUnit) : sProp 𝕄 :=
  iprop(((s2W).view.loc (V d (cV L) (jV L)) ↦{fullShare} (Cert.Hist.tbl (fun s => buf (ValueIdx.ix1 s)) n (64 * k) : IVec S100000 32))
    ∗ ((s0W).view.loc (V d (cV L) (jV L)) ↦{fullShare} buf))

omit [FloatOps F] in
theorem zeroTo_zero (f : IVec S100000 32) : zeroTo f (16 * 0) = f := by
  funext j; simp [zeroTo]

omit [FloatOps F] in
theorem pts_s2_access (f : Buf (Elt F) ((V d (cV L) (jV L)).loc cc0_scratch2)) :
    (((s2W).access (.whole S100000)).loc (V d (cV L) (jV L)) ↦[((s2W).access (.whole S100000)).set]{fullShare} f : sProp 𝕄)
      = ((s2W).view.loc (V d (cV L) (jV L)) ↦{fullShare} f) := by
  rw [access_whole_set]

/-- One chunk of the scan: the indexed add-store takes the table from the counts over the first `p` positions to the
    counts over the first `p + 16`. -/
theorem scatter_wp {α : Type} {Q : α → sProp 𝕄} (ids : Fin 8192 → BitVec 32) (n p0 p q : Nat) (hp0 : p0 = p) (hq : q = p + 16) (hp : p + 16 ≤ 8192)
    (chunk : IVec S16 32) (hchunk : ∀ l : Fin 16, chunk (ValueIdx.ix1 l) = ids ⟨p + l.val, by omega⟩)
    (ones : IVec S16 32) (hones : ∀ x, ones x = 1#32)
    (mask : IVec S16 1) (hmask : ∀ l : Fin 16, mask (ValueIdx.ix1 l) = 1#1 ↔ p + l.val < n)
    (h : ∀ a x, ((![chunk] : Fin 1 → IVec S16 32) a x).toNat < S100000.size a)
    (hs : ((s2W).access (.whole S100000)).Stores Finset.univ)
    (k : PUnit → Prog (TpuEff nD τ sig (Elt F) Λ₀ (Proc.scVector (cV L) (jV L))) α) :
    ((s2W).view.loc (V d (cV L) (jV L)) ↦{fullShare} (Cert.Hist.tbl ids n p0 : IVec S100000 32) : sProp 𝕄)
      ⊢ iprop((((s2W).view.loc (V d (cV L) (jV L)) ↦{fullShare} (Cert.Hist.tbl ids n q : IVec S100000 32)) -∗
            wp frame (wpE (defs₀ (F := F)) 𝒱₀ (V d (cV L) (jV L)) none) Set.univ (k ⟨⟩) Q)
          -∗ wp frame (wpE (defs₀ (F := F)) 𝒱₀ (V d (cV L) (jV L)) none) Set.univ
              (SparseCore.vectorStoreIdx (s2W) ![chunk] ones mask true h hs >>= k) Q) := by
  subst hp0 hq
  iintro H Hk
  ihave H' := (Entails.of_eq (pts_s2_access (F := F) d L _).symm) $$ H
  iapply (SparseCore.wp_vectorStoreIdx (defs := defs₀ (F := F)) 𝒱₀ (V d (cV L) (jV L)) none Set.univ (base := s2W) (Q := Q) (k := k)) $$ H'
  iintro H''
  have e : ((s2W).access (.whole S100000)).write (Elt F) (Cert.Hist.tbl ids n p0 : IVec S100000 32)
        (storeIdx (((s2W).access (.whole S100000)).read (Elt F) (Cert.Hist.tbl ids n p0 : IVec S100000 32)) ![chunk] ones mask true h) Finset.univ
      = (Cert.Hist.tbl ids n (p0 + 16) : IVec S100000 32) := by
    rw [access_whole_write, access_whole_read]
    exact Cert.Hist.hist_step (F := F) ids n p0 hp chunk hchunk ones hones mask hmask h
  iapply Hk
  iapply (Entails.of_eq (pts_s2_access (F := F) d L _))
  rw [← e]
  iexact H''

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goRes m d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__hist_body L idsW (Memref.isWhole_whole _) lenW (Memref.isWhole_whole _) outW (Memref.isWhole_whole _)
            s0W (Memref.isWhole_whole _) s1W (Memref.isWhole_whole _) s2W (Memref.isWhole_whole _) cc0_scratch3 cc0_scratch4 cc0_scoped0)
          fun _ => iprop(tdRes m d (cL L) (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__hist_body_eq_skeleton]; unfold cc0__hist_body_skel
  simp only [k0_part1_eq_skeleton]; unfold k0_part1_skel
  simp only [bind_assoc, pure_bind]
  rw [(K (F := F)).scopedBufs_V hF d (cV L) (jV L), SparseCore.Cfg.scopedSems0_V (Val := Elt F) d (cV L) (jV L), ownSems0_V, ownBufs_V]
  unfold goRes
  iintro ⟨#Hlv, -, ⟨Hids, Hlen, Hout⟩, ⟨⟨%f0, Hs0⟩, ⟨%f1, Hs1⟩, ⟨%f2, Hs2⟩, Hbufs⟩, ⟨HsemA, HsemB, HsemC, Hsems⟩, HO⟩
  ihave Hmw := ((K (F := F)).mayWaits_none (thr := V d (cV L) (jV L)) hO) $$ Hlv
  ihave Hids' := (Entails.of_eq (pts_idsRowK (F := F) d L _).symm) $$ Hids
  ihave Hout' := (Entails.of_eq (pts_outRowK (F := F) d L _).symm) $$ Hout
  ihave Hlen' := (Entails.of_eq (pts_lenW (F := F) d L _ _).symm) $$ Hlen
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  sl_exec
  sl_for (invZ (F := F) d L f2) $$ [Hs2']
  case region =>
    intro k _
    unfold invZ
    iintro Hs2
    sl_exec
    sl_step
    rw [zero_step (F := F) f2 k]
    iexact Hs2
  · unfold invZ
    rw [zeroTo_zero]
    iexact Hs2'
  iintro %_ HI
  unfold invZ
  rw [t1_trips, zeroTo_all]
  sl_exec
  have hV : (extractAt ![0] (k0_pay10 (tile_body.sl.x m d L f1)) inpos_S1_p0 : BitVec 32) = lenF m d (ValueIdx.ix1 (wL L)) :=
    (read_len (F := F) L f1 (tile_body.sl.dma0_1 m d)).trans (congrFun (readAs_len (F := F) (lenF m d)) _)
  have hlt : (extractAt ![0] (k0_pay10 (tile_body.sl.x m d L f1)) inpos_S1_p0 : BitVec 32).toNat < 8192 := by
    rw [hV]; exact (hpre d).2 _
  have hchk := Cert.Kernel.LoopArith.chk1_of_lt _ hlt
  have hbuf : (View.write (Elt F) (s0W).view f0 (tile_body.sl.dma0 m d L) Finset.univ : IVec S8192 32) = tile_body.sl.dma0 m d L := View.write_whole_univ _ _ _
  have hrow : ∀ s : Fin 8192, (View.write (Elt F) (s0W).view f0 (tile_body.sl.dma0 m d L) Finset.univ : IVec S8192 32) (ValueIdx.ix1 s) = m (idsLoc d) (ValueIdx.ix2 (wL L) s) := by
    intro s; rw [hbuf]; delta tile_body.sl.dma0; exact read_idsRow (F := F) L _ s
  have hb : ∀ j, ((View.write (Elt F) (s0W).view f0 (tile_body.sl.dma0 m d L) Finset.univ : IVec S8192 32) j).toNat < 100000 := by
    intro j
    obtain ⟨s, rfl⟩ : ∃ s : Fin 8192, j = ValueIdx.ix1 s := ⟨j 0, ValueIdx.eq_ix1 j⟩
    rw [hrow]; exact (hpre d).1 _
  sl_exec
  sl_for (invS (F := F) d L (View.write (Elt F) (s0W).view f0 (tile_body.sl.dma0 m d L) Finset.univ : IVec S8192 32) (extractAt ![0] (k0_pay10 (tile_body.sl.x m d L f1)) inpos_S1_p0 : BitVec 32).toNat) $$ [HI Hs0']
  case region =>
    intro k _
    unfold invS
    iintro ⟨Ht, Hr⟩
    have hk := Nat.lt_of_lt_of_eq k.isLt (Cert.Kernel.LoopArith.t2_trips _ hlt)
    sl_exec (disch := exact chk2_of_bound _ (fun x => hb _))
    iapply (scatter_wp (F := F) d L (fun s => (View.write (Elt F) (s0W).view f0 (tile_body.sl.dma0 m d L) Finset.univ : IVec S8192 32) (ValueIdx.ix1 s)) (extractAt ![0] (k0_pay10 (tile_body.sl.x m d L f1)) inpos_S1_p0 : BitVec 32).toNat (64 * k.val) (16 * (4 * k.val + 0)) (16 * (4 * k.val + 0) + 16) (by omega) rfl
      (chunk_le _ hlt k 0 (by omega)) _ (fun l => chunk_read4 (F := F) _ _ hlt hchk k l) _ pay11_one _ (fun l => pay1_iff _ hlt k l) _ _ _) $$ Ht
    iintro Ht
    sl_exec (disch := exact chk3_of_bound _ (fun x => hb _))
    iapply (scatter_wp (F := F) d L (fun s => (View.write (Elt F) (s0W).view f0 (tile_body.sl.dma0 m d L) Finset.univ : IVec S8192 32) (ValueIdx.ix1 s)) (extractAt ![0] (k0_pay10 (tile_body.sl.x m d L f1)) inpos_S1_p0 : BitVec 32).toNat (16 * (4 * k.val + 0) + 16) (16 * (4 * k.val + 1)) (16 * (4 * k.val + 1) + 16) (by omega) rfl
      (chunk_le _ hlt k 1 (by omega)) _ (fun l => chunk_read5 (F := F) _ _ hlt hchk k l) _ pay11_one _ (fun l => pay2_iff _ hlt k l) _ _ _) $$ Ht
    iintro Ht
    sl_exec (disch := exact chk4_of_bound _ (fun x => hb _))
    iapply (scatter_wp (F := F) d L (fun s => (View.write (Elt F) (s0W).view f0 (tile_body.sl.dma0 m d L) Finset.univ : IVec S8192 32) (ValueIdx.ix1 s)) (extractAt ![0] (k0_pay10 (tile_body.sl.x m d L f1)) inpos_S1_p0 : BitVec 32).toNat (16 * (4 * k.val + 1) + 16) (16 * (4 * k.val + 2)) (16 * (4 * k.val + 2) + 16) (by omega) rfl
      (chunk_le _ hlt k 2 (by omega)) _ (fun l => chunk_read6 (F := F) _ _ hlt hchk k l) _ pay11_one _ (fun l => pay3_iff _ hlt k l) _ _ _) $$ Ht
    iintro Ht
    sl_exec (disch := exact chk5_of_bound _ (fun x => hb _))
    iapply (scatter_wp (F := F) d L (fun s => (View.write (Elt F) (s0W).view f0 (tile_body.sl.dma0 m d L) Finset.univ : IVec S8192 32) (ValueIdx.ix1 s)) (extractAt ![0] (k0_pay10 (tile_body.sl.x m d L f1)) inpos_S1_p0 : BitVec 32).toNat (16 * (4 * k.val + 2) + 16) (16 * (4 * k.val + 3)) (16 * (4 * k.val + 3) + 16) (by omega) rfl
      (chunk_le _ hlt k 3 (by omega)) _ (fun l => chunk_read7 (F := F) _ _ hlt hchk k l) _ pay11_one _ (fun l => pay4_iff _ hlt k l) _ _ _) $$ Ht
    iintro Ht
    sl_step
    rw [show 16 * (4 * k.val + 3) + 16 = 64 * (k.val + 1) by omega]
    isplitl [Ht]; · iexact Ht
    iexact Hr
  · unfold invS
    rw [Nat.mul_zero, Cert.Hist.tbl_zero]
    isplitl [HI]; · iexact HI
    iexact Hs0'
  iintro %_ HI
  unfold invS
  icases HI with ⟨Ht, Hr⟩
  sl_for (fun (_ : Nat) (_ : PUnit) => (iprop(emp) : sProp 𝕄)) $$ []
  case region =>
    intro k _
    exact absurd (Nat.lt_of_lt_of_eq k.isLt (Cert.Kernel.LoopArith.t3_trips _ hlt)) (Nat.not_lt_zero _)
  · iempintro
  iintro %_ -
  sl_exec
  have hP : (extractAt ![0] (k0_pay10 (tile_body.sl.x m d L f1)) inpos_S1_p0 : BitVec 32).toNat ≤ 64 * Scf.trips (k0_t2_loop (extractAt ![0] (k0_pay10 (tile_body.sl.x m d L f1)) inpos_S1_p0 : BitVec 32)).lb (k0_t2_loop (extractAt ![0] (k0_pay10 (tile_body.sl.x m d L f1)) inpos_S1_p0 : BitVec 32)).ub (k0_t2_loop (extractAt ![0] (k0_pay10 (tile_body.sl.x m d L f1)) inpos_S1_p0 : BitVec 32)).st := by
    have h2 : Scf.trips (k0_t2_loop (extractAt ![0] (k0_pay10 (tile_body.sl.x m d L f1)) inpos_S1_p0 : BitVec 32)).lb (k0_t2_loop (extractAt ![0] (k0_pay10 (tile_body.sl.x m d L f1)) inpos_S1_p0 : BitVec 32)).ub (k0_t2_loop (extractAt ![0] (k0_pay10 (tile_body.sl.x m d L f1)) inpos_S1_p0 : BitVec 32)).st = ((extractAt ![0] (k0_pay10 (tile_body.sl.x m d L f1)) inpos_S1_p0 : BitVec 32).toNat + 63) / 64 :=
      Cert.Kernel.LoopArith.t2_trips _ hlt
    rw [h2]; omega
  sl_step
  have hval : ∀ i ∈ rowSet (n := 100000) (wL L), ((outRowK L).view.writes (Elt F) (m (outLoc d)) [⟨Rect.whole S100000, tile_body.sl.dma0_2 m d L f0 f1⟩] : IVec S32x100000 32) i = outG m d i := by
    intro i hi
    have hi0 : (i 0).val = (wL L).val := mem_rowSet.mp hi
    have hw : (⟨(i 0).val, ValueIdx.idx2_lt0 i⟩ : Fin 32) = wL L := Fin.ext hi0
    refine (writes_outRow (F := F) L (m (outLoc d)) (tile_body.sl.dma0_2 m d L f0 f1) i hi0).trans ?_
    refine (congrFun (readAs_tbl (F := F) _) _).trans ?_
    show Cert.Hist.countUpTo _ _ _ (i 1).val = Cert.Hist.G (m (idsLoc d)) (m (argLenLoc d)) i
    rw [Cert.Hist.countUpTo_of_le _ _ _ _ (Or.inl hP)]
    unfold Cert.Hist.G
    rw [hw]
    congr 1
    · funext s; exact hrow s
    · rw [hV]; rfl
  unfold tdRes
  isplitl [Hids' Hlen' Hout']
  · isplitl [Hids']
    · iapply (Entails.of_eq (pts_idsRowK (F := F) d L _)); iexact Hids'
    isplitl [Hlen']
    · iapply (Entails.of_eq (pts_lenW (F := F) d L _ _)); iexact Hlen'
    iapply (Entails.of_eq (pointsTo_congr hval))
    iapply (Entails.of_eq (pts_outRowK (F := F) d L _)); iexact Hout'
  isplitl [Hr Hs1' Ht Hbufs]
  · isplitl [Hr]; · iexists _; iapply (Entails.of_eq (pts_s0 (F := F) d L _)); iexact Hr
    isplitl [Hs1']; · iexists _; iapply (Entails.of_eq (pts_s1 (F := F) d L _)); iexact Hs1'
    isplitl [Ht]; · iexists _; iapply (Entails.of_eq (pts_s2 (F := F) d L _)); iexact Ht
    iexact Hbufs
  isplitl [HsemA HsemB HsemC Hsems]
  · isplitl [HsemA]; · iexact HsemA
    isplitl [HsemB]; · iexact HsemB
    isplitl [HsemC]; · iexact HsemC
    iexact Hsems
  iexists (insert (SemLoc.dma cc0_scoped0.sem, (default : HIx 1)) (insert (SemLoc.dma cc0_scratch3.sem, (default : HIx 1)) (insert (SemLoc.dma cc0_scratch4.sem, (default : HIx 1)) W))); isplitr
  · ipureintro
    intro p hp
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    exact .inl hp
  · iexact HO

end Tile

end Cert.Kernel.Tile

end
-- ==== Proof.TileLaunchBits.lean ====
/-
  The launch of the histogram kernel and the run of the whole program.

  The call hands each SparseCore the token rows and result rows of its parity and a read share of the row lengths;
  the SparseCore hands each subcore its one row of each and a sixteenth of its share, and joins what comes back:
  the result rows, each holding its row of the one table of counts, make the SparseCore's half, and the two halves
  the whole table. @main's first line flattens the lengths column; the call follows; the arguments are never
  written.
-/
import proofs.«213801_g6897717477520_cont_9to1_m_30_22_alg».proof.Proof.TileSetupBits
import Idealize.ShloMosaic.Lib.Pipeline.Value

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the handshakes carry -/

/-- What the call hands SparseCore `c`, and what it takes back. -/
def coreSt (d : Dev nD) (c : Fin 2) : sProp 𝕄 :=
  iprop((idsLoc d ↦[coreSet c]{fullShare} m (idsLoc d)) ∗ (lenLoc d ↦{Transfers.shareTok fullShare 2 c} lenF m d)
    ∗ (outLoc d ↦[coreSet c]{fullShare} m (outLoc d)))
def coreDn (d : Dev nD) (c : Fin 2) : sProp 𝕄 :=
  iprop((idsLoc d ↦[coreSet c]{fullShare} m (idsLoc d)) ∗ (lenLoc d ↦{Transfers.shareTok fullShare 2 c} lenF m d)
    ∗ (outLoc d ↦[coreSet c]{fullShare} outG m d))

def P : (K (F := F)).Pay (nD := nD) (Val := Elt F) (Name := ℕ) (U := UU) where
  st := fun q d c => match q with | 0 => coreSt m d (Fin.cast nCore_zero c)
  dn := fun q d c => match q with | 0 => coreDn m d (Fin.cast nCore_zero c)
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance P_storable : (P (F := F) m).IsStorable where
  st q d c := match q with
    | 0 => by show BI.Storable (upEmb : UEmb _ 𝕄) (coreSt m d (Fin.cast nCore_zero c)); unfold coreSt; infer_instance
  dn q d c := match q with
    | 0 => by show BI.Storable (upEmb : UEmb _ 𝕄) (coreDn m d (Fin.cast nCore_zero c)); unfold coreDn; infer_instance
  go q d c i := match q with
    | 0 => by show BI.Storable (upEmb : UEmb _ 𝕄) (goRes m d (Fin.cast nCore_zero c) (Fin.cast nSub_zero i)); unfold goRes; infer_instance
  td q d c i := match q with
    | 0 => by show BI.Storable (upEmb : UEmb _ 𝕄) (tdRes m d (Fin.cast nCore_zero c) (Fin.cast nSub_zero i)); unfold tdRes; infer_instance

/-! ## A SparseCore's operands among its subcores -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem ids_rows (d : Dev nD) (c : Fin 2) (f : Buf (Elt F) (idsLoc d)) :
    (idsLoc d ↦[coreSet c]{fullShare} f : sProp 𝕄) = bigSep Finset.univ fun s : Fin 16 => idsLoc d ↦[rowSet (wid c s)]{fullShare} f := by
  unfold coreSet
  exact pointsTo_biUnion Finset.univ (ℓ := idsLoc d) (fun s => rowSet (wid c s)) (core_rows_disjoint c)
theorem out_rows (d : Dev nD) (c : Fin 2) (f : Buf (Elt F) (outLoc d)) :
    (outLoc d ↦[coreSet c]{fullShare} f : sProp 𝕄) = bigSep Finset.univ fun s : Fin 16 => outLoc d ↦[rowSet (wid c s)]{fullShare} f := by
  unfold coreSet
  exact pointsTo_biUnion Finset.univ (ℓ := outLoc d) (fun s => rowSet (wid c s)) (core_rows_disjoint c)

theorem vecSplit : (K (F := F)).VecSplit' (P m) 0 := by
  intro d c
  show coreSt m d (Fin.cast nCore_zero c) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ coreDn m d (Fin.cast nCore_zero c)))
  generalize Fin.cast nCore_zero c = c'
  rw [bigSep_tasks (F := F) (fun i => goRes m d c' i), bigSep_tasks (F := F) (fun i => tdRes m d c' i)]
  unfold coreSt coreDn goRes tdRes lenShare
  rw [bigSep_sep', bigSep_sep', bigSep_sep', bigSep_sep', ids_rows, out_rows, out_rows]
  iintro ⟨Hi, Hl, Ho⟩
  ihave Hl' := (Transfers.pointsTo_toks_split (Transfers.shareTok fullShare 2 c') 16) $$ Hl
  icases Hl' with ⟨Hrem, Htoks⟩
  imodintro
  isplitl [Hi Htoks Ho]
  · isplitl [Hi]; · iexact Hi
    isplitl [Htoks]; · iexact Htoks
    iexact Ho
  iintro ⟨Hi, Htoks, Ho⟩
  isplitl [Hi]; · iexact Hi
  isplitl [Hrem Htoks]
  · iapply (Transfers.pointsTo_toks_join (Transfers.shareTok fullShare 2 c') 16)
    isplitl [Hrem]; · iexact Hrem
    iexact Htoks
  iexact Ho

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev opR : HloOp τ sig (Elt F) := StableHlo.reshape main_arg1 main_v0 rfl shapeCasts_S32x1_S32

/-- The TensorCore's four arrays, all unscoped. -/
abbrev S4 : Finset (DevRef τ sig) := {a0', a1', v0', v1'}

theorem held_S4 (d : Dev nD) (W : Valuation τ sig (Elt F)) :
    (held (T d) S4 W : sProp 𝕄) = iprop((idsLoc d ↦{fullShare} W a0') ∗ (argLenLoc d ↦{fullShare} W a1') ∗ (lenLoc d ↦{fullShare} W v0') ∗ outLoc d ↦{fullShare} W v1') := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((idsLoc d ↦{fullShare} W main_arg0) ∗ (argLenLoc d ↦{fullShare} W main_arg1) ∗ (lenLoc d ↦{fullShare} W main_v0) ∗ outLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hR : (opR (F := F)).bufs ⊆ S4 := show ({a1', v0'} : Finset (DevRef τ sig)) ⊆ S4 by decide

variable [FloatOps F]

/-- After the first line the flat lengths array holds the lengths column, entry by entry; the other arrays are untouched. -/
theorem res_v0 (d : Dev nD) : (opR (F := F)).result (V0 m d) v0' = lenF m d := by
  refine (StableHlo.reshape_result main_arg1 main_v0 rfl shapeCasts_S32x1_S32 _ _ (V0 m d)).trans ?_
  funext j
  show shapeCast S32 (m (argLenLoc d)) shapeCasts_S32x1_S32 j = _
  refine shapeCast_apply _ _ j (ValueIdx.ix2 (j 0) (0 : Fin 1)) ?_
  refine (Shape.rowMajor_val_two (d := ![32, 1]) _).trans (Eq.trans ?_ (Shape.rowMajor_val_one (d := ![32]) j).symm)
  simp
theorem res_a0 (d : Dev nD) : (opR (F := F)).result (V0 m d) a0' = m (idsLoc d) :=
  (opR (F := F)).result_of_not_mem (V0 m d) (b := a0') (show a0' ∉ ({v0'} : Finset (DevRef τ sig)) by decide)
theorem res_a1 (d : Dev nD) : (opR (F := F)).result (V0 m d) a1' = m (argLenLoc d) :=
  (opR (F := F)).result_of_not_mem (V0 m d) (b := a1') (show a1' ∉ ({v0'} : Finset (DevRef τ sig)) by decide)
theorem res_v1 (d : Dev nD) : (opR (F := F)).result (V0 m d) v1' = m (outLoc d) :=
  (opR (F := F)).result_of_not_mem (V0 m d) (b := v1') (show v1' ∉ ({v0'} : Finset (DevRef τ sig)) by decide)

/-- The whole tokens / result array is the two SparseCores' halves. -/
theorem ids_cores (d : Dev nD) (f : Buf (Elt F) (idsLoc d)) :
    (idsLoc d ↦{fullShare} f : sProp 𝕄) = bigSep Finset.univ fun c : Fin 2 => idsLoc d ↦[coreSet c]{fullShare} f := by
  rw [← pointsTo_biUnion Finset.univ (ℓ := idsLoc d) coreSet coreSets_disjoint, coreSets_cover]
theorem out_cores (d : Dev nD) (f : Buf (Elt F) (outLoc d)) :
    (outLoc d ↦{fullShare} f : sProp 𝕄) = bigSep Finset.univ fun c : Fin 2 => outLoc d ↦[coreSet c]{fullShare} f := by
  rw [← pointsTo_biUnion Finset.univ (ℓ := outLoc d) coreSet coreSets_disjoint, coreSets_cover]

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m).st 0 d c) = bigSep Finset.univ fun c : Fin 2 => coreSt m d c :=
  bigSep_cores (F := F) (fun c => coreSt m d c)
theorem dn0_eq (d : Dev nD) : (bigSep Finset.univ fun c : Fin ((K (F := F)).nCore 0) => (P m).dn 0 d c) = bigSep Finset.univ fun c : Fin 2 => coreDn m d c :=
  bigSep_cores (F := F) (fun c => coreDn m d c)

theorem st_of (d : Dev nD) :
    iprop((idsLoc d ↦{fullShare} m (idsLoc d)) ∗ (bigSep Finset.univ fun c : Fin 2 => lenLoc d ↦{Transfers.shareTok fullShare 2 c} lenF m d)
        ∗ (outLoc d ↦{fullShare} m (outLoc d)))
      ⊢ bigSep Finset.univ fun c : Fin 2 => coreSt m d c := by
  unfold coreSt
  rw [bigSep_sep', bigSep_sep', ← ids_cores, ← out_cores]
theorem dn_to (d : Dev nD) :
    (bigSep Finset.univ fun c : Fin 2 => coreDn m d c)
      ⊢ iprop((idsLoc d ↦{fullShare} m (idsLoc d)) ∗ (bigSep Finset.univ fun c : Fin 2 => lenLoc d ↦{Transfers.shareTok fullShare 2 c} lenF m d)
        ∗ (outLoc d ↦{fullShare} outG m d)) := by
  unfold coreDn
  rw [bigSep_sep', bigSep_sep', ← ids_cores, ← out_cores]

/-- What @main leaves the claim: the two arguments at their launch contents and the result at the table of counts. -/
abbrev FIN (d : Dev nD) : sProp 𝕄 := iprop((idsLoc d ↦{fullShare} m (idsLoc d)) ∗ (argLenLoc d ↦{fullShare} m (argLenLoc d)) ∗ (outLoc d ↦{fullShare} outG m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opR) (S := S4) hR (V := V0 m d)) $$ [Hb Hheld]
  · isplitl [Hb]; · iexact Hb
    iexact Hheld
  iintro ⟨Hb, Hheld⟩
  ihave Hh := (Entails.of_eq (held_S4 (F := F) d _)) $$ Hheld
  rw [res_a0, res_a1, res_v0, res_v1]
  icases Hh with ⟨Hi, Ha, Hl, Ho⟩
  rw [wp_ret]; imodintro
  ihave Hl' := (Transfers.pointsTo_toks_split fullShare 2) $$ Hl
  icases Hl' with ⟨-, Htoks⟩
  iapply ((K (F := F)).wp_run (D (F := F)) 𝒱 (EH := EH) (P := P m) κ d 0) $$ [Hst Hi Htoks Ho Ha]
  isplitr; · iexact Hctx
  isplitl [Hst]; · iexact Hst
  isplitl [Hi Htoks Ho]
  · rw [st0_eq]
    iapply (st_of m d)
    isplitl [Hi]; · iexact Hi
    isplitl [Htoks]; · iexact Htoks
    iexact Ho
  iintro ⟨Hst, Hdn⟩
  ihave Hdn' := (Entails.of_eq (dn0_eq m d)) $$ Hdn
  ihave Hdn'' := (dn_to m d) $$ Hdn'
  icases Hdn'' with ⟨Hi, -, Ho⟩
  imodintro
  isplitl [Hst]; · iexact Hst
  isplitl [Hi]; · iexact Hi
  isplitl [Ha]; · iexact Ha
  iexact Ho

/-! ## Reading the final memory -/

def fq (d : Dev nD) (s' : Phys nD τ sig (Elt F)) : Prop :=
  s'.mem.mem (idsLoc d) = m (idsLoc d) ∧ s'.mem.mem (argLenLoc d) = m (argLenLoc d) ∧ s'.mem.mem (outLoc d) = outG m d

theorem hfin (d : Dev nD) (s' : Phys nD τ sig (Elt F)) : iprop(FIN m d ∗ SI s') ⊢ (⌜fq m d s'⌝ : sProp 𝕄) := by
  iintro ⟨⟨Hi, Ha, Ho⟩, HSI⟩
  ihave H := (persistent_entails_right (SI_pointsTo_agree (st := s') (ℓ := idsLoc d) (I := Finset.univ) (q := fullShare) (f := m (idsLoc d)))) $$ [HSI Hi]
  · isplitl [HSI] <;> iassumption
  icases H with ⟨%h1, HSI, -⟩
  ihave H := (persistent_entails_right (SI_pointsTo_agree (st := s') (ℓ := argLenLoc d) (I := Finset.univ) (q := fullShare) (f := m (argLenLoc d)))) $$ [HSI Ha]
  · isplitl [HSI] <;> iassumption
  icases H with ⟨%h2, HSI, -⟩
  ihave H := (SI_pointsTo_agree (st := s') (ℓ := outLoc d) (I := Finset.univ) (q := fullShare) (f := outG m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The strongest statement of the run: the result holds the table of counts of the launch contents, the arguments
    are unchanged. -/
def QC : PUnit × MemSt nD τ sig (Elt F) → Prop := fun r => ∀ c : Dev nD,
  r.2.mem (outLoc c) = outG m c ∧ r.2.mem (idsLoc c) = m (idsLoc c) ∧ r.2.mem (argLenLoc c) = m (argLenLoc c)

theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.2, (h c).1, (h c).2.1⟩)

end Cert.Kernel.Tile

end
-- ==== Proof.TileOblBits.lean ====
/-
  The worker's task as the launch asks for it: on vector subcore `i` of SparseCore `c` the kernel's label runs the
  body at the coordinates (c, i), from the worker's operands to its results.
-/
import proofs.«213801_g6897717477520_cont_9to1_m_30_22_alg».proof.Proof.TileBodyBits
import proofs.«213801_g6897717477520_cont_9to1_m_30_22_alg».proof.Proof.TileLaunchBits

noncomputable section

namespace Cert.Kernel.Tile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "idsW" => (Memref.whole Cert.Kernel.main_arg0_scv : Memref Cert.Kernel.sig Kind.scVector Space.hbm Cert.Kernel.S32x8192 EltTy.i32)
local notation "lenW" => (Memref.whole Cert.Kernel.main_v0_scv : Memref Cert.Kernel.sig Kind.scVector Space.hbm Cert.Kernel.S32 EltTy.i32)
local notation "outW" => (Memref.whole Cert.Kernel.main_v1_scv : Memref Cert.Kernel.sig Kind.scVector Space.hbm Cert.Kernel.S32x100000 EltTy.i32)
local notation "s0W" => (Memref.whole Cert.Kernel.cc0_scratch0 : Memref Cert.Kernel.sig Kind.scVector Space.vmem Cert.Kernel.S8192 EltTy.i32)
local notation "s1W" => (Memref.whole Cert.Kernel.cc0_scratch1 : Memref Cert.Kernel.sig Kind.scVector Space.vmem Cert.Kernel.S48 EltTy.i32)
local notation "s2W" => (Memref.whole Cert.Kernel.cc0_scratch2 : Memref Cert.Kernel.sig Kind.scVector Space.vmem Cert.Kernel.S100000 EltTy.i32)

def coordsV (c : Fin (grid0.bound 0)) (s : Fin (grid0.bound 1)) : grid0.Coords :=
  fun | 0 => c | 1 => s | ⟨_ + 2, h⟩ => absurd h (Nat.not_lt.2 (Nat.le_add_left _ _))

variable [FloatOps F]

theorem defs₀_vector (c : Fin τ.nSC) (s : Fin τ.nSub) :
    defs₀ (F := F) (.scVector c s) 0 ()
      = SparseCore.onTile hcore0 hsub0 (fun c s => cc0__hist_body (coordsV c s)
          idsW (Memref.isWhole_whole _) lenW (Memref.isWhole_whole _) outW (Memref.isWhole_whole _)
          s0W (Memref.isWhole_whole _) s1W (Memref.isWhole_whole _) s2W (Memref.isWhole_whole _) cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

/-- The program's run, from what the precondition says of the launch memory. -/
theorem run [∀ e, Nonempty (Elt F e)] (hpre : PreOK m) :
    θ_run (Cert.Kernel.defs (F := F)) (Cert.Kernel.threads (F := F)) ⟨m, fun _ => 0, ρ⟩ (QC m) :=
  run_main m ρ (tileObl m facts hpre)

end Cert.Kernel.Tile

end
-- ==== Proof.TileSetupIdeal.lean ====
/-
  The histogram kernel's launch, its resources and how they are shared out.

  Thirty-two workers — two SparseCores, sixteen vector subcores each — each count one row of the token array:
  worker (core c, subcore s) owns row 2·s + c of the tokens and of the result, and every worker reads the whole
  32-word array of row lengths. So the call hands each SparseCore the sixteen token rows and result rows of its
  parity, and a read share of the lengths; a SparseCore hands each of its subcores its one row of each and a
  sixteenth of that read share. Rows of distinct workers are disjoint and together they are the whole array
  (every row number is 2·(w / 2) + w % 2), so what the workers hand back joins to the whole result, each row at the
  one table `Cert.Hist.G` of the launch contents.
-/
import proofs.«213801_g6897717477520_cont_9to1_m_30_22_alg».proof.Defs
import proofs.«213801_g6897717477520_cont_9to1_m_30_22_alg».proof.Proof.HistSpec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«213801_g6897717477520_cont_9to1_m_30_22_alg».proof.Proof.Gen.KernelIdeal
import proofs.«213801_g6897717477520_cont_9to1_m_30_22_alg».proof.Proof.Gen.KernelIdeal.Skeleton

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The tokens, the row lengths as the program's first line reshapes them to a flat array, the result, and the row
    lengths as the argument gives them, as locations of device `d`. -/
abbrev idsLoc (d : Dev nD) : Loc nD τ sig := (SparseCore.T d).loc main_arg0
abbrev lenLoc (d : Dev nD) : Loc nD τ sig := (SparseCore.T d).loc main_v0
abbrev outLoc (d : Dev nD) : Loc nD τ sig := (SparseCore.T d).loc main_v1
abbrev argLenLoc (d : Dev nD) : Loc nD τ sig := (SparseCore.T d).loc main_arg1

/-- The flat array of row lengths: entry `b` is the argument's entry `(b, 0)`. -/
def lenF (d : Dev nD) : Buf (Elt F) (lenLoc d) := fun j => m (argLenLoc d) (ValueIdx.ix2 (j 0) (0 : Fin 1))

/-- The table of counts of device `d`'s launch contents. -/
def outG (d : Dev nD) : Buf (Elt F) (outLoc d) := Cert.Hist.G (m (idsLoc d)) (m (argLenLoc d))

/-- What the proof asks of the launch memory: every token names a table entry and every row length is at most the
    row's extent — what the precondition says. -/
def PreOK : Prop := ∀ d : Dev nD, (∀ i, (m (idsLoc d) i).toNat < 100000) ∧ (∀ i, (m (argLenLoc d) i).toNat < 8192)

/-! ## Workers and their rows -/

/-- The row a worker counts: twice its subcore number plus its core number. -/
def wid (c : Fin 2) (s : Fin 16) : Fin 32 := ⟨2 * s.val + c.val, by omega⟩

theorem wid_inj {c c' : Fin 2} {s s' : Fin 16} (h : wid c s = wid c' s') : c = c' ∧ s = s' := by
  have := congrArg Fin.val h
  simp only [wid] at this
  exact ⟨Fin.ext (by omega), Fin.ext (by omega)⟩

/-- The entries of row `w` of a 32-row array. -/
def rowSet {n : Nat} (w : Fin 32) : Finset (⟨2, ![32, n]⟩ : Shape).Idx := Finset.univ.filter fun j => (j 0).val = w.val

theorem mem_rowSet {n : Nat} {w : Fin 32} {j : (⟨2, ![32, n]⟩ : Shape).Idx} : j ∈ rowSet w ↔ (j 0).val = w.val := by
  simp [rowSet]

theorem rowSet_disjoint {n : Nat} {w w' : Fin 32} (h : w ≠ w') : Disjoint (rowSet (n := n) w) (rowSet w') :=
  Finset.disjoint_left.mpr fun j h1 h2 => h (Fin.ext ((mem_rowSet.mp h1).symm.trans (mem_rowSet.mp h2)))

/-- The rows of one SparseCore's workers. -/
def coreSet {n : Nat} (c : Fin 2) : Finset (⟨2, ![32, n]⟩ : Shape).Idx := (Finset.univ : Finset (Fin 16)).biUnion fun s => rowSet (wid c s)

theorem core_rows_disjoint {n : Nat} (c : Fin 2) :
    ∀ s ∈ (Finset.univ : Finset (Fin 16)), ∀ s' ∈ (Finset.univ : Finset (Fin 16)), s ≠ s' → Disjoint (rowSet (n := n) (wid c s)) (rowSet (wid c s')) :=
  fun _ _ _ _ h => rowSet_disjoint fun e => h (wid_inj e).2

theorem coreSets_disjoint {n : Nat} :
    ∀ c ∈ (Finset.univ : Finset (Fin 2)), ∀ c' ∈ (Finset.univ : Finset (Fin 2)), c ≠ c' → Disjoint (coreSet (n := n) c) (coreSet c') := by
  intro c _ c' _ h
  refine Finset.disjoint_left.mpr fun j h1 h2 => ?_
  obtain ⟨s, -, hs⟩ := Finset.mem_biUnion.mp h1
  obtain ⟨s', -, hs'⟩ := Finset.mem_biUnion.mp h2
  exact h (wid_inj (Fin.ext ((mem_rowSet.mp hs).symm.trans (mem_rowSet.mp hs')))).1

theorem coreSets_cover {n : Nat} : (Finset.univ : Finset (Fin 2)).biUnion (coreSet (n := n)) = Finset.univ := by
  ext j
  simp only [Finset.mem_biUnion, Finset.mem_univ, true_and, iff_true]
  have hj : (j 0).val < 32 := ValueIdx.idx2_lt0 j
  exact ⟨⟨(j 0).val % 2, by omega⟩, Finset.mem_biUnion.mpr ⟨⟨(j 0).val / 2, by omega⟩, Finset.mem_univ _, mem_rowSet.mpr (by simp only [wid]; omega)⟩⟩

/-! ## What a worker is handed and hands back -/

/-- The worker's share of the lengths array: the SparseCore's token of the whole, then the subcore's token of that. -/
abbrev lenShare (c : Fin 2) (i : Fin 16) : PosShare TreeShare := Transfers.shareTok (Transfers.shareTok fullShare 2 c) 16 i

/-- What a worker is handed, and what it hands back: its row of the tokens, its share of the lengths, its row of the
    result — on the way back holding its row of the table of counts. -/
def goRes (d : Dev nD) (c : Fin 2) (i : Fin 16) : sProp 𝕄 :=
  iprop((idsLoc d ↦[rowSet (wid c i)]{fullShare} m (idsLoc d)) ∗ (lenLoc d ↦{lenShare c i} lenF m d)
    ∗ (outLoc d ↦[rowSet (wid c i)]{fullShare} m (outLoc d)))
def tdRes (d : Dev nD) (c : Fin 2) (i : Fin 16) : sProp 𝕄 :=
  iprop((idsLoc d ↦[rowSet (wid c i)]{fullShare} m (idsLoc d)) ∗ (lenLoc d ↦{lenShare c i} lenF m d)
    ∗ (outLoc d ↦[rowSet (wid c i)]{fullShare} outG m d))

end Cert.KernelIdeal.Tile

end
-- ==== Proof.ZeroStepIdeal.lean ====
/-
  The zeroing loop's step, as a pure function.

  The table of 100000 words is cleared sixteen words at a time: trip k stores sixteen zero words at the entries
  16k, …, 16k + 15. A table whose first p entries are zero and whose other entries are those of a table f is
  zeroTo f p; the store of trip k takes zeroTo f (16k) to zeroTo f (16(k + 1)): an entry inside the stored
  rectangle takes the zero written there, an entry outside keeps its value, and outside the rectangle "below 16k"
  and "below 16(k + 1)" say the same. After the 6250 trips every entry is zero.
-/
import proofs.«213801_g6897717477520_cont_9to1_m_30_22_alg».proof.Proof.Gen.KernelIdeal.Skeleton
import Idealize.ShloMosaic.Lib.Writes

noncomputable section

namespace Cert.KernelIdeal.Tile

open Cert.KernelIdeal Cert.KernelIdeal.Gen Idealize.ShloMosaic

variable {F : FTy → Type} [FloatOps F]

/-- A table whose first p entries have been zeroed. -/
def zeroTo (f : IVec S100000 32) (p : Nat) : IVec S100000 32 := fun j => if (j 0).val < p then 0#32 else f j

/-- The zeroing loop runs 6250 trips. -/
theorem t1_trips : Scf.trips k0_t1_loop.lb k0_t1_loop.ub k0_t1_loop.st = 6250 := by decide

/-- Once the first 16 · 6250 = 100000 entries are zeroed, every entry is. -/
theorem zeroTo_all (f2 : IVec S100000 32) : zeroTo f2 (16 * 6250) = fun _ => 0#32 := by
  funext j
  have hj : (j 0).val < 100000 := (j 0).isLt
  unfold zeroTo
  rw [if_pos (by omega)]

/-- Trip k of the zeroing loop: sixteen zero words stored at the entries from 16k take the table zeroed below 16k
    to the table zeroed below 16(k + 1). -/
theorem zero_step (f2 : IVec S100000 32) (k : Fin (Scf.trips k0_t1_loop.lb k0_t1_loop.ub k0_t1_loop.st)) :
    (Memref.whole cc0_scratch2 : Memref sig .scVector .vmem S100000 .i32).view.writes (Elt F) (zeroTo f2 (16 * k.val))
        [⟨Rect.unit (s := S100000) (k0_off2 k) S16.size (k0_off2_inb k), k0_pay9⟩]
      = zeroTo f2 (16 * (k.val + 1)) := by
  funext j
  -- the stored rectangle is the sixteen entries from 16k
  have hmem : j ∈ (Rect.unit (s := S100000) (k0_off2 k) S16.size (k0_off2_inb k)).set
      ↔ 16 * k.val ≤ (j 0).val ∧ (j 0).val < 16 * k.val + 16 := by
    rw [Rect.mem_set_unit, k0_off2_eq k]
    constructor
    · intro hh; exact hh 0
    · intro hh a
      match a with
      | ⟨0, _⟩ => exact hh
  by_cases hc : 16 * k.val ≤ (j 0).val ∧ (j 0).val < 16 * k.val + 16
  · -- inside: the entry takes the stored zero
    have hz : zeroTo f2 (16 * (k.val + 1)) j = 0#32 := by
      unfold zeroTo
      rw [if_pos (by omega)]
    obtain ⟨x, hx⟩ := (Rect.unit (s := S100000) (k0_off2 k) S16.size (k0_off2_inb k)).exists_idx_of_mem (hmem.2 hc)
    rw [hz, ← hx]
    exact View.write_emb_of_mem (Val := Elt F)
      (v := (View.whole cc0_scratch2 : View sig .scVector .vmem S100000 .i32).slice
        (Rect.unit (s := S100000) (k0_off2 k) S16.size (k0_off2_inb k)))
      (zeroTo f2 (16 * k.val)) k0_pay9 (Finset.mem_univ x)
  · -- outside: the entry keeps its value, and the two thresholds agree on it
    have hn : j ∉ ((View.whole cc0_scratch2 : View sig .scVector .vmem S100000 .i32).slice
        (Rect.unit (s := S100000) (k0_off2 k) S16.size (k0_off2_inb k))).setOn Finset.univ := by
      rw [View.setOn_univ, View.set_slice_whole]
      exact fun hh => hc (hmem.1 hh)
    refine (View.write_of_not_mem (Val := Elt F) (zeroTo f2 (16 * k.val)) k0_pay9 Finset.univ hn).trans ?_
    unfold zeroTo
    by_cases h1 : (j 0).val < 16 * k.val
    · rw [if_pos h1, if_pos (by omega)]
    · rw [if_neg h1, if_neg (by omega)]

end Cert.KernelIdeal.Tile

end
-- ==== Proof.LoopArithIdeal.lean ====
import proofs.«213801_g6897717477520_cont_9to1_m_30_22_alg».proof.Proof.Gen.KernelIdeal

/-!
# The scan loop's bounds and chunk offsets

The row's length word `v19` is below 8192. The program computes the number of 64-word chunks
`⌈v19 / 64⌉` as the floor-division chain `(v19 + 64 − 1) /ₛ 64` with a sign correction: the
quotient is lowered by one when the dividend and the divisor differ in sign and the remainder is
not zero. Here `v19 + 63` is between 63 and 8254, so both signs are `+1`, the correction is not
taken, and the chain's value is `(v19 + 63) / 64` in the integers. The first loop runs from 0 to
that number by 1; the second runs from that number to itself (the same word after a division and a
multiplication by the step 1), so it has no trips. At trip `t` of the first loop the four chunk
offsets are `16 · (4·t + j)`, `j = 0, 1, 2, 3`; since `t < 128` each is at most `8176`, and
sixteen words from it stay inside the 8192 words of the row.

Every line of the chains is read as a signed integer (`Affine.IsInt`), with a linear side condition
saying the line does not wrap.
-/

namespace Cert.KernelIdeal.LoopArith

open Cert.KernelIdeal Idealize.ShloMosaic

/-- A signed reading, opened. -/
private theorem toInt_of {x : BitVec 32} {e : Int} (hx : Affine.IsInt x e) : x.toInt = e := by
  unfold Affine.IsInt at hx; exact hx

/-- A word below `8192` reads signed as it reads unsigned. -/
private theorem isInt_word (v : BitVec 32) (h : v.toNat < 8192) : Affine.IsInt v (v.toNat : Int) :=
  Affine.relit (Affine.word v) (by have := BitVec.toInt_eq_toNat_cond v; split at this <;> omega)

/-- A loop's trips from the signed readings of its three operands. -/
private theorem trips_of {L : Scf.Loop 32} {el eu k : Int} (hlb : Affine.IsInt L.lb el) (hub : Affine.IsInt L.ub eu)
    (hst : Affine.IsInt L.st k) : L.trips = ((eu - el + k - 1) / k).toNat := by
  show Scf.trips L.lb L.ub L.st = _
  rw [Scf.trips, toInt_of hlb, toInt_of hub, toInt_of hst]

/-- The operands of both loops, read signed: the first loop is `0 … (v19 + 63) / 64` by `1`, the second
    `(v19 + 63) / 64 … (v19 + 63) / 64` by `1`. -/
private theorem bounds (v19 : BitVec 32) (h : v19.toNat < 8192) :
    (Affine.IsInt (k0_t2_loop v19).lb 0 ∧
      Affine.IsInt (k0_t2_loop v19).ub (((v19.toNat : Int) + 63) / 64) ∧
      Affine.IsInt (k0_t2_loop v19).st 1) ∧
    (Affine.IsInt (k0_t3_loop v19).lb (((v19.toNat : Int) + 63) / 64) ∧
      Affine.IsInt (k0_t3_loop v19).ub (((v19.toNat : Int) + 63) / 64) ∧
      Affine.IsInt (k0_t3_loop v19).st 1) := by
  have h_v19 : Affine.IsInt v19 (v19.toNat : Int) := isInt_word v19 h
  have h_c0 : Affine.IsInt 0#32 (0) := Affine.ofNat _ (by omega)
  have h_c1 : Affine.IsInt 1#32 (1) := Affine.ofNat _ (by omega)
  have h_c64 : Affine.IsInt 64#32 (64) := Affine.ofNat _ (by omega)
  -- the dividend v19 + 64 − 1
  have h_v22 : Affine.IsInt _ ((v19.toNat : Int) + 64) := Affine.addi h_v19 h_c64 (by omega)
  have h_v23 : Affine.IsInt _ ((v19.toNat : Int) + 63) := Affine.subi h_v22 h_c1 (by omega)
  -- its sign is +1
  have c_v25 := Affine.sgt_holds h_v23 h_c0 (by omega)
  have h_v26 : Affine.IsInt _ (1) := Affine.extui_holds c_v25 rfl
  have c_v27 := Affine.slt_fails h_v23 h_c0 (by omega)
  have h_v28 : Affine.IsInt _ (0) := Affine.extui_fails c_v27 rfl
  have h_v29 : Affine.IsInt _ (1) := Affine.subi h_v26 h_v28 (by omega)
  -- the divisor's sign is +1
  have c_v30 := Affine.sgt_holds h_c64 h_c0 (by omega)
  have h_v31 : Affine.IsInt _ (1) := Affine.extui_holds c_v30 rfl
  have c_v32 := Affine.slt_fails h_c64 h_c0 (by omega)
  have h_v33 : Affine.IsInt _ (0) := Affine.extui_fails c_v32 rfl
  have h_v34 : Affine.IsInt _ (1) := Affine.subi h_v31 h_v33 (by omega)
  -- the signs agree, so the correction is not taken whatever the remainder
  have c_v35 := Affine.ne_fails h_v29 h_v34 rfl
  have h_v36 : Affine.IsInt _ (((v19.toNat : Int) + 63) % 64) := Affine.remsi h_v23 h_c64 ⟨rfl, by omega, by omega⟩
  have t_v37 := Affine.cmpi_term .ne h_v36 h_c0
  have c_v38 := Affine.andi_fails_left c_v35 t_v37
  -- the quotient
  have h_v24 : Affine.IsInt _ (((v19.toNat : Int) + 63) / 64) := Affine.divsi h_v23 h_c64 ⟨rfl, by omega, by omega⟩
  have h_v39 : Affine.IsInt _ (((v19.toNat : Int) + 63) / 64 - 1) := Affine.subi h_v24 h_c1 (by omega)
  have h_v40 : Affine.IsInt _ (((v19.toNat : Int) + 63) / 64) := Affine.select_fails c_v38 h_v39 h_v24 rfl
  -- the loop bounds normalised to the step 1
  have h_v41 : Affine.IsInt _ (((v19.toNat : Int) + 63) / 64) := Affine.subi h_v40 h_c0 (by omega)
  have h_v43 : Affine.IsInt _ (((v19.toNat : Int) + 63) / 64) := Affine.divsi_one h_v41 h_c1 ⟨rfl, rfl⟩
  have h_v44 : Affine.IsInt _ (((v19.toNat : Int) + 63) / 64) := Affine.muli h_v43 h_c1 (by omega)
  have h_v45 : Affine.IsInt _ (((v19.toNat : Int) + 63) / 64) := Affine.addi h_c0 h_v44 (by omega)
  have h_v42 : Affine.IsInt _ (((v19.toNat : Int) + 63) / 64) := Affine.addi h_c0 h_v41 (by omega)
  exact ⟨⟨h_c0, h_v45, h_c1⟩, ⟨h_v45, h_v42, h_c1⟩⟩

/-- The first loop has `⌈v19 / 64⌉` trips. -/
theorem t2_trips (v19 : BitVec 32) (h : v19.toNat < 8192) : (k0_t2_loop v19).trips = (v19.toNat + 63) / 64 := by
  obtain ⟨⟨hlb, hub, hst⟩, -⟩ := bounds v19 h
  rw [trips_of hlb hub hst]
  omega

/-- The second loop runs from a number to itself: no trips. -/
theorem t3_trips (v19 : BitVec 32) (h : v19.toNat < 8192) : (k0_t3_loop v19).trips = 0 := by
  obtain ⟨-, hlb, hub, hst⟩ := bounds v19 h
  rw [trips_of hlb hub hst]
  omega

/-- A trip of the first loop is below 128. -/
private theorem trip_lt (v19 : BitVec 32) (h : v19.toNat < 8192) (t : Fin (k0_t2_loop v19).trips) : t.val < 128 := by
  have h1 : t.val < (v19.toNat + 63) / 64 := Nat.lt_of_lt_of_eq t.isLt (t2_trips v19 h)
  omega

/-- The chunk offset `((t · 4 + j) · 16)` at trip `t`, read signed, for `j < 4`. -/
private theorem off_isInt (v19 : BitVec 32) (h : v19.toNat < 8192) (t : Fin (k0_t2_loop v19).trips) (j : Nat) (hj : j < 4) :
    Affine.IsInt (Scalar.indexCast (Scalar.muli (Scalar.addi (Scalar.muli (Scf.iv 0#32 1#32 t.val) 4#32) (BitVec.ofNat 32 j)) 16#32))
      (16 * (4 * (t.val : Int) + (j : Int))) := by
  have ht := trip_lt v19 h t
  have h_c0 : Affine.IsInt 0#32 (0) := Affine.ofNat _ (by omega)
  have h_c1 : Affine.IsInt 1#32 (1) := Affine.ofNat _ (by omega)
  have h_c4 : Affine.IsInt 4#32 (4) := Affine.ofNat _ (by omega)
  have h_c16 : Affine.IsInt 16#32 (16) := Affine.ofNat _ (by omega)
  have h_cj : Affine.IsInt (BitVec.ofNat 32 j) (j : Int) := Affine.ofNat _ (by omega)
  have h_arg10 : Affine.IsInt _ ((t.val : Int)) := Affine.iv h_c0 h_c1 t.val (by omega)
  have h_a : Affine.IsInt _ (4 * (t.val : Int)) := Affine.muli h_arg10 h_c4 (by omega)
  have h_b : Affine.IsInt _ (4 * (t.val : Int) + (j : Int)) := Affine.addi h_a h_cj (by omega)
  have h_c : Affine.IsInt _ (16 * (4 * (t.val : Int) + (j : Int))) := Affine.muli h_b h_c16 (by omega)
  exact Affine.indexCast h_c

theorem off4_eq (v19 : BitVec 32) (h : v19.toNat < 8192) (t : Fin (k0_t2_loop v19).trips) :
    k0_off4 v19 t = ![16 * (4 * t.val + 0)] :=
  Affine.vec_cons (off_isInt v19 h t 0 (by omega)) (by omega) Affine.vec_nil

theorem off5_eq (v19 : BitVec 32) (h : v19.toNat < 8192) (t : Fin (k0_t2_loop v19).trips) :
    k0_off5 v19 t = ![16 * (4 * t.val + 1)] :=
  Affine.vec_cons (off_isInt v19 h t 1 (by omega)) (by omega) Affine.vec_nil

theorem off6_eq (v19 : BitVec 32) (h : v19.toNat < 8192) (t : Fin (k0_t2_loop v19).trips) :
    k0_off6 v19 t = ![16 * (4 * t.val + 2)] :=
  Affine.vec_cons (off_isInt v19 h t 2 (by omega)) (by omega) Affine.vec_nil

theorem off7_eq (v19 : BitVec 32) (h : v19.toNat < 8192) (t : Fin (k0_t2_loop v19).trips) :
    k0_off7 v19 t = ![16 * (4 * t.val + 3)] :=
  Affine.vec_cons (off_isInt v19 h t 3 (by omega)) (by omega) Affine.vec_nil

/-- The side condition the body assumes of the length word: both loops' operands are meaningful, every
    chunk of the first loop lies inside the row, and the second loop has no trip to speak of. -/
theorem chk1_of_lt (v19 : BitVec 32) (h : v19.toNat < 8192) : k0_chk1 v19 := by
  obtain ⟨⟨hlb2, hub2, hst2⟩, hlb3, hub3, hst3⟩ := bounds v19 h
  have e3 : ∀ t : Fin (k0_t3_loop v19).trips, False := fun t =>
    Nat.not_lt_zero _ (Nat.lt_of_lt_of_eq t.isLt (t3_trips v19 h))
  refine ⟨Affine.ok hlb2 hub2 hst2 (by omega), ?_, ?_, ?_, ?_, Affine.ok hlb3 hub3 hst3 (by omega),
    fun t => (e3 t).elim, fun t => (e3 t).elim, fun t => (e3 t).elim, fun t => (e3 t).elim⟩
  · intro t
    have ht := trip_lt v19 h t
    exact Affine.inb_cons (off_isInt v19 h t 0 (by omega)) (by omega) Affine.inb_nil
  · intro t
    have ht := trip_lt v19 h t
    exact Affine.inb_cons (off_isInt v19 h t 1 (by omega)) (by omega) Affine.inb_nil
  · intro t
    have ht := trip_lt v19 h t
    exact Affine.inb_cons (off_isInt v19 h t 2 (by omega)) (by omega) Affine.inb_nil
  · intro t
    have ht := trip_lt v19 h t
    exact Affine.inb_cons (off_isInt v19 h t 3 (by omega)) (by omega) Affine.inb_nil

end Cert.KernelIdeal.LoopArith
-- ==== Proof.ChunkIdeal.lean ====
/-
  The scan loop's memory accesses, read as values.

  A trip of the scan loads four chunks of sixteen consecutive words of the row scratch; the chunk `j` of trip `t` starts at
  position `16·(4t + j)`, so its lane `l` holds the row's word at position `16·(4t + j) + l`. Each chunk's words index an
  add-store into the table scratch, through the table's whole rectangle: that access is the table itself, read and written
  entry for entry. The store assumes of the words it indexes by that each is inside the table, which a bound on the tokens
  gives.
-/
import proofs.«213801_g6897717477520_cont_9to1_m_30_22_alg».proof.Proof.Gen.KernelIdeal.Skeleton
import proofs.«213801_g6897717477520_cont_9to1_m_30_22_alg».proof.Proof.LoopArithIdeal
import Idealize.ShloMosaic.Lib.Writes
import Idealize.ShloMosaic.Lib.ValueIdx

noncomputable section

namespace Cert.KernelIdeal.Tile

open Cert.KernelIdeal Cert.KernelIdeal.Gen Idealize.ShloMosaic Idealize.ShloMosaic.ValueIdx

variable {F : FTy → Type} [FloatOps F]

/-! ## The indexed add-store's view of the table scratch: the whole table -/

/-- An access to the whole table goes through every one of its 100000 entries, -/
theorem access_whole_set :
    ((Memref.whole cc0_scratch2 : Memref sig .scVector .vmem S100000 .i32).access (.whole S100000)).set = Finset.univ :=
  Memref.set_access_whole cc0_scratch2

/-- reads the table as it is, -/
theorem access_whole_read (f : IVec S100000 32) :
    ((Memref.whole cc0_scratch2 : Memref sig .scVector .vmem S100000 .i32).access (.whole S100000)).read (Elt F) f = f :=
  Memref.read_access_whole (Elt F) cc0_scratch2 f

/-- and, written at every entry, leaves exactly the payload. -/
theorem access_whole_write (f g : IVec S100000 32) :
    ((Memref.whole cc0_scratch2 : Memref sig .scVector .vmem S100000 .i32).access (.whole S100000)).write (Elt F) f g
      Finset.univ = g :=
  Memref.write_access_whole_univ (Elt F) cc0_scratch2 f g

/-! ## The index checks of the four indexed add-stores -/

/-- Sixteen token words all below 100000 are inside the table: the check the first store of a trip assumes of the words
    it indexes by. -/
theorem chk2_of_bound (v : IVec S16 32) (h : ∀ x, (v x).toNat < 100000) : k0_chk2 v := by
  intro a x
  obtain rfl : a = 0 := Subsingleton.elim _ _
  exact h x

/-- The same for the second store of a trip. -/
theorem chk3_of_bound (v : IVec S16 32) (h : ∀ x, (v x).toNat < 100000) : k0_chk3 v := by
  intro a x
  obtain rfl : a = 0 := Subsingleton.elim _ _
  exact h x

/-- The same for the third store of a trip. -/
theorem chk4_of_bound (v : IVec S16 32) (h : ∀ x, (v x).toNat < 100000) : k0_chk4 v := by
  intro a x
  obtain rfl : a = 0 := Subsingleton.elim _ _
  exact h x

/-- The same for the fourth store of a trip. -/
theorem chk5_of_bound (v : IVec S16 32) (h : ∀ x, (v x).toNat < 100000) : k0_chk5 v := by
  intro a x
  obtain rfl : a = 0 := Subsingleton.elim _ _
  exact h x

/-! ## The four chunk loads of a trip -/

/-- Chunk `j < 4` of any trip lies inside the row: the loop has at most 128 trips. -/
theorem chunk_le (v19 : BitVec 32) (h : v19.toNat < 8192) (t : Fin (k0_t2_loop v19).trips) (j : Nat) (hj : j < 4) :
    16 * (4 * t.val + j) + 16 ≤ 8192 := by
  have ht : t.val < (v19.toNat + 63) / 64 :=
    Nat.lt_of_lt_of_eq t.isLt (Cert.KernelIdeal.LoopArith.t2_trips v19 h)
  omega

/-- Lane `l` of the first chunk of trip `t` is the row's word at position `16·(4t + 0) + l`. -/
theorem chunk_read4 (buf : IVec S8192 32) (v19 : BitVec 32) (h : v19.toNat < 8192) (hw : k0_chk1 v19)
    (t : Fin (k0_t2_loop v19).trips) (l : Fin 16) :
    View.readAt (Elt F) (Memref.whole cc0_scratch0 : Memref sig .scVector .vmem S8192 .i32).view
        (Rect.unit (s := S8192) (k0_off4 v19 t) S16.size (k0_off4_inb v19 hw t)).toLoadRect buf (ix1 l)
      = buf (ix1 ⟨16 * (4 * t.val + 0) + l.val, by
          have := Nat.lt_of_lt_of_eq t.isLt (Cert.KernelIdeal.LoopArith.t2_trips v19 h); omega⟩) := by
  have e : (Rect.unit (s := S8192) (k0_off4 v19 t) S16.size (k0_off4_inb v19 hw t)).toLoadRect.idx (ix1 l)
      = (ix1 ⟨16 * (4 * t.val + 0) + l.val, by
          have := Nat.lt_of_lt_of_eq t.isLt (Cert.KernelIdeal.LoopArith.t2_trips v19 h); omega⟩ : S8192.Idx) := by
    funext a
    obtain rfl : a = 0 := Subsingleton.elim _ _
    refine Fin.ext ?_
    show (k0_off4 v19 t) 0 + 1 * l.val = 16 * (4 * t.val + 0) + l.val
    rw [Cert.KernelIdeal.LoopArith.off4_eq v19 h t]
    simp
  rw [View.readAt_apply]
  show buf ((Rect.unit (s := S8192) (k0_off4 v19 t) S16.size (k0_off4_inb v19 hw t)).toLoadRect.idx (ix1 l)) = _
  rw [e]

/-- Lane `l` of the second chunk of trip `t` is the row's word at position `16·(4t + 1) + l`. -/
theorem chunk_read5 (buf : IVec S8192 32) (v19 : BitVec 32) (h : v19.toNat < 8192) (hw : k0_chk1 v19)
    (t : Fin (k0_t2_loop v19).trips) (l : Fin 16) :
    View.readAt (Elt F) (Memref.whole cc0_scratch0 : Memref sig .scVector .vmem S8192 .i32).view
        (Rect.unit (s := S8192) (k0_off5 v19 t) S16.size (k0_off5_inb v19 hw t)).toLoadRect buf (ix1 l)
      = buf (ix1 ⟨16 * (4 * t.val + 1) + l.val, by
          have := Nat.lt_of_lt_of_eq t.isLt (Cert.KernelIdeal.LoopArith.t2_trips v19 h); omega⟩) := by
  have e : (Rect.unit (s := S8192) (k0_off5 v19 t) S16.size (k0_off5_inb v19 hw t)).toLoadRect.idx (ix1 l)
      = (ix1 ⟨16 * (4 * t.val + 1) + l.val, by
          have := Nat.lt_of_lt_of_eq t.isLt (Cert.KernelIdeal.LoopArith.t2_trips v19 h); omega⟩ : S8192.Idx) := by
    funext a
    obtain rfl : a = 0 := Subsingleton.elim _ _
    refine Fin.ext ?_
    show (k0_off5 v19 t) 0 + 1 * l.val = 16 * (4 * t.val + 1) + l.val
    rw [Cert.KernelIdeal.LoopArith.off5_eq v19 h t]
    simp
  rw [View.readAt_apply]
  show buf ((Rect.unit (s := S8192) (k0_off5 v19 t) S16.size (k0_off5_inb v19 hw t)).toLoadRect.idx (ix1 l)) = _
  rw [e]

/-- Lane `l` of the third chunk of trip `t` is the row's word at position `16·(4t + 2) + l`. -/
theorem chunk_read6 (buf : IVec S8192 32) (v19 : BitVec 32) (h : v19.toNat < 8192) (hw : k0_chk1 v19)
    (t : Fin (k0_t2_loop v19).trips) (l : Fin 16) :
    View.readAt (Elt F) (Memref.whole cc0_scratch0 : Memref sig .scVector .vmem S8192 .i32).view
        (Rect.unit (s := S8192) (k0_off6 v19 t) S16.size (k0_off6_inb v19 hw t)).toLoadRect buf (ix1 l)
      = buf (ix1 ⟨16 * (4 * t.val + 2) + l.val, by
          have := Nat.lt_of_lt_of_eq t.isLt (Cert.KernelIdeal.LoopArith.t2_trips v19 h); omega⟩) := by
  have e : (Rect.unit (s := S8192) (k0_off6 v19 t) S16.size (k0_off6_inb v19 hw t)).toLoadRect.idx (ix1 l)
      = (ix1 ⟨16 * (4 * t.val + 2) + l.val, by
          have := Nat.lt_of_lt_of_eq t.isLt (Cert.KernelIdeal.LoopArith.t2_trips v19 h); omega⟩ : S8192.Idx) := by
    funext a
    obtain rfl : a = 0 := Subsingleton.elim _ _
    refine Fin.ext ?_
    show (k0_off6 v19 t) 0 + 1 * l.val = 16 * (4 * t.val + 2) + l.val
    rw [Cert.KernelIdeal.LoopArith.off6_eq v19 h t]
    simp
  rw [View.readAt_apply]
  show buf ((Rect.unit (s := S8192) (k0_off6 v19 t) S16.size (k0_off6_inb v19 hw t)).toLoadRect.idx (ix1 l)) = _
  rw [e]

/-- Lane `l` of the fourth chunk of trip `t` is the row's word at position `16·(4t + 3) + l`. -/
theorem chunk_read7 (buf : IVec S8192 32) (v19 : BitVec 32) (h : v19.toNat < 8192) (hw : k0_chk1 v19)
    (t : Fin (k0_t2_loop v19).trips) (l : Fin 16) :
    View.readAt (Elt F) (Memref.whole cc0_scratch0 : Memref sig .scVector .vmem S8192 .i32).view
        (Rect.unit (s := S8192) (k0_off7 v19 t) S16.size (k0_off7_inb v19 hw t)).toLoadRect buf (ix1 l)
      = buf (ix1 ⟨16 * (4 * t.val + 3) + l.val, by
          have := Nat.lt_of_lt_of_eq t.isLt (Cert.KernelIdeal.LoopArith.t2_trips v19 h); omega⟩) := by
  have e : (Rect.unit (s := S8192) (k0_off7 v19 t) S16.size (k0_off7_inb v19 hw t)).toLoadRect.idx (ix1 l)
      = (ix1 ⟨16 * (4 * t.val + 3) + l.val, by
          have := Nat.lt_of_lt_of_eq t.isLt (Cert.KernelIdeal.LoopArith.t2_trips v19 h); omega⟩ : S8192.Idx) := by
    funext a
    obtain rfl : a = 0 := Subsingleton.elim _ _
    refine Fin.ext ?_
    show (k0_off7 v19 t) 0 + 1 * l.val = 16 * (4 * t.val + 3) + l.val
    rw [Cert.KernelIdeal.LoopArith.off7_eq v19 h t]
    simp
  rw [View.readAt_apply]
  show buf ((Rect.unit (s := S8192) (k0_off7 v19 t) S16.size (k0_off7_inb v19 hw t)).toLoadRect.idx (ix1 l)) = _
  rw [e]

end Cert.KernelIdeal.Tile

end
-- ==== Proof.ReadsIdeal.lean ====
import proofs.«213801_g6897717477520_cont_9to1_m_30_22_alg».proof.Proof.Gen.KernelIdeal.Skeleton
import Idealize.ShloMosaic.Lib.Writes
import Idealize.ShloMosaic.Lib.ValueIdx

/-!
# Reading and writing through the views the body forms

Processor `L` of the grid handles row `w = 2·(L 1) + (L 0)` of the arrays; `w < 32`.

* Its row length: the 32 lengths were copied into the first 32 words of a 48-word buffer; a load of
  16 words at offset `w` followed by the extraction of lane 0 reads word `w` of the buffer, which
  lies under the copy (`w < 32`), so it is length `w`.
* A whole array read through itself is the array.
* Row `w` of a `[32, n]` array, taken as the `[1, n]` rectangle at offsets `(w, 0)` and then
  re-indexed as `[n]` (dropping the axis of size one keeps the row-major position, so index `s`
  of `[n]` is index `(0, s)` of `[1, n]`), places its index `s` at `(w + 0, 0 + s) = (w, s)` of
  the array: reading through it reads entry `(w, s)`, and writing a whole row through it leaves
  the row's entry `s` at `(w, s)`.
-/

noncomputable section

namespace Cert.KernelIdeal.Tile

open Cert.KernelIdeal Cert.KernelIdeal.Gen Idealize.ShloMosaic Idealize.ShloMosaic.ValueIdx

variable {F : FTy → Type} [FloatOps F]

/-- The processor's row length: lane 0 of the 16-word load at offset `w` from the 48-word buffer whose
    first 32 words hold `g` is `g w`. -/
theorem read_len (L : grid0.Coords) (f1 : IVec S48 32) (g : IVec S32 32) :
    extractAt ![0] (k0_pay10 (F := F) (View.readAt (Elt F) (Memref.whole cc0_scratch1 : Memref sig .scVector .vmem S48 .i32).view
        (Rect.unit (s := S48) (k0_off3 L) S16.size (k0_off3_inb L)).toLoadRect
        ((Memref.whole cc0_scratch1 : Memref sig .scVector .vmem S48 .i32).view.writes (Elt F) f1 [⟨Rect.unit (s := S48) ![0] S32.size inb_S48_S32_0, g⟩]))) inpos_S1_p0
      = g (ix1 ⟨2 * (L 1).val + (L 0).val, by have h0 : (L 0).val < 2 := (L 0).isLt; have h1 : (L 1).val < 16 := (L 1).isLt; omega⟩) := by
  have hw : 2 * (L 1).val + (L 0).val < 32 := by
    have h0 : (L 0).val < 2 := (L 0).isLt; have h1 : (L 1).val < 16 := (L 1).isLt; omega
  have e := View.read_writes_cons_emb (Val := Elt F) (Memref.whole cc0_scratch1 : Memref sig .scVector .vmem S48 .i32).view f1
    (Rect.unit (s := S48) ![0] S32.size inb_S48_S32_0) g [] (ix1 ⟨2 * (L 1).val + (L 0).val, hw⟩)
  refine Eq.trans ?_ e
  show View.read (Elt F) (Memref.whole cc0_scratch1 : Memref sig .scVector .vmem S48 .i32).view
      ((Memref.whole cc0_scratch1 : Memref sig .scVector .vmem S48 .i32).view.writes (Elt F) f1 [⟨Rect.unit (s := S48) ![0] S32.size inb_S48_S32_0, g⟩])
      ((Rect.unit (s := S48) (k0_off3 L) S16.size (k0_off3_inb L)).toLoadRect.idx _) = _
  congr 1
  have h3 := congrFun (Gen.k0_off3_eq L) 0
  funext a
  apply Fin.ext
  match a with
  | ⟨0, _⟩ =>
    show k0_off3 L 0 + 1 * (0 + 0) = 0 + 1 * (2 * (L 1).val + (L 0).val)
    rw [h3]; simp

/-- The 32 lengths, read whole. -/
theorem readAs_len (f : IVec S32 32) : ReadAs.same.apply (View.read (Elt F) (Memref.whole main_v0_scv : Memref sig .scVector .hbm S32 .i32).view f) = f := rfl

/-- The table of counts, read whole. -/
theorem readAs_tbl (f : IVec S100000 32) : ReadAs.same.apply (View.read (Elt F) (Memref.whole cc0_scratch2 : Memref sig .scVector .vmem S100000 .i32).view f) = f := rfl

/-- The processor's row of identifiers: entry `s` read through row `w`'s view is entry `(w, s)`. -/
theorem read_idsRow (L : grid0.Coords) (f : IVec S32x8192 32) (s : Fin 8192) :
    ReadAs.same.apply (View.read (Elt F) (((Memref.whole main_arg0_scv : Memref sig .scVector .hbm S32x8192 .i32).slice (Rect.unit (s := S32x8192) (k0_off1 L) S1x8192.size (k0_off1_inb L)) (fun _ => rfl)).squeeze S8192 squeezes_S1x8192_S8192).view f) (ix1 s)
      = f (ix2 ⟨2 * (L 1).val + (L 0).val, by have h0 : (L 0).val < 2 := (L 0).isLt; have h1 : (L 1).val < 16 := (L 1).isLt; omega⟩ s) := by
  have e1 : Shape.reshapeEquiv Gen.squeezes_S1x8192_S8192.numel_eq (ix1 s) = (ix2 (⟨0, Nat.one_pos⟩ : Fin 1) s) :=
    Shape.reshapeEquiv_eq_of_rowMajor _ (by rw [Shape.rowMajor_val_two, Shape.rowMajor_val_one]; simp)
  show f _ = f _
  congr 1
  show (Rect.unit (s := S32x8192) (k0_off1 L) S1x8192.size (k0_off1_inb L)).emb (Shape.reshapeEquiv Gen.squeezes_S1x8192_S8192.numel_eq (ix1 s)) = _
  rw [e1]
  have h0 := congrFun (Gen.k0_off1_eq L) 0
  have h1 := congrFun (Gen.k0_off1_eq L) 1
  funext a
  apply Fin.ext
  match a with
  | ⟨0, _⟩ =>
    show k0_off1 L 0 + 1 * 0 = 2 * (L 1).val + (L 0).val
    rw [h0]; simp
  | ⟨1, _⟩ =>
    show k0_off1 L 1 + 1 * s.val = s.val
    rw [h1]; simp

/-- Entry `c` of row `w`'s view sits at `(w, c)` of the result. -/
private theorem outRow_emb (L : grid0.Coords) (i : S32x100000.Idx) (hi : (i 0).val = 2 * (L 1).val + (L 0).val) :
    (((Memref.whole main_v1_scv : Memref sig .scVector .hbm S32x100000 .i32).slice (Rect.unit (s := S32x100000) (k0_off12 L) S1x100000.size (k0_off12_inb L)) (fun _ => rfl)).squeeze S100000 squeezes_S1x100000_S100000).view.emb (ix1 (⟨(i 1).val, idx2_lt1 i⟩ : Fin 100000)) = i := by
  have hlt : (i 1).val < 100000 := idx2_lt1 i
  have e1 : Shape.reshapeEquiv Gen.squeezes_S1x100000_S100000.numel_eq (ix1 (⟨(i 1).val, hlt⟩ : Fin 100000)) = (ix2 (⟨0, Nat.one_pos⟩ : Fin 1) (⟨(i 1).val, hlt⟩ : Fin 100000)) :=
    Shape.reshapeEquiv_eq_of_rowMajor _ (by rw [Shape.rowMajor_val_two, Shape.rowMajor_val_one]; simp)
  show (Rect.unit (s := S32x100000) (k0_off12 L) S1x100000.size (k0_off12_inb L)).emb (Shape.reshapeEquiv Gen.squeezes_S1x100000_S100000.numel_eq (ix1 (⟨(i 1).val, hlt⟩ : Fin 100000))) = _
  rw [e1]
  have h0 := congrFun (Gen.k0_off12_eq L) 0
  have h1 := congrFun (Gen.k0_off12_eq L) 1
  funext a
  apply Fin.ext
  match a with
  | ⟨0, _⟩ =>
    show k0_off12 L 0 + 1 * 0 = (i 0).val
    rw [h0, hi]; simp
  | ⟨1, _⟩ =>
    show k0_off12 L 1 + 1 * (i 1).val = (i 1).val
    rw [h1]; simp

/-- The processor's row of the result: after the table `g` is written whole through row `w`'s view, entry
    `(w, c)` of the result holds `g c`. -/
theorem write_outRow (L : grid0.Coords) (f : IVec S32x100000 32) (g : IVec S100000 32) (i : S32x100000.Idx) (hi : (i 0).val = 2 * (L 1).val + (L 0).val) :
    View.write (Elt F) (((Memref.whole main_v1_scv : Memref sig .scVector .hbm S32x100000 .i32).slice (Rect.unit (s := S32x100000) (k0_off12 L) S1x100000.size (k0_off12_inb L)) (fun _ => rfl)).squeeze S100000 squeezes_S1x100000_S100000).view f g Finset.univ i = g (ix1 ⟨(i 1).val, idx2_lt1 i⟩) := by
  have key := View.write_emb_of_mem (Val := Elt F) (v := (((Memref.whole main_v1_scv : Memref sig .scVector .hbm S32x100000 .i32).slice (Rect.unit (s := S32x100000) (k0_off12 L) S1x100000.size (k0_off12_inb L)) (fun _ => rfl)).squeeze S100000 squeezes_S1x100000_S100000).view)
    f g (M := Finset.univ) (x := ix1 (⟨(i 1).val, idx2_lt1 i⟩ : Fin 100000)) (Finset.mem_univ _)
  rw [outRow_emb L i hi] at key
  rw [key]
  rfl

/-- The same with the write stated as a list of one piece through the whole of row `w`'s view: the
    whole rectangle places each index at itself, so the piece is the write above. -/
theorem writes_outRow (L : grid0.Coords) (f : IVec S32x100000 32) (g : IVec S100000 32) (i : S32x100000.Idx) (hi : (i 0).val = 2 * (L 1).val + (L 0).val) :
    (((Memref.whole main_v1_scv : Memref sig .scVector .hbm S32x100000 .i32).slice (Rect.unit (s := S32x100000) (k0_off12 L) S1x100000.size (k0_off12_inb L)) (fun _ => rfl)).squeeze S100000 squeezes_S1x100000_S100000).view.writes (Elt F) f [⟨Rect.whole S100000, g⟩] i
      = g (ix1 ⟨(i 1).val, idx2_lt1 i⟩) := by
  have key := View.write_emb_of_mem (Val := Elt F) (v := (((Memref.whole main_v1_scv : Memref sig .scVector .hbm S32x100000 .i32).slice (Rect.unit (s := S32x100000) (k0_off12 L) S1x100000.size (k0_off12_inb L)) (fun _ => rfl)).squeeze S100000 squeezes_S1x100000_S100000).view.slice (Rect.whole S100000))
    f g (M := Finset.univ) (x := (ix1 (⟨(i 1).val, idx2_lt1 i⟩ : Fin 100000) : (Rect.whole S100000).shape.Idx)) (Finset.mem_univ _)
  have hemb : ((((Memref.whole main_v1_scv : Memref sig .scVector .hbm S32x100000 .i32).slice (Rect.unit (s := S32x100000) (k0_off12 L) S1x100000.size (k0_off12_inb L)) (fun _ => rfl)).squeeze S100000 squeezes_S1x100000_S100000).view.slice (Rect.whole S100000)).emb (ix1 (⟨(i 1).val, idx2_lt1 i⟩ : Fin 100000) : (Rect.whole S100000).shape.Idx) = i := by
    show (((Memref.whole main_v1_scv : Memref sig .scVector .hbm S32x100000 .i32).slice (Rect.unit (s := S32x100000) (k0_off12 L) S1x100000.size (k0_off12_inb L)) (fun _ => rfl)).squeeze S100000 squeezes_S1x100000_S100000).view.emb ((Rect.whole S100000).emb (ix1 (⟨(i 1).val, idx2_lt1 i⟩ : Fin 100000) : (Rect.whole S100000).shape.Idx)) = i
    rw [Rect.emb_whole_apply]
    exact outRow_emb L i hi
  rw [hemb] at key
  show ((((Memref.whole main_v1_scv : Memref sig .scVector .hbm S32x100000 .i32).slice (Rect.unit (s := S32x100000) (k0_off12 L) S1x100000.size (k0_off12_inb L)) (fun _ => rfl)).squeeze S100000 squeezes_S1x100000_S100000).view.slice (Rect.whole S100000)).write (Elt F) f g Finset.univ i = _
  rw [key]
  rfl

end Cert.KernelIdeal.Tile

end
-- ==== Proof.MaskIdeal.lean ====
/-
  The lane masks of the scan, read at a lane.

  A trip t of the scan handles four chunks of sixteen positions, the chunk J = 0, 1, 2, 3 starting at position
  16 · (4t + J). The mask of a chunk compares, lane by lane and as signed words, the lane's position (the lane's
  number plus the chunk's base, both small non-negative numbers) with the row length; for a length below 8192 and
  at most 128 trips nothing wraps, so lane l is set exactly when 16 · (4t + J) + l is below the length. The word
  the store adds at every lane is 1.
-/
import proofs.«213801_g6897717477520_cont_9to1_m_30_22_alg».proof.Proof.Gen.KernelIdeal.Skeleton
import proofs.«213801_g6897717477520_cont_9to1_m_30_22_alg».proof.Proof.HistStep
import proofs.«213801_g6897717477520_cont_9to1_m_30_22_alg».proof.Proof.LoopArithIdeal

noncomputable section

namespace Cert.KernelIdeal.Tile

open Cert.KernelIdeal Cert.KernelIdeal.Gen Idealize.ShloMosaic Idealize.ShloMosaic.ValueIdx

/-- A row shorter than 8192 is scanned in at most 128 trips of 64 positions. -/
private theorem trip_lt (v19 : BitVec 32) (h : v19.toNat < 8192) (t : Fin (k0_t2_loop v19).trips) : t.val < 128 := by
  have ht := Nat.lt_of_lt_of_eq t.isLt (LoopArith.t2_trips v19 h)
  omega

/-- Lane l of the first chunk of trip t is set exactly when its position, 16 · (4t + 0) + l, is below the row length. -/
theorem pay1_iff (v19 : BitVec 32) (h : v19.toNat < 8192) (t : Fin (k0_t2_loop v19).trips) (l : Fin 16) :
    k0_pay1 v19 (iota .scVector S16 32 [0] iota_S16_d0_w32_scVector) t (ix1 l) = 1#1 ↔ 16 * (4 * t.val + 0) + l.val < v19.toNat := by
  have ht : t.val < 128 := trip_lt v19 h t
  have hm := Cert.Hist.mask_iff iota_S16_d0_w32_scVector (16 * (4 * t.val + 0)) (by omega) v19 h l
  rw [← Cert.Hist.base_eq0 t.val ht] at hm
  exact hm

/-- Lane l of the second chunk of trip t is set exactly when its position, 16 · (4t + 1) + l, is below the row length. -/
theorem pay2_iff (v19 : BitVec 32) (h : v19.toNat < 8192) (t : Fin (k0_t2_loop v19).trips) (l : Fin 16) :
    k0_pay2 v19 (iota .scVector S16 32 [0] iota_S16_d0_w32_scVector) t (ix1 l) = 1#1 ↔ 16 * (4 * t.val + 1) + l.val < v19.toNat := by
  have ht : t.val < 128 := trip_lt v19 h t
  have hm := Cert.Hist.mask_iff iota_S16_d0_w32_scVector (16 * (4 * t.val + 1)) (by omega) v19 h l
  rw [← Cert.Hist.base_eq1 t.val ht] at hm
  exact hm

/-- Lane l of the third chunk of trip t is set exactly when its position, 16 · (4t + 2) + l, is below the row length. -/
theorem pay3_iff (v19 : BitVec 32) (h : v19.toNat < 8192) (t : Fin (k0_t2_loop v19).trips) (l : Fin 16) :
    k0_pay3 v19 (iota .scVector S16 32 [0] iota_S16_d0_w32_scVector) t (ix1 l) = 1#1 ↔ 16 * (4 * t.val + 2) + l.val < v19.toNat := by
  have ht : t.val < 128 := trip_lt v19 h t
  have hm := Cert.Hist.mask_iff iota_S16_d0_w32_scVector (16 * (4 * t.val + 2)) (by omega) v19 h l
  rw [← Cert.Hist.base_eq2 t.val ht] at hm
  exact hm

/-- Lane l of the fourth chunk of trip t is set exactly when its position, 16 · (4t + 3) + l, is below the row length. -/
theorem pay4_iff (v19 : BitVec 32) (h : v19.toNat < 8192) (t : Fin (k0_t2_loop v19).trips) (l : Fin 16) :
    k0_pay4 v19 (iota .scVector S16 32 [0] iota_S16_d0_w32_scVector) t (ix1 l) = 1#1 ↔ 16 * (4 * t.val + 3) + l.val < v19.toNat := by
  have ht : t.val < 128 := trip_lt v19 h t
  have hm := Cert.Hist.mask_iff iota_S16_d0_w32_scVector (16 * (4 * t.val + 3)) (by omega) v19 h l
  rw [← Cert.Hist.base_eq3 t.val ht] at hm
  exact hm

/-- The stored vector is 1 at every lane. -/
theorem pay11_one (x : S16.Idx) : k0_pay11 x = 1#32 := rfl

end Cert.KernelIdeal.Tile

end
-- ==== Proof.TileBodyIdeal.lean ====
/-
  One worker's task: count its row.

  The worker fetches its row of tokens and the array of row lengths into its own memory, zeroes its table of
  100000 counts sixteen entries at a time while the fetches are under way, waits for both, reads its row's length
  `n` out of the fetched lengths, then scans the row sixty-four positions a trip for ⌈n / 64⌉ trips — each chunk of
  sixteen tokens adds one at the entry each token names, under the mask "position below n" — and copies the table
  out to its row of the result. After `p` positions the table is `Cert.Hist.tbl ids n p`; the scan stops at or past
  `n`, where that is the row's whole count.
-/
import proofs.«213801_g6897717477520_cont_9to1_m_30_22_alg».proof.Proof.TileSetupIdeal
import proofs.«213801_g6897717477520_cont_9to1_m_30_22_alg».proof.Proof.HistStep
import proofs.«213801_g6897717477520_cont_9to1_m_30_22_alg».proof.Proof.ZeroStepIdeal
import proofs.«213801_g6897717477520_cont_9to1_m_30_22_alg».proof.Proof.ChunkIdeal
import proofs.«213801_g6897717477520_cont_9to1_m_30_22_alg».proof.Proof.ReadsIdeal
import proofs.«213801_g6897717477520_cont_9to1_m_30_22_alg».proof.Proof.MaskIdeal
import proofs.«213801_g6897717477520_cont_9to1_m_30_22_alg».proof.Proof.LoopArithIdeal

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "idsW" => (Memref.whole Cert.KernelIdeal.main_arg0_scv : Memref Cert.KernelIdeal.sig Kind.scVector Space.hbm Cert.KernelIdeal.S32x8192 EltTy.i32)
local notation "lenW" => (Memref.whole Cert.KernelIdeal.main_v0_scv : Memref Cert.KernelIdeal.sig Kind.scVector Space.hbm Cert.KernelIdeal.S32 EltTy.i32)
local notation "outW" => (Memref.whole Cert.KernelIdeal.main_v1_scv : Memref Cert.KernelIdeal.sig Kind.scVector Space.hbm Cert.KernelIdeal.S32x100000 EltTy.i32)
local notation "s0W" => (Memref.whole Cert.KernelIdeal.cc0_scratch0 : Memref Cert.KernelIdeal.sig Kind.scVector Space.vmem Cert.KernelIdeal.S8192 EltTy.i32)
local notation "s1W" => (Memref.whole Cert.KernelIdeal.cc0_scratch1 : Memref Cert.KernelIdeal.sig Kind.scVector Space.vmem Cert.KernelIdeal.S48 EltTy.i32)
local notation "s2W" => (Memref.whole Cert.KernelIdeal.cc0_scratch2 : Memref Cert.KernelIdeal.sig Kind.scVector Space.vmem Cert.KernelIdeal.S100000 EltTy.i32)

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
/-- The worker's row. -/
abbrev wL (L : grid0.Coords) : Fin 32 := wid (cL L) (jL L)

/-- The worker's row of the tokens and of the result, and the part of its lengths scratch the fetch fills, as the
    body slices them. -/
abbrev idsRowK (L : grid0.Coords) : Memref sig .scVector .hbm S8192 .i32 :=
  ((idsW).slice (Rect.unit (s := S32x8192) (k0_off1 L) S1x8192.size (k0_off1_inb L)) (fun _ => rfl)).squeeze S8192 squeezes_S1x8192_S8192
abbrev outRowK (L : grid0.Coords) : Memref sig .scVector .hbm S100000 .i32 :=
  ((outW).slice (Rect.unit (s := S32x100000) (k0_off12 L) S1x100000.size (k0_off12_inb L)) (fun _ => rfl)).squeeze S100000 squeezes_S1x100000_S100000
abbrev lenSlot : Memref sig .scVector .vmem S32 .i32 :=
  (s1W).slice (Rect.unit (s := S48) ![0] S32.size inb_S48_S32_0) (fun _ => rfl)

theorem set_idsRowK : (idsRowK L).view.set = rowSet (n := 8192) (wL L) := by
  show (((idsW).view.slice (Rect.unit (s := S32x8192) (k0_off1 L) S1x8192.size (k0_off1_inb L))).reshape S8192 squeezes_S1x8192_S8192.numel_eq).set = _
  refine (View.set_reshape _ _).trans ((View.set_slice_whole (main_arg0_scv : Ref sig .scVector) _).trans ?_)
  ext j
  rw [Rect.mem_set_unit, mem_rowSet, k0_off1_eq]
  have h0 : (L 0).val < 2 := (L 0).isLt
  have h1 : (L 1).val < 16 := (L 1).isLt
  constructor
  · intro h
    have := h 0
    simp only [wid, cL, jL, Fin.coe_cast] at this ⊢
    simp at this
    omega
  · intro h a
    have hj1 : (j 1).val < 8192 := ValueIdx.idx2_lt1 j
    simp only [wid, cL, jL, Fin.coe_cast] at h
    match a with
    | 0 => simp; omega
    | 1 => simp; omega

theorem set_outRowK : (outRowK L).view.set = rowSet (n := 100000) (wL L) := by
  show (((outW).view.slice (Rect.unit (s := S32x100000) (k0_off12 L) S1x100000.size (k0_off12_inb L))).reshape S100000 squeezes_S1x100000_S100000.numel_eq).set = _
  refine (View.set_reshape _ _).trans ((View.set_slice_whole (main_v1_scv : Ref sig .scVector) _).trans ?_)
  ext j
  rw [Rect.mem_set_unit, mem_rowSet, k0_off12_eq]
  have h0 : (L 0).val < 2 := (L 0).isLt
  have h1 : (L 1).val < 16 := (L 1).isLt
  constructor
  · intro h
    have := h 0
    simp only [wid, cL, jL, Fin.coe_cast] at this ⊢
    simp at this
    omega
  · intro h a
    have hj1 : (j 1).val < 100000 := ValueIdx.idx2_lt1 j
    simp only [wid, cL, jL, Fin.coe_cast] at h
    match a with
    | 0 => simp; omega
    | 1 => simp; omega

/-! ## The subcore's own cells and buffers -/

abbrev cAcell (d : Dev nD) (c : Fin τ.nSC) (i : Fin τ.nSub) : GSem nD τ sig := (V d c i, .dma cc0_scratch3.sem)
abbrev cBcell (d : Dev nD) (c : Fin τ.nSC) (i : Fin τ.nSub) : GSem nD τ sig := (V d c i, .dma cc0_scratch4.sem)
abbrev cCcell (d : Dev nD) (c : Fin τ.nSC) (i : Fin τ.nSub) : GSem nD τ sig := (V d c i, .dma cc0_scoped0.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch4.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped0.sem : SemLoc sig).isScoped .scVector = true; decide⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

variable [FloatOps F]

omit [FloatOps F] in
theorem pts_idsRowK (f : Buf (Elt F) (idsLoc d)) :
    ((idsRowK L).view.loc (V d (cV L) (jV L)) ↦[(idsRowK L).view.set]{fullShare} f : sProp 𝕄) = idsLoc d ↦[rowSet (wL L)]{fullShare} f := by
  rw [set_idsRowK]
omit [FloatOps F] in
theorem pts_outRowK (f : Buf (Elt F) (outLoc d)) :
    ((outRowK L).view.loc (V d (cV L) (jV L)) ↦[(outRowK L).view.set]{fullShare} f : sProp 𝕄) = outLoc d ↦[rowSet (wL L)]{fullShare} f := by
  rw [set_outRowK]
omit [FloatOps F] in
theorem pts_lenW (q : PosShare TreeShare) (f : Buf (Elt F) (lenLoc d)) :
    ((lenW).view.loc (V d (cV L) (jV L)) ↦{q} f : sProp 𝕄) = lenLoc d ↦{q} f := rfl
omit [FloatOps F] in
theorem pts_s0 (f : Buf (Elt F) ((V d (cV L) (jV L)).loc cc0_scratch0)) :
    ((s0W).view.loc (V d (cV L) (jV L)) ↦{fullShare} f : sProp 𝕄) = (V d (cV L) (jV L)).loc cc0_scratch0 ↦{fullShare} f := rfl
omit [FloatOps F] in
theorem pts_s1 (f : Buf (Elt F) ((V d (cV L) (jV L)).loc cc0_scratch1)) :
    ((s1W).view.loc (V d (cV L) (jV L)) ↦{fullShare} f : sProp 𝕄) = (V d (cV L) (jV L)).loc cc0_scratch1 ↦{fullShare} f := rfl
omit [FloatOps F] in
theorem pts_s2 (f : Buf (Elt F) ((V d (cV L) (jV L)).loc cc0_scratch2)) :
    ((s2W).view.loc (V d (cV L) (jV L)) ↦{fullShare} f : sProp 𝕄) = (V d (cV L) (jV L)).loc cc0_scratch2 ↦{fullShare} f := rfl

/-- The zeroing loop's invariant: before trip `k` the first 16·k entries of the table are zero. -/
def invZ (f2 : IVec S100000 32) (k : Nat) (_ : PUnit) : sProp 𝕄 :=
  iprop((s2W).view.loc (V d (cV L) (jV L)) ↦{fullShare} zeroTo f2 (16 * k))

/-- The scan's invariant: before trip `k` the table holds the counts over the row's first 64·k positions, and the
    fetched row is untouched. -/
def invS (buf : IVec S8192 32) (n : Nat) (k : Nat) (_ : PUnit) : sProp 𝕄 :=
  iprop(((s2W).view.loc (V d (cV L) (jV L)) ↦{fullShare} (Cert.Hist.tbl (fun s => buf (ValueIdx.ix1 s)) n (64 * k) : IVec S100000 32))
    ∗ ((s0W).view.loc (V d (cV L) (jV L)) ↦{fullShare} buf))

omit [FloatOps F] in
theorem zeroTo_zero (f : IVec S100000 32) : zeroTo f (16 * 0) = f := by
  funext j; simp [zeroTo]

omit [FloatOps F] in
theorem pts_s2_access (f : Buf (Elt F) ((V d (cV L) (jV L)).loc cc0_scratch2)) :
    (((s2W).access (.whole S100000)).loc (V d (cV L) (jV L)) ↦[((s2W).access (.whole S100000)).set]{fullShare} f : sProp 𝕄)
      = ((s2W).view.loc (V d (cV L) (jV L)) ↦{fullShare} f) := by
  rw [access_whole_set]

/-- One chunk of the scan: the indexed add-store takes the table from the counts over the first `p` positions to the
    counts over the first `p + 16`. -/
theorem scatter_wp {α : Type} {Q : α → sProp 𝕄} (ids : Fin 8192 → BitVec 32) (n p0 p q : Nat) (hp0 : p0 = p) (hq : q = p + 16) (hp : p + 16 ≤ 8192)
    (chunk : IVec S16 32) (hchunk : ∀ l : Fin 16, chunk (ValueIdx.ix1 l) = ids ⟨p + l.val, by omega⟩)
    (ones : IVec S16 32) (hones : ∀ x, ones x = 1#32)
    (mask : IVec S16 1) (hmask : ∀ l : Fin 16, mask (ValueIdx.ix1 l) = 1#1 ↔ p + l.val < n)
    (h : ∀ a x, ((![chunk] : Fin 1 → IVec S16 32) a x).toNat < S100000.size a)
    (hs : ((s2W).access (.whole S100000)).Stores Finset.univ)
    (k : PUnit → Prog (TpuEff nD τ sig (Elt F) Λ₀ (Proc.scVector (cV L) (jV L))) α) :
    ((s2W).view.loc (V d (cV L) (jV L)) ↦{fullShare} (Cert.Hist.tbl ids n p0 : IVec S100000 32) : sProp 𝕄)
      ⊢ iprop((((s2W).view.loc (V d (cV L) (jV L)) ↦{fullShare} (Cert.Hist.tbl ids n q : IVec S100000 32)) -∗
            wp frame (wpE (defs₀ (F := F)) 𝒱₀ (V d (cV L) (jV L)) none) Set.univ (k ⟨⟩) Q)
          -∗ wp frame (wpE (defs₀ (F := F)) 𝒱₀ (V d (cV L) (jV L)) none) Set.univ
              (SparseCore.vectorStoreIdx (s2W) ![chunk] ones mask true h hs >>= k) Q) := by
  subst hp0 hq
  iintro H Hk
  ihave H' := (Entails.of_eq (pts_s2_access (F := F) d L _).symm) $$ H
  iapply (SparseCore.wp_vectorStoreIdx (defs := defs₀ (F := F)) 𝒱₀ (V d (cV L) (jV L)) none Set.univ (base := s2W) (Q := Q) (k := k)) $$ H'
  iintro H''
  have e : ((s2W).access (.whole S100000)).write (Elt F) (Cert.Hist.tbl ids n p0 : IVec S100000 32)
        (storeIdx (((s2W).access (.whole S100000)).read (Elt F) (Cert.Hist.tbl ids n p0 : IVec S100000 32)) ![chunk] ones mask true h) Finset.univ
      = (Cert.Hist.tbl ids n (p0 + 16) : IVec S100000 32) := by
    rw [access_whole_write, access_whole_read]
    exact Cert.Hist.hist_step (F := F) ids n p0 hp chunk hchunk ones hones mask hmask h
  iapply Hk
  iapply (Entails.of_eq (pts_s2_access (F := F) d L _))
  rw [← e]
  iexact H''

theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goRes m d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__hist_body L idsW (Memref.isWhole_whole _) lenW (Memref.isWhole_whole _) outW (Memref.isWhole_whole _)
            s0W (Memref.isWhole_whole _) s1W (Memref.isWhole_whole _) s2W (Memref.isWhole_whole _) cc0_scratch3 cc0_scratch4 cc0_scoped0)
          fun _ => iprop(tdRes m d (cL L) (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__hist_body_eq_skeleton]; unfold cc0__hist_body_skel
  simp only [k0_part1_eq_skeleton]; unfold k0_part1_skel
  simp only [bind_assoc, pure_bind]
  rw [(K (F := F)).scopedBufs_V hF d (cV L) (jV L), SparseCore.Cfg.scopedSems0_V (Val := Elt F) d (cV L) (jV L), ownSems0_V, ownBufs_V]
  unfold goRes
  iintro ⟨#Hlv, -, ⟨Hids, Hlen, Hout⟩, ⟨⟨%f0, Hs0⟩, ⟨%f1, Hs1⟩, ⟨%f2, Hs2⟩, Hbufs⟩, ⟨HsemA, HsemB, HsemC, Hsems⟩, HO⟩
  ihave Hmw := ((K (F := F)).mayWaits_none (thr := V d (cV L) (jV L)) hO) $$ Hlv
  ihave Hids' := (Entails.of_eq (pts_idsRowK (F := F) d L _).symm) $$ Hids
  ihave Hout' := (Entails.of_eq (pts_outRowK (F := F) d L _).symm) $$ Hout
  ihave Hlen' := (Entails.of_eq (pts_lenW (F := F) d L _ _).symm) $$ Hlen
  ihave Hs0' := (Entails.of_eq (pts_s0 (F := F) d L _).symm) $$ Hs0
  ihave Hs1' := (Entails.of_eq (pts_s1 (F := F) d L _).symm) $$ Hs1
  ihave Hs2' := (Entails.of_eq (pts_s2 (F := F) d L _).symm) $$ Hs2
  sl_exec
  sl_for (invZ (F := F) d L f2) $$ [Hs2']
  case region =>
    intro k _
    unfold invZ
    iintro Hs2
    sl_exec
    sl_step
    rw [zero_step (F := F) f2 k]
    iexact Hs2
  · unfold invZ
    rw [zeroTo_zero]
    iexact Hs2'
  iintro %_ HI
  unfold invZ
  rw [t1_trips, zeroTo_all]
  sl_exec
  have hV : (extractAt ![0] (k0_pay10 (tile_body.sl.x m d L f1)) inpos_S1_p0 : BitVec 32) = lenF m d (ValueIdx.ix1 (wL L)) :=
    (read_len (F := F) L f1 (tile_body.sl.dma0_1 m d)).trans (congrFun (readAs_len (F := F) (lenF m d)) _)
  have hlt : (extractAt ![0] (k0_pay10 (tile_body.sl.x m d L f1)) inpos_S1_p0 : BitVec 32).toNat < 8192 := by
    rw [hV]; exact (hpre d).2 _
  have hchk := Cert.KernelIdeal.LoopArith.chk1_of_lt _ hlt
  have hbuf : (View.write (Elt F) (s0W).view f0 (tile_body.sl.dma0 m d L) Finset.univ : IVec S8192 32) = tile_body.sl.dma0 m d L := View.write_whole_univ _ _ _
  have hrow : ∀ s : Fin 8192, (View.write (Elt F) (s0W).view f0 (tile_body.sl.dma0 m d L) Finset.univ : IVec S8192 32) (ValueIdx.ix1 s) = m (idsLoc d) (ValueIdx.ix2 (wL L) s) := by
    intro s; rw [hbuf]; delta tile_body.sl.dma0; exact read_idsRow (F := F) L _ s
  have hb : ∀ j, ((View.write (Elt F) (s0W).view f0 (tile_body.sl.dma0 m d L) Finset.univ : IVec S8192 32) j).toNat < 100000 := by
    intro j
    obtain ⟨s, rfl⟩ : ∃ s : Fin 8192, j = ValueIdx.ix1 s := ⟨j 0, ValueIdx.eq_ix1 j⟩
    rw [hrow]; exact (hpre d).1 _
  sl_exec
  sl_for (invS (F := F) d L (View.write (Elt F) (s0W).view f0 (tile_body.sl.dma0 m d L) Finset.univ : IVec S8192 32) (extractAt ![0] (k0_pay10 (tile_body.sl.x m d L f1)) inpos_S1_p0 : BitVec 32).toNat) $$ [HI Hs0']
  case region =>
    intro k _
    unfold invS
    iintro ⟨Ht, Hr⟩
    have hk := Nat.lt_of_lt_of_eq k.isLt (Cert.KernelIdeal.LoopArith.t2_trips _ hlt)
    sl_exec (disch := exact chk2_of_bound _ (fun x => hb _))
    iapply (scatter_wp (F := F) d L (fun s => (View.write (Elt F) (s0W).view f0 (tile_body.sl.dma0 m d L) Finset.univ : IVec S8192 32) (ValueIdx.ix1 s)) (extractAt ![0] (k0_pay10 (tile_body.sl.x m d L f1)) inpos_S1_p0 : BitVec 32).toNat (64 * k.val) (16 * (4 * k.val + 0)) (16 * (4 * k.val + 0) + 16) (by omega) rfl
      (chunk_le _ hlt k 0 (by omega)) _ (fun l => chunk_read4 (F := F) _ _ hlt hchk k l) _ pay11_one _ (fun l => pay1_iff _ hlt k l) _ _ _) $$ Ht
    iintro Ht
    sl_exec (disch := exact chk3_of_bound _ (fun x => hb _))
    iapply (scatter_wp (F := F) d L (fun s => (View.write (Elt F) (s0W).view f0 (tile_body.sl.dma0 m d L) Finset.univ : IVec S8192 32) (ValueIdx.ix1 s)) (extractAt ![0] (k0_pay10 (tile_body.sl.x m d L f1)) inpos_S1_p0 : BitVec 32).toNat (16 * (4 * k.val + 0) + 16) (16 * (4 * k.val + 1)) (16 * (4 * k.val + 1) + 16) (by omega) rfl
      (chunk_le _ hlt k 1 (by omega)) _ (fun l => chunk_read5 (F := F) _ _ hlt hchk k l) _ pay11_one _ (fun l => pay2_iff _ hlt k l) _ _ _) $$ Ht
    iintro Ht
    sl_exec (disch := exact chk4_of_bound _ (fun x => hb _))
    iapply (scatter_wp (F := F) d L (fun s => (View.write (Elt F) (s0W).view f0 (tile_body.sl.dma0 m d L) Finset.univ : IVec S8192 32) (ValueIdx.ix1 s)) (extractAt ![0] (k0_pay10 (tile_body.sl.x m d L f1)) inpos_S1_p0 : BitVec 32).toNat (16 * (4 * k.val + 1) + 16) (16 * (4 * k.val + 2)) (16 * (4 * k.val + 2) + 16) (by omega) rfl
      (chunk_le _ hlt k 2 (by omega)) _ (fun l => chunk_read6 (F := F) _ _ hlt hchk k l) _ pay11_one _ (fun l => pay3_iff _ hlt k l) _ _ _) $$ Ht
    iintro Ht
    sl_exec (disch := exact chk5_of_bound _ (fun x => hb _))
    iapply (scatter_wp (F := F) d L (fun s => (View.write (Elt F) (s0W).view f0 (tile_body.sl.dma0 m d L) Finset.univ : IVec S8192 32) (ValueIdx.ix1 s)) (extractAt ![0] (k0_pay10 (tile_body.sl.x m d L f1)) inpos_S1_p0 : BitVec 32).toNat (16 * (4 * k.val + 2) + 16) (16 * (4 * k.val + 3)) (16 * (4 * k.val + 3) + 16) (by omega) rfl
      (chunk_le _ hlt k 3 (by omega)) _ (fun l => chunk_read7 (F := F) _ _ hlt hchk k l) _ pay11_one _ (fun l => pay4_iff _ hlt k l) _ _ _) $$ Ht
    iintro Ht
    sl_step
    rw [show 16 * (4 * k.val + 3) + 16 = 64 * (k.val + 1) by omega]
    isplitl [Ht]; · iexact Ht
    iexact Hr
  · unfold invS
    rw [Nat.mul_zero, Cert.Hist.tbl_zero]
    isplitl [HI]; · iexact HI
    iexact Hs0'
  iintro %_ HI
  unfold invS
  icases HI with ⟨Ht, Hr⟩
  sl_for (fun (_ : Nat) (_ : PUnit) => (iprop(emp) : sProp 𝕄)) $$ []
  case region =>
    intro k _
    exact absurd (Nat.lt_of_lt_of_eq k.isLt (Cert.KernelIdeal.LoopArith.t3_trips _ hlt)) (Nat.not_lt_zero _)
  · iempintro
  iintro %_ -
  sl_exec
  have hP : (extractAt ![0] (k0_pay10 (tile_body.sl.x m d L f1)) inpos_S1_p0 : BitVec 32).toNat ≤ 64 * Scf.trips (k0_t2_loop (extractAt ![0] (k0_pay10 (tile_body.sl.x m d L f1)) inpos_S1_p0 : BitVec 32)).lb (k0_t2_loop (extractAt ![0] (k0_pay10 (tile_body.sl.x m d L f1)) inpos_S1_p0 : BitVec 32)).ub (k0_t2_loop (extractAt ![0] (k0_pay10 (tile_body.sl.x m d L f1)) inpos_S1_p0 : BitVec 32)).st := by
    have h2 : Scf.trips (k0_t2_loop (extractAt ![0] (k0_pay10 (tile_body.sl.x m d L f1)) inpos_S1_p0 : BitVec 32)).lb (k0_t2_loop (extractAt ![0] (k0_pay10 (tile_body.sl.x m d L f1)) inpos_S1_p0 : BitVec 32)).ub (k0_t2_loop (extractAt ![0] (k0_pay10 (tile_body.sl.x m d L f1)) inpos_S1_p0 : BitVec 32)).st = ((extractAt ![0] (k0_pay10 (tile_body.sl.x m d L f1)) inpos_S1_p0 : BitVec 32).toNat + 63) / 64 :=
      Cert.KernelIdeal.LoopArith.t2_trips _ hlt
    rw [h2]; omega
  sl_step
  have hval : ∀ i ∈ rowSet (n := 100000) (wL L), ((outRowK L).view.writes (Elt F) (m (outLoc d)) [⟨Rect.whole S100000, tile_body.sl.dma0_2 m d L f0 f1⟩] : IVec S32x100000 32) i = outG m d i := by
    intro i hi
    have hi0 : (i 0).val = (wL L).val := mem_rowSet.mp hi
    have hw : (⟨(i 0).val, ValueIdx.idx2_lt0 i⟩ : Fin 32) = wL L := Fin.ext hi0
    refine (writes_outRow (F := F) L (m (outLoc d)) (tile_body.sl.dma0_2 m d L f0 f1) i hi0).trans ?_
    refine (congrFun (readAs_tbl (F := F) _) _).trans ?_
    show Cert.Hist.countUpTo _ _ _ (i 1).val = Cert.Hist.G (m (idsLoc d)) (m (argLenLoc d)) i
    rw [Cert.Hist.countUpTo_of_le _ _ _ _ (Or.inl hP)]
    unfold Cert.Hist.G
    rw [hw]
    congr 1
    · funext s; exact hrow s
    · rw [hV]; rfl
  unfold tdRes
  isplitl [Hids' Hlen' Hout']
  · isplitl [Hids']
    · iapply (Entails.of_eq (pts_idsRowK (F := F) d L _)); iexact Hids'
    isplitl [Hlen']
    · iapply (Entails.of_eq (pts_lenW (F := F) d L _ _)); iexact Hlen'
    iapply (Entails.of_eq (pointsTo_congr hval))
    iapply (Entails.of_eq (pts_outRowK (F := F) d L _)); iexact Hout'
  isplitl [Hr Hs1' Ht Hbufs]
  · isplitl [Hr]; · iexists _; iapply (Entails.of_eq (pts_s0 (F := F) d L _)); iexact Hr
    isplitl [Hs1']; · iexists _; iapply (Entails.of_eq (pts_s1 (F := F) d L _)); iexact Hs1'
    isplitl [Ht]; · iexists _; iapply (Entails.of_eq (pts_s2 (F := F) d L _)); iexact Ht
    iexact Hbufs
  isplitl [HsemA HsemB HsemC Hsems]
  · isplitl [HsemA]; · iexact HsemA
    isplitl [HsemB]; · iexact HsemB
    isplitl [HsemC]; · iexact HsemC
    iexact Hsems
  iexists (insert (SemLoc.dma cc0_scoped0.sem, (default : HIx 1)) (insert (SemLoc.dma cc0_scratch3.sem, (default : HIx 1)) (insert (SemLoc.dma cc0_scratch4.sem, (default : HIx 1)) W))); isplitr
  · ipureintro
    intro p hp
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    exact .inl hp
  · iexact HO

end Tile

end Cert.KernelIdeal.Tile

end
-- ==== Proof.TileLaunchIdeal.lean ====
/-
  The launch of the histogram kernel and the run of the whole program.

  The call hands each SparseCore the token rows and result rows of its parity and a read share of the row lengths;
  the SparseCore hands each subcore its one row of each and a sixteenth of its share, and joins what comes back:
  the result rows, each holding its row of the one table of counts, make the SparseCore's half, and the two halves
  the whole table. @main's first line flattens the lengths column; the call follows; the arguments are never
  written.
-/
import proofs.«213801_g6897717477520_cont_9to1_m_30_22_alg».proof.Proof.TileSetupIdeal
import Idealize.ShloMosaic.Lib.Pipeline.Value

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the handshakes carry -/

/-- What the call hands SparseCore `c`, and what it takes back. -/
def coreSt (d : Dev nD) (c : Fin 2) : sProp 𝕄 :=
  iprop((idsLoc d ↦[coreSet c]{fullShare} m (idsLoc d)) ∗ (lenLoc d ↦{Transfers.shareTok fullShare 2 c} lenF m d)
    ∗ (outLoc d ↦[coreSet c]{fullShare} m (outLoc d)))
def coreDn (d : Dev nD) (c : Fin 2) : sProp 𝕄 :=
  iprop((idsLoc d ↦[coreSet c]{fullShare} m (idsLoc d)) ∗ (lenLoc d ↦{Transfers.shareTok fullShare 2 c} lenF m d)
    ∗ (outLoc d ↦[coreSet c]{fullShare} outG m d))

def P : (K (F := F)).Pay (nD := nD) (Val := Elt F) (Name := ℕ) (U := UU) where
  st := fun q d c => match q with | 0 => coreSt m d (Fin.cast nCore_zero c)
  dn := fun q d c => match q with | 0 => coreDn m d (Fin.cast nCore_zero c)
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance P_storable : (P (F := F) m).IsStorable where
  st q d c := match q with
    | 0 => by show BI.Storable (upEmb : UEmb _ 𝕄) (coreSt m d (Fin.cast nCore_zero c)); unfold coreSt; infer_instance
  dn q d c := match q with
    | 0 => by show BI.Storable (upEmb : UEmb _ 𝕄) (coreDn m d (Fin.cast nCore_zero c)); unfold coreDn; infer_instance
  go q d c i := match q with
    | 0 => by show BI.Storable (upEmb : UEmb _ 𝕄) (goRes m d (Fin.cast nCore_zero c) (Fin.cast nSub_zero i)); unfold goRes; infer_instance
  td q d c i := match q with
    | 0 => by show BI.Storable (upEmb : UEmb _ 𝕄) (tdRes m d (Fin.cast nCore_zero c) (Fin.cast nSub_zero i)); unfold tdRes; infer_instance

/-! ## A SparseCore's operands among its subcores -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem ids_rows (d : Dev nD) (c : Fin 2) (f : Buf (Elt F) (idsLoc d)) :
    (idsLoc d ↦[coreSet c]{fullShare} f : sProp 𝕄) = bigSep Finset.univ fun s : Fin 16 => idsLoc d ↦[rowSet (wid c s)]{fullShare} f := by
  unfold coreSet
  exact pointsTo_biUnion Finset.univ (ℓ := idsLoc d) (fun s => rowSet (wid c s)) (core_rows_disjoint c)
theorem out_rows (d : Dev nD) (c : Fin 2) (f : Buf (Elt F) (outLoc d)) :
    (outLoc d ↦[coreSet c]{fullShare} f : sProp 𝕄) = bigSep Finset.univ fun s : Fin 16 => outLoc d ↦[rowSet (wid c s)]{fullShare} f := by
  unfold coreSet
  exact pointsTo_biUnion Finset.univ (ℓ := outLoc d) (fun s => rowSet (wid c s)) (core_rows_disjoint c)

theorem vecSplit : (K (F := F)).VecSplit' (P m) 0 := by
  intro d c
  show coreSt m d (Fin.cast nCore_zero c) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ coreDn m d (Fin.cast nCore_zero c)))
  generalize Fin.cast nCore_zero c = c'
  rw [bigSep_tasks (F := F) (fun i => goRes m d c' i), bigSep_tasks (F := F) (fun i => tdRes m d c' i)]
  unfold coreSt coreDn goRes tdRes lenShare
  rw [bigSep_sep', bigSep_sep', bigSep_sep', bigSep_sep', ids_rows, out_rows, out_rows]
  iintro ⟨Hi, Hl, Ho⟩
  ihave Hl' := (Transfers.pointsTo_toks_split (Transfers.shareTok fullShare 2 c') 16) $$ Hl
  icases Hl' with ⟨Hrem, Htoks⟩
  imodintro
  isplitl [Hi Htoks Ho]
  · isplitl [Hi]; · iexact Hi
    isplitl [Htoks]; · iexact Htoks
    iexact Ho
  iintro ⟨Hi, Htoks, Ho⟩
  isplitl [Hi]; · iexact Hi
  isplitl [Hrem Htoks]
  · iapply (Transfers.pointsTo_toks_join (Transfers.shareTok fullShare 2 c') 16)
    isplitl [Hrem]; · iexact Hrem
    iexact Htoks
  iexact Ho

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev opR : HloOp τ sig (Elt F) := StableHlo.reshape main_arg1 main_v0 rfl shapeCasts_S32x1_S32

/-- The TensorCore's four arrays, all unscoped. -/
abbrev S4 : Finset (DevRef τ sig) := {a0', a1', v0', v1'}

theorem held_S4 (d : Dev nD) (W : Valuation τ sig (Elt F)) :
    (held (T d) S4 W : sProp 𝕄) = iprop((idsLoc d ↦{fullShare} W a0') ∗ (argLenLoc d ↦{fullShare} W a1') ∗ (lenLoc d ↦{fullShare} W v0') ∗ outLoc d ↦{fullShare} W v1') := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((idsLoc d ↦{fullShare} W main_arg0) ∗ (argLenLoc d ↦{fullShare} W main_arg1) ∗ (lenLoc d ↦{fullShare} W main_v0) ∗ outLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hR : (opR (F := F)).bufs ⊆ S4 := show ({a1', v0'} : Finset (DevRef τ sig)) ⊆ S4 by decide

variable [FloatOps F]

/-- After the first line the flat lengths array holds the lengths column, entry by entry; the other arrays are untouched. -/
theorem res_v0 (d : Dev nD) : (opR (F := F)).result (V0 m d) v0' = lenF m d := by
  refine (StableHlo.reshape_result main_arg1 main_v0 rfl shapeCasts_S32x1_S32 _ _ (V0 m d)).trans ?_
  funext j
  show shapeCast S32 (m (argLenLoc d)) shapeCasts_S32x1_S32 j = _
  refine shapeCast_apply _ _ j (ValueIdx.ix2 (j 0) (0 : Fin 1)) ?_
  refine (Shape.rowMajor_val_two (d := ![32, 1]) _).trans (Eq.trans ?_ (Shape.rowMajor_val_one (d := ![32]) j).symm)
  simp
theorem res_a0 (d : Dev nD) : (opR (F := F)).result (V0 m d) a0' = m (idsLoc d) :=
  (opR (F := F)).result_of_not_mem (V0 m d) (b := a0') (show a0' ∉ ({v0'} : Finset (DevRef τ sig)) by decide)
theorem res_a1 (d : Dev nD) : (opR (F := F)).result (V0 m d) a1' = m (argLenLoc d) :=
  (opR (F := F)).result_of_not_mem (V0 m d) (b := a1') (show a1' ∉ ({v0'} : Finset (DevRef τ sig)) by decide)
theorem res_v1 (d : Dev nD) : (opR (F := F)).result (V0 m d) v1' = m (outLoc d) :=
  (opR (F := F)).result_of_not_mem (V0 m d) (b := v1') (show v1' ∉ ({v0'} : Finset (DevRef τ sig)) by decide)

/-- The whole tokens / result array is the two SparseCores' halves. -/
theorem ids_cores (d : Dev nD) (f : Buf (Elt F) (idsLoc d)) :
    (idsLoc d ↦{fullShare} f : sProp 𝕄) = bigSep Finset.univ fun c : Fin 2 => idsLoc d ↦[coreSet c]{fullShare} f := by
  rw [← pointsTo_biUnion Finset.univ (ℓ := idsLoc d) coreSet coreSets_disjoint, coreSets_cover]
theorem out_cores (d : Dev nD) (f : Buf (Elt F) (outLoc d)) :
    (outLoc d ↦{fullShare} f : sProp 𝕄) = bigSep Finset.univ fun c : Fin 2 => outLoc d ↦[coreSet c]{fullShare} f := by
  rw [← pointsTo_biUnion Finset.univ (ℓ := outLoc d) coreSet coreSets_disjoint, coreSets_cover]

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m).st 0 d c) = bigSep Finset.univ fun c : Fin 2 => coreSt m d c :=
  bigSep_cores (F := F) (fun c => coreSt m d c)
theorem dn0_eq (d : Dev nD) : (bigSep Finset.univ fun c : Fin ((K (F := F)).nCore 0) => (P m).dn 0 d c) = bigSep Finset.univ fun c : Fin 2 => coreDn m d c :=
  bigSep_cores (F := F) (fun c => coreDn m d c)

theorem st_of (d : Dev nD) :
    iprop((idsLoc d ↦{fullShare} m (idsLoc d)) ∗ (bigSep Finset.univ fun c : Fin 2 => lenLoc d ↦{Transfers.shareTok fullShare 2 c} lenF m d)
        ∗ (outLoc d ↦{fullShare} m (outLoc d)))
      ⊢ bigSep Finset.univ fun c : Fin 2 => coreSt m d c := by
  unfold coreSt
  rw [bigSep_sep', bigSep_sep', ← ids_cores, ← out_cores]
theorem dn_to (d : Dev nD) :
    (bigSep Finset.univ fun c : Fin 2 => coreDn m d c)
      ⊢ iprop((idsLoc d ↦{fullShare} m (idsLoc d)) ∗ (bigSep Finset.univ fun c : Fin 2 => lenLoc d ↦{Transfers.shareTok fullShare 2 c} lenF m d)
        ∗ (outLoc d ↦{fullShare} outG m d)) := by
  unfold coreDn
  rw [bigSep_sep', bigSep_sep', ← ids_cores, ← out_cores]

/-- What @main leaves the claim: the two arguments at their launch contents and the result at the table of counts. -/
abbrev FIN (d : Dev nD) : sProp 𝕄 := iprop((idsLoc d ↦{fullShare} m (idsLoc d)) ∗ (argLenLoc d ↦{fullShare} m (argLenLoc d)) ∗ (outLoc d ↦{fullShare} outG m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opR) (S := S4) hR (V := V0 m d)) $$ [Hb Hheld]
  · isplitl [Hb]; · iexact Hb
    iexact Hheld
  iintro ⟨Hb, Hheld⟩
  ihave Hh := (Entails.of_eq (held_S4 (F := F) d _)) $$ Hheld
  rw [res_a0, res_a1, res_v0, res_v1]
  icases Hh with ⟨Hi, Ha, Hl, Ho⟩
  rw [wp_ret]; imodintro
  ihave Hl' := (Transfers.pointsTo_toks_split fullShare 2) $$ Hl
  icases Hl' with ⟨-, Htoks⟩
  iapply ((K (F := F)).wp_run (D (F := F)) 𝒱 (EH := EH) (P := P m) κ d 0) $$ [Hst Hi Htoks Ho Ha]
  isplitr; · iexact Hctx
  isplitl [Hst]; · iexact Hst
  isplitl [Hi Htoks Ho]
  · rw [st0_eq]
    iapply (st_of m d)
    isplitl [Hi]; · iexact Hi
    isplitl [Htoks]; · iexact Htoks
    iexact Ho
  iintro ⟨Hst, Hdn⟩
  ihave Hdn' := (Entails.of_eq (dn0_eq m d)) $$ Hdn
  ihave Hdn'' := (dn_to m d) $$ Hdn'
  icases Hdn'' with ⟨Hi, -, Ho⟩
  imodintro
  isplitl [Hst]; · iexact Hst
  isplitl [Hi]; · iexact Hi
  isplitl [Ha]; · iexact Ha
  iexact Ho

/-! ## Reading the final memory -/

def fq (d : Dev nD) (s' : Phys nD τ sig (Elt F)) : Prop :=
  s'.mem.mem (idsLoc d) = m (idsLoc d) ∧ s'.mem.mem (argLenLoc d) = m (argLenLoc d) ∧ s'.mem.mem (outLoc d) = outG m d

theorem hfin (d : Dev nD) (s' : Phys nD τ sig (Elt F)) : iprop(FIN m d ∗ SI s') ⊢ (⌜fq m d s'⌝ : sProp 𝕄) := by
  iintro ⟨⟨Hi, Ha, Ho⟩, HSI⟩
  ihave H := (persistent_entails_right (SI_pointsTo_agree (st := s') (ℓ := idsLoc d) (I := Finset.univ) (q := fullShare) (f := m (idsLoc d)))) $$ [HSI Hi]
  · isplitl [HSI] <;> iassumption
  icases H with ⟨%h1, HSI, -⟩
  ihave H := (persistent_entails_right (SI_pointsTo_agree (st := s') (ℓ := argLenLoc d) (I := Finset.univ) (q := fullShare) (f := m (argLenLoc d)))) $$ [HSI Ha]
  · isplitl [HSI] <;> iassumption
  icases H with ⟨%h2, HSI, -⟩
  ihave H := (SI_pointsTo_agree (st := s') (ℓ := outLoc d) (I := Finset.univ) (q := fullShare) (f := outG m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The strongest statement of the run: the result holds the table of counts of the launch contents, the arguments
    are unchanged. -/
def QC : PUnit × MemSt nD τ sig (Elt F) → Prop := fun r => ∀ c : Dev nD,
  r.2.mem (outLoc c) = outG m c ∧ r.2.mem (idsLoc c) = m (idsLoc c) ∧ r.2.mem (argLenLoc c) = m (argLenLoc c)

theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.2, (h c).1, (h c).2.1⟩)

end Cert.KernelIdeal.Tile

end
-- ==== Proof.TileOblIdeal.lean ====
/-
  The worker's task as the launch asks for it: on vector subcore `i` of SparseCore `c` the kernel's label runs the
  body at the coordinates (c, i), from the worker's operands to its results.
-/
import proofs.«213801_g6897717477520_cont_9to1_m_30_22_alg».proof.Proof.TileBodyIdeal
import proofs.«213801_g6897717477520_cont_9to1_m_30_22_alg».proof.Proof.TileLaunchIdeal

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "idsW" => (Memref.whole Cert.KernelIdeal.main_arg0_scv : Memref Cert.KernelIdeal.sig Kind.scVector Space.hbm Cert.KernelIdeal.S32x8192 EltTy.i32)
local notation "lenW" => (Memref.whole Cert.KernelIdeal.main_v0_scv : Memref Cert.KernelIdeal.sig Kind.scVector Space.hbm Cert.KernelIdeal.S32 EltTy.i32)
local notation "outW" => (Memref.whole Cert.KernelIdeal.main_v1_scv : Memref Cert.KernelIdeal.sig Kind.scVector Space.hbm Cert.KernelIdeal.S32x100000 EltTy.i32)
local notation "s0W" => (Memref.whole Cert.KernelIdeal.cc0_scratch0 : Memref Cert.KernelIdeal.sig Kind.scVector Space.vmem Cert.KernelIdeal.S8192 EltTy.i32)
local notation "s1W" => (Memref.whole Cert.KernelIdeal.cc0_scratch1 : Memref Cert.KernelIdeal.sig Kind.scVector Space.vmem Cert.KernelIdeal.S48 EltTy.i32)
local notation "s2W" => (Memref.whole Cert.KernelIdeal.cc0_scratch2 : Memref Cert.KernelIdeal.sig Kind.scVector Space.vmem Cert.KernelIdeal.S100000 EltTy.i32)

def coordsV (c : Fin (grid0.bound 0)) (s : Fin (grid0.bound 1)) : grid0.Coords :=
  fun | 0 => c | 1 => s | ⟨_ + 2, h⟩ => absurd h (Nat.not_lt.2 (Nat.le_add_left _ _))

variable [FloatOps F]

theorem defs₀_vector (c : Fin τ.nSC) (s : Fin τ.nSub) :
    defs₀ (F := F) (.scVector c s) 0 ()
      = SparseCore.onTile hcore0 hsub0 (fun c s => cc0__hist_body (coordsV c s)
          idsW (Memref.isWhole_whole _) lenW (Memref.isWhole_whole _) outW (Memref.isWhole_whole _)
          s0W (Memref.isWhole_whole _) s1W (Memref.isWhole_whole _) s2W (Memref.isWhole_whole _) cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

/-- The program's run, from what the precondition says of the launch memory. -/
theorem run [∀ e, Nonempty (Elt F e)] (hpre : PreOK m) :
    θ_run (Cert.KernelIdeal.defs (F := F)) (Cert.KernelIdeal.threads (F := F)) ⟨m, fun _ => 0, ρ⟩ (QC m) :=
  run_main m ρ (tileObl m facts hpre)

end Cert.KernelIdeal.Tile

end
-- ==== Proof.RefHist.lean ====
/-
  The reference program's side of the token-count kernel: its scatter-add of ones is the count table `Cert.Hist.G`.

  The reference builds, for every position `(b, s)` of the token array, the pair (row `b`, column `c`) where `c` is the
  token `ids[b, s]` when `s` is before the row's length and the out-of-range column `100000` otherwise, and adds a one
  into a zero table at each pair, dropping the pairs outside the table. Read at `(b, v)`, a scatter whose body is a
  wrapping addition is the starting entry plus the sum of the updates that land there — whatever the order of the walk,
  since addition of words is commutative and associative — and the updates that land on `(b, v)` are the ones of row
  `b` at the positions before the length whose token is `v`: the count.
-/
import proofs.«213801_g6897717477520_cont_9to1_m_30_22_alg».proof.Proof.ReadPatched
import proofs.«213801_g6897717477520_cont_9to1_m_30_22_alg».proof.Proof.HistSpec

noncomputable section

open scoped BigOperators

namespace Cert.RefHist

open Idealize.ShloMosaic Idealize.ShloMosaic.ValueIdx

/-! ## A scatter whose body is wrapping addition, read at one index -/

section ScatterAdd

variable {s si u : Shape} {w w' : Nat}

/-- One step of the scatter's walk over the update indices: the update at `j` is added into the table at the index it
    lands on, and dropped when it lands outside the table. -/
def scatterStep (d : ScatterDims s si u) (idx : IVec si w') (upd : u.Idx → BitVec w)
    (r : s.Idx → BitVec w) (j : u.Idx) : s.Idx → BitVec w :=
  match d.resultIdx? j idx with
  | some i => fun i' => if i' = i then IntOp.addi (r i) (upd j) else r i'
  | none => r

/-- What one step adds at the index `i`: the update, when it lands on `i`. -/
theorem scatterStep_apply (d : ScatterDims s si u) (idx : IVec si w') (upd : u.Idx → BitVec w)
    (r : s.Idx → BitVec w) (j : u.Idx) (i : s.Idx) :
    scatterStep d idx upd r j i = r i + (if d.resultIdx? j idx = some i then upd j else 0) := by
  unfold scatterStep
  cases h : d.resultIdx? j idx with
  | none => simp
  | some i0 =>
    by_cases hi : i = i0
    · subst hi; simp [IntOp.addi]
    · have : ¬ (some i0 = some i) := fun e => hi (Option.some.inj e).symm
      simp [hi, this]

/-- The walk over any list of update indices, read at `i`: the starting table's entry plus every update of the list
    that lands on `i`. Addition of words is commutative and associative, so the order of the walk does not matter. -/
theorem foldl_scatterStep_apply (d : ScatterDims s si u) (idx : IVec si w') (upd : u.Idx → BitVec w)
    (l : List u.Idx) (r : s.Idx → BitVec w) (i : s.Idx) :
    l.foldl (scatterStep d idx upd) r i
      = r i + (l.map fun j => if d.resultIdx? j idx = some i then upd j else 0).sum := by
  induction l generalizing r with
  | nil => simp
  | cons j l ih =>
    rw [List.foldl_cons, ih, scatterStep_apply, List.map_cons, List.sum_cons, add_assoc]

/-- A scatter-add read at the index `i`: the operand's entry plus the sum of all the updates whose result index is
    `i`. -/
theorem scatter_addi_apply (d : ScatterDims s si u) (x : s.Idx → BitVec w) (idx : IVec si w') (upd : u.Idx → BitVec w)
    (i : s.Idx) :
    Host.scatter d IntOp.addi x idx upd i
      = x i + ∑ j : u.Idx, if d.resultIdx? j idx = some i then upd j else 0 := by
  have h : Host.scatter d IntOp.addi x idx upd
      = ((List.finRange u.numel).map u.rowMajor.symm).foldl (scatterStep d idx upd) x := by
    unfold Host.scatter
    rw [List.foldl_map]
    rfl
  rw [h, foldl_scatterStep_apply, List.map_map, ← Equiv.sum_comp u.rowMajor.symm, Fin.sum_univ_def]
  rfl

end ScatterAdd

/-! ## The scatter of single elements at index pairs -/

section PairScatter

variable {R C B S w : Nat}

/-- The dimension numbers of a scatter of single elements into a table `[R, C]`: one update per position `(b, s)` of a
    `[B, S]` array, its start index the pair of words at `(b, s, 0)` and `(b, s, 1)` of the `[B, S, 2]` index array, both
    table axes inserted (the window is one element). -/
abbrev pairDims (R C B S : Nat)
    (wf : ScatterDims.WF ⟨2, ![R, C]⟩ ⟨3, ![B, S, 2]⟩ ⟨2, ![B, S]⟩ [] [0, 1] [0, 1] 2) :
    ScatterDims ⟨2, ![R, C]⟩ ⟨3, ![B, S, 2]⟩ ⟨2, ![B, S]⟩ where
  updateWindowDims := []
  insertedWindowDims := [0, 1]
  scatterDimsToOperandDims := [0, 1]
  indexVectorDim := 2
  wf := wf

variable (wf : ScatterDims.WF ⟨2, ![R, C]⟩ ⟨3, ![B, S, 2]⟩ ⟨2, ![B, S]⟩ [] [0, 1] [0, 1] 2)

/-- The row start of update `(b, s)`: the word at `(b, s, 0)`, read signed. -/
theorem pairDims_start0 (idx : IVec ⟨3, ![B, S, 2]⟩ w) (b : Fin B) (s : Fin S) :
    (pairDims R C B S wf).start (ix2 b s) idx 0 = (idx (ix3 b s 0)).toInt := by
  unfold ScatterDims.start
  rw [dif_pos (List.mem_cons.mpr (Or.inl rfl))]
  congr 2
  funext c; refine Fin.ext ?_
  match c with
  | ⟨0, _⟩ => rfl
  | ⟨1, _⟩ => rfl
  | ⟨2, _⟩ => rfl

/-- The column start of update `(b, s)`: the word at `(b, s, 1)`, read signed. -/
theorem pairDims_start1 (idx : IVec ⟨3, ![B, S, 2]⟩ w) (b : Fin B) (s : Fin S) :
    (pairDims R C B S wf).start (ix2 b s) idx 1 = (idx (ix3 b s 1)).toInt := by
  unfold ScatterDims.start
  rw [dif_pos (List.mem_cons.mpr (Or.inr (List.mem_cons.mpr (Or.inl rfl))))]
  congr 2
  funext c; refine Fin.ext ?_
  match c with
  | ⟨0, _⟩ => rfl
  | ⟨1, _⟩ => rfl
  | ⟨2, _⟩ => rfl

/-- Every table axis is inserted, so the window coordinate is zero on both. -/
theorem pairDims_window (j : (⟨2, ![B, S]⟩ : Shape).Idx) (a : Fin 2) :
    (pairDims R C B S wf).window j a = 0 := by
  unfold ScatterDims.window
  rw [dif_neg]
  intro h
  have h2 := of_decide_eq_true (List.mem_filter.mp h).2
  match a with
  | ⟨0, _⟩ => exact h2 (List.mem_cons.mpr (Or.inl rfl))
  | ⟨1, _⟩ => exact h2 (List.mem_cons.mpr (Or.inr (List.mem_cons.mpr (Or.inl rfl))))

/-- Update `(b, s)` lands on the table index `i` exactly when its two index words, read signed, are `i`'s coordinates
    (which makes them in range). -/
theorem pairDims_resultIdx?_eq_some (idx : IVec ⟨3, ![B, S, 2]⟩ w) (b : Fin B) (s : Fin S)
    (i : (⟨2, ![R, C]⟩ : Shape).Idx) :
    (pairDims R C B S wf).resultIdx? (ix2 b s) idx = some i
      ↔ (idx (ix3 b s 0)).toInt = ((i 0).val : Int) ∧ (idx (ix3 b s 1)).toInt = ((i 1).val : Int) := by
  have h0 := pairDims_start0 wf idx b s
  have h1 := pairDims_start1 wf idx b s
  have w0 := pairDims_window wf (ix2 b s) 0
  have w1 := pairDims_window wf (ix2 b s) 1
  have hi0 : (i 0).val < R := (i 0).isLt
  have hi1 : (i 1).val < C := (i 1).isLt
  unfold ScatterDims.resultIdx?
  split
  · rename_i h
    have g0 := h 0
    have g1 := h 1
    rw [h0, w0] at g0
    rw [h1, w1] at g1
    constructor
    · intro e
      have e' := Option.some.inj e
      have e0 : ((pairDims R C B S wf).start (ix2 b s) idx 0 + ((pairDims R C B S wf).window (ix2 b s) 0 : Nat)).toNat = (i 0).val :=
        congrArg (fun f : (⟨2, ![R, C]⟩ : Shape).Idx => (f 0).val) e'
      have e1 : ((pairDims R C B S wf).start (ix2 b s) idx 1 + ((pairDims R C B S wf).window (ix2 b s) 1 : Nat)).toNat = (i 1).val :=
        congrArg (fun f : (⟨2, ![R, C]⟩ : Shape).Idx => (f 1).val) e'
      rw [h0, w0] at e0
      rw [h1, w1] at e1
      omega
    · rintro ⟨e0, e1⟩
      congr 1
      funext a; refine Fin.ext ?_
      match a with
      | ⟨0, _⟩ =>
        show ((pairDims R C B S wf).start (ix2 b s) idx 0 + ((pairDims R C B S wf).window (ix2 b s) 0 : Nat)).toNat = (i 0).val
        rw [h0, w0]; omega
      | ⟨1, _⟩ =>
        show ((pairDims R C B S wf).start (ix2 b s) idx 1 + ((pairDims R C B S wf).window (ix2 b s) 1 : Nat)).toNat = (i 1).val
        rw [h1, w1]; omega
  · rename_i h
    constructor
    · intro e; exact absurd e (by simp)
    · rintro ⟨e0, e1⟩
      exfalso; apply h
      intro a
      match a with
      | ⟨0, _⟩ =>
        show 0 ≤ (pairDims R C B S wf).start (ix2 b s) idx 0 + ((pairDims R C B S wf).window (ix2 b s) 0 : Nat) ∧
          (pairDims R C B S wf).start (ix2 b s) idx 0 + ((pairDims R C B S wf).window (ix2 b s) 0 : Nat) < (R : Int)
        rw [h0, w0]; omega
      | ⟨1, _⟩ =>
        show 0 ≤ (pairDims R C B S wf).start (ix2 b s) idx 1 + ((pairDims R C B S wf).window (ix2 b s) 1 : Nat) ∧
          (pairDims R C B S wf).start (ix2 b s) idx 1 + ((pairDims R C B S wf).window (ix2 b s) 1 : Nat) < (C : Int)
        rw [h1, w1]; omega

/-- The same, with the table index given by its coordinates. -/
theorem pairDims_resultIdx?_ix2 (idx : IVec ⟨3, ![B, S, 2]⟩ w) (b : Fin B) (s : Fin S) (r : Fin R) (c : Fin C) :
    (pairDims R C B S wf).resultIdx? (ix2 b s) idx = some (ix2 r c)
      ↔ (idx (ix3 b s 0)).toInt = (r.val : Int) ∧ (idx (ix3 b s 1)).toInt = (c.val : Int) :=
  pairDims_resultIdx?_eq_some wf idx b s (ix2 r c)

end PairScatter

/-! ## Joining two `[B, S, 1]` arrays along the last axis, read at the two positions of that axis -/

section Concat

variable {α : Type} {B S : Nat}

/-- Position `0` of the joined axis reads the first array. -/
theorem concat_pair_at0
    (h : Shape.Concatenates [(⟨3, ![B, S, 1]⟩ : Shape), ⟨3, ![B, S, 1]⟩] ⟨3, ![B, S, 2]⟩ 2)
    (X Y : (⟨3, ![B, S, 1]⟩ : Shape).Idx → α) (b : Fin B) (s : Fin S) :
    concatenate ⟨3, ![B, S, 2]⟩ 2 [⟨⟨3, ![B, S, 1]⟩, X⟩, ⟨⟨3, ![B, S, 1]⟩, Y⟩] h (ix3 b s 0) = X (ix3 b s 0) := by
  show X _ = X _
  congr 1
  funext a; refine Fin.ext ?_
  match a with
  | ⟨0, _⟩ => rfl
  | ⟨1, _⟩ => rfl
  | ⟨2, _⟩ => rfl

/-- Position `1` of the joined axis reads the second array (at its only position `0` of that axis). -/
theorem concat_pair_at1
    (h : Shape.Concatenates [(⟨3, ![B, S, 1]⟩ : Shape), ⟨3, ![B, S, 1]⟩] ⟨3, ![B, S, 2]⟩ 2)
    (X Y : (⟨3, ![B, S, 1]⟩ : Shape).Idx → α) (b : Fin B) (s : Fin S) :
    concatenate ⟨3, ![B, S, 2]⟩ 2 [⟨⟨3, ![B, S, 1]⟩, X⟩, ⟨⟨3, ![B, S, 1]⟩, Y⟩] h (ix3 b s 1) = Y (ix3 b s 0) := by
  show Y _ = Y _
  congr 1
  funext a; refine Fin.ext ?_
  match a with
  | ⟨0, _⟩ => rfl
  | ⟨1, _⟩ => rfl
  | ⟨2, _⟩ => rfl

end Concat

/-! ## Words: the signed comparisons and selections the index computation makes -/

section Words

/-- A word below `2³¹` is not negative: its signed reading is its unsigned one. -/
theorem toInt_of_lt (x : BitVec 32) (h : x.toNat < 2147483648) : x.toInt = (x.toNat : Int) := by
  rw [BitVec.toInt_eq_toNat_cond]
  split <;> omega

/-- The signed comparison `x < 0` of a word below `2³¹` is false. -/
theorem cmpi_slt_zero_of_lt (x : BitVec 32) (h : x.toNat < 2147483648) : IntOp.cmpi .slt x 0#32 = 0#1 := by
  have hx := toInt_of_lt x h
  show BitVec.ofBool (x.slt 0#32) = 0#1
  have : x.slt 0#32 = false := by
    rw [BitVec.slt_eq_decide, hx]
    simp
  rw [this]; rfl

/-- For a position and a length both below 8192, the wrapping difference `position − length` is negative exactly when
    the position is before the length. -/
theorem cmpi_slt_sub (s : Nat) (L : BitVec 32) (hs : s < 8192) (hL : L.toNat < 8192) :
    IntOp.cmpi .slt (IntOp.subi (BitVec.ofNat 32 s) L) 0#32 = if s < L.toNat then 1#1 else 0#1 := by
  show BitVec.ofBool ((BitVec.ofNat 32 s - L).slt 0#32) = _
  have hn : (BitVec.ofNat 32 s - L).toNat = (4294967296 - L.toNat + s) % 4294967296 := by
    rw [BitVec.toNat_sub, BitVec.toNat_ofNat]
    have : s % 2 ^ 32 = s := Nat.mod_eq_of_lt (by omega)
    rw [this]
  have ht := BitVec.toInt_eq_toNat_cond (BitVec.ofNat 32 s - L)
  rw [hn] at ht
  rw [BitVec.slt_eq_decide, ht]
  by_cases h : s < L.toNat
  · rw [if_pos h]
    have : (4294967296 - L.toNat + s) % 4294967296 = 4294967296 - L.toNat + s := Nat.mod_eq_of_lt (by omega)
    rw [this, if_neg (by omega)]
    have : decide (((4294967296 - L.toNat + s : Nat) : Int) - ((2 ^ 32 : Nat) : Int) < (0#32 : BitVec 32).toInt) = true := by
      simp; omega
    rw [this]; rfl
  · rw [if_neg h]
    have : (4294967296 - L.toNat + s) % 4294967296 = s - L.toNat := by omega
    rw [this, if_pos (by omega)]
    have : decide (((s - L.toNat : Nat) : Int) < (0#32 : BitVec 32).toInt) = false := by
      simp
    rw [this]; rfl

/-- The column word of position `s` in a row of length `L` holding the token `X` there: the token before the length, the
    sentinel `100000` from the length on; the wrap of a negative index that follows leaves both unchanged. -/
theorem col_word (s : Nat) (L X : BitVec 32) (hs : s < 8192) (hL : L.toNat < 8192) (hX : X.toNat < 100000) :
    Scalar.select
        (IntOp.cmpi .slt (Scalar.select (IntOp.cmpi .sgt (Scalar.select (IntOp.cmpi .slt (IntOp.subi (BitVec.ofNat 32 s) L) 0#32) 1#32 0#32) 0#32) X 100000#32) 0#32)
        (IntOp.addi (Scalar.select (IntOp.cmpi .sgt (Scalar.select (IntOp.cmpi .slt (IntOp.subi (BitVec.ofNat 32 s) L) 0#32) 1#32 0#32) 0#32) X 100000#32) 100000#32)
        (Scalar.select (IntOp.cmpi .sgt (Scalar.select (IntOp.cmpi .slt (IntOp.subi (BitVec.ofNat 32 s) L) 0#32) 1#32 0#32) 0#32) X 100000#32)
      = if s < L.toNat then X else 100000#32 := by
  rw [cmpi_slt_sub s L hs hL]
  by_cases h : s < L.toNat
  · simp only [if_pos h, select_one]
    have : IntOp.cmpi .sgt 1#32 0#32 = 1#1 := by decide
    rw [this]
    simp only [select_one]
    rw [cmpi_slt_zero_of_lt X (by omega), select_zero]
  · simp only [if_neg h, select_zero]
    have : IntOp.cmpi .sgt 0#32 0#32 = 0#1 := by decide
    rw [this]
    simp only [select_zero]
    rw [cmpi_slt_zero_of_lt 100000#32 (by decide), select_zero]

/-- The row word of row `b < 32`: the row number; the wrap of a negative index leaves it unchanged. -/
theorem row_word (b : Nat) (hb : b < 32) :
    Scalar.select (IntOp.cmpi .slt (BitVec.ofNat 32 b) 0#32) (IntOp.addi (BitVec.ofNat 32 b) 32#32) (BitVec.ofNat 32 b)
      = BitVec.ofNat 32 b := by
  rw [cmpi_slt_zero_of_lt _ (by rw [BitVec.toNat_ofNat]; omega), select_zero]

/-- A small number as a word, read signed, is itself. -/
theorem toInt_ofNat_small (n : Nat) (h : n < 2147483648) : (BitVec.ofNat 32 n).toInt = (n : Int) := by
  have hn : (BitVec.ofNat 32 n).toNat = n := by rw [BitVec.toNat_ofNat]; omega
  rw [toInt_of_lt _ (by omega), hn]

end Words

/-! ## The scatter of ones at (row, token-or-sentinel) pairs is the count table -/

section Table

/-- A zero table of 32 rows and 100000 columns, into which a one is added at `(b, ids[b, s])` for every position `s`
    before row `b`'s length and at the out-of-range column `100000` (so dropped) for every other position, is the
    token-count table: entry `(b, v)` collects a one from exactly the positions `s` of row `b` before the length whose
    token is `v`; the updates of the other rows land on other rows. -/
theorem scatter_eq_G
    (wf : ScatterDims.WF ⟨2, ![32, 100000]⟩ ⟨3, ![32, 8192, 2]⟩ ⟨2, ![32, 8192]⟩ [] [0, 1] [0, 1] 2)
    (x0 : IVec ⟨2, ![32, 8192]⟩ 32) (x1 : IVec ⟨2, ![32, 1]⟩ 32)
    (hids : ∀ i, (x0 i).toNat < 100000)
    (tbl : IVec ⟨2, ![32, 100000]⟩ 32) (idx : IVec ⟨3, ![32, 8192, 2]⟩ 32) (upd : IVec ⟨2, ![32, 8192]⟩ 32)
    (htbl : ∀ i, tbl i = 0#32) (hupd : ∀ j, upd j = 1#32)
    (hrow : ∀ (b : Fin 32) (s : Fin 8192), idx (ix3 b s 0) = BitVec.ofNat 32 b.val)
    (hcol : ∀ (b : Fin 32) (s : Fin 8192),
      idx (ix3 b s 1) = if s.val < Cert.Hist.len x1 b then x0 (ix2 b s) else 100000#32) :
    Host.scatter (pairDims 32 100000 32 8192 wf) IntOp.addi tbl idx upd = Cert.Hist.G x0 x1 := by
  funext i
  obtain ⟨b, v, rfl⟩ : ∃ b v, i = ix2 b v := ⟨i 0, i 1, eq_ix2 i⟩
  have hb : b.val < 32 := b.isLt
  have hv : v.val < 100000 := v.isLt
  rw [scatter_addi_apply, htbl, BitVec.zero_add, sum_idx2, Finset.sum_eq_single b]
  · show _ = Cert.Hist.count (Cert.Hist.row x0 b) (Cert.Hist.len x1 b) v.val
    unfold Cert.Hist.count Cert.Hist.countUpTo
    apply Finset.sum_congr rfl
    intro s _
    have hs : s.val < 8192 := s.isLt
    have hx := hids (ix2 b s)
    rw [hupd]
    refine if_congr ?_ rfl rfl
    rw [pairDims_resultIdx?_ix2, hrow, hcol, toInt_ofNat_small _ (by omega)]
    show _ ↔ s.val < 8192 ∧ s.val < Cert.Hist.len x1 b ∧ (x0 (ix2 b s)).toNat = v.val
    by_cases hl : s.val < Cert.Hist.len x1 b
    · rw [if_pos hl, toInt_of_lt _ (by omega)]
      omega
    · rw [if_neg hl]
      have : (100000#32 : BitVec 32).toInt = 100000 := by decide
      rw [this]
      omega
  · intro b' _ hne
    apply Finset.sum_eq_zero
    intro s _
    rw [if_neg]
    rw [pairDims_resultIdx?_ix2, hrow, toInt_ofNat_small _ (by have := b'.isLt; omega)]
    rintro ⟨h, -⟩
    exact hne (Fin.ext (by omega))
  · intro h
    exact absurd (Finset.mem_univ b) h

end Table

/-! ## The reference's stages, read at an index -/

section Reference

open Cert.ReferenceIdeal Cert.ReferenceIdeal.Read

variable {F : FTy → Type} [FloatOps F]

/-- The row word at `(b, s, 0)` is the row number `b`: the row numbers, wrapped when negative (none is), are spread over
    the positions of each row. -/
theorem v25_at (b : Fin 32) (s : Fin 8192) :
    val_main_v25 (F := F) (ix3 b s (0 : Fin 1)) = BitVec.ofNat 32 b.val := by
  have e1 : idx_main_v25 (ix3 b s (0 : Fin 1)) = ix2 b s := by
    funext a; match a with | ⟨0, _⟩ => rfl | ⟨1, _⟩ => rfl
  have e2 : idx_main_v24 (ix2 b s) = ix2 b (0 : Fin 1) := by
    funext a; match a with | ⟨0, _⟩ => rfl | ⟨1, _⟩ => rfl
  have e3 : idx_main_v12 (ix2 b (0 : Fin 1)) = ix1 b := by
    funext a; match a with | ⟨0, _⟩ => rfl
  rw [val_main_v25_apply, e1, val_main_v24_apply, e2, val_main_v18_apply, val_main_v15_apply, val_main_v17_apply,
    val_main_v12_apply, e3, val_main_v11_apply, val_main_v14_apply, val_main_v16_apply, val_main_c_5_apply,
    val_main_c_6_apply]
  exact row_word b.val b.isLt

/-- The column word at `(b, s, 0)` of the second joined array: the token `ids[b, s]` when `s` is before row `b`'s
    length, the sentinel column `100000` otherwise. -/
theorem v26_at (x0 : IVec S32x8192 32) (x1 : IVec S32x1 32)
    (hids : ∀ i, (x0 i).toNat < 100000) (hlast : ∀ i, (x1 i).toNat < 8192) (b : Fin 32) (s : Fin 8192) :
    val_main_v26 (F := F) x0 x1 (ix3 b s (0 : Fin 1))
      = if s.val < Cert.Hist.len x1 b then x0 (ix2 b s) else 100000#32 := by
  have e1 : idx_main_v26 (ix3 b s (0 : Fin 1)) = ix2 b s := by
    funext a; match a with | ⟨0, _⟩ => rfl | ⟨1, _⟩ => rfl
  have e3 : idx_main_v3 (ix2 b s) = ix2 b (0 : Fin 1) := by
    funext a; match a with | ⟨0, _⟩ => rfl | ⟨1, _⟩ => rfl
  rw [val_main_v26_apply, e1]
  simp only [val_main_v23_apply, val_main_v20_apply, val_main_v22_apply, val_main_v10_apply, val_main_v9_apply,
    val_main_v7_apply, val_main_v6_apply, val_main_v4_apply, val_main_v3_apply, val_main_v2_apply, val_main_v1_apply,
    val_main_v0_apply, val_main_v5_apply, val_main_v8_apply, val_main_v19_apply, val_main_v21_apply,
    val_main_call0_v0_apply, val_main_call0_v1_apply, val_main_call1_v0_apply, val_main_c_apply, val_main_c_0_apply,
    val_main_c_1_apply, val_main_c_2_apply, val_main_c_3_apply, val_main_c_7_apply, val_main_c_8_apply]
  rw [e3]
  exact col_word s.val (x1 (ix2 b (0 : Fin 1))) (x0 (ix2 b s)) s.isLt (hlast _) (hids _)

/-- THE REFERENCE'S RESULT IS THE COUNT TABLE. -/
theorem ref_eq_G
    (x0 : IVec Cert.ReferenceIdeal.S32x8192 32) (x1 : IVec Cert.ReferenceIdeal.S32x1 32)
    (hids : ∀ i, (x0 i).toNat < 100000) (hlast : ∀ i, (x1 i).toNat < 8192) :
    Cert.ReferenceIdeal.Read.val_main_v29 (F := F) x0 x1 = Cert.Hist.G x0 x1 := by
  unfold val_main_v29
  exact scatter_eq_G Facts₀.scatter_S32x100000_S32x8192x2_S32x8192_n_01_01_2_wf x0 x1 hids _ _ _
    (fun i => by rw [val_main_v13_apply, val_main_c_4_apply])
    (fun j => by rw [val_main_v28_apply, val_main_c_9_apply])
    (fun b s => by unfold val_main_v27; rw [concat_pair_at0]; exact v25_at b s)
    (fun b s => by unfold val_main_v27; rw [concat_pair_at1]; exact v26_at x0 x1 hids hlast b s)

end Reference

end Cert.RefHist

end
-- ==== Proof.PreRanges.lean ====
import proofs.«213801_g6897717477520_cont_9to1_m_30_22_alg».proof.Pre_input_domain
import proofs.«213801_g6897717477520_cont_9to1_m_30_22_alg».proof.Proof.Gen.Pre_input_domain
import Idealize.ShloMosaic.Lib.ReduceAll
import Idealize.ShloMosaic.Lib.ValueIdx

/-!
# The precondition, decoded

The precondition is the conjunction of two "for all" statements, each printed as a reduction by
`and` over every element of an array of truth values: every identifier word `w` satisfies
`0 ≤ w ∧ w ≤ 99999` and every length word satisfies `0 ≤ w ∧ w ≤ 8191`, the comparisons signed.
A reduction by `and` that came out 1 met only 1s, so each element's two comparisons hold; and a
32-bit word that is between `0` and `n < 2³¹` read signed has its sign bit clear, so it is at most
`n` read unsigned as well.
-/

namespace Cert.Hist

open Idealize.ShloMosaic

/-- The shape of rank 0 has exactly one index. -/
private instance : Subsingleton Cert.Pre_input_domain.S_.Idx := ⟨fun a b => funext fun d => d.elim0⟩

/-- A word in `[0, n]` read signed, `n < 2³¹`, is at most `n` read unsigned. -/
private theorem toNat_le_of_signed (w : BitVec 32) (n : Nat) (hn : n < 2 ^ 31)
    (h0 : IntOp.cmpi .sge w 0#32 = 1#1) (h1 : IntOp.cmpi .sle w (BitVec.ofNat 32 n) = 1#1) : w.toNat ≤ n := by
  rw [IntOp.cmpi_sge] at h0
  rw [IntOp.cmpi_sle] at h1
  have z : (0#32 : BitVec 32).toInt = 0 := by decide
  have e : (BitVec.ofNat 32 n).toInt = n := by
    rw [BitVec.toInt_ofNat']
    exact Int.bmod_eq_of_le (by omega) (by omega)
  have c := BitVec.toInt_eq_toNat_cond w
  have := w.isLt
  split at c <;> omega

/-- What the precondition says of the data: every identifier is below 100000 and every length is
    below 8192, read unsigned. -/
theorem pre_ranges {F : FTy → Type} [FloatOps F] [Cert.Pre_input_domain.Facts]
    (x0 : IVec Cert.Pre_input_domain.S32x8192 32) (x1 : IVec Cert.Pre_input_domain.S32x1 32)
    (h : Cert.Pre_input_domain.fn (F := F) x0 x1 = fun _ => 1#1) :
    (∀ i, (x0 i).toNat < 100000) ∧ (∀ i, (x1 i).toNat < 8192) := by
  -- the function's one result word is 1
  have e := congrFun h ValueIdx.ix0
  dsimp only [Cert.Pre_input_domain.fn] at e
  -- it is the `and` of the two reductions
  obtain ⟨e0, e1⟩ := IntOp.andi_eq_one.1 e
  refine ⟨fun i => ?_, fun i => ?_⟩
  · -- element `i` of the first array is the `and` of `0 ≤ x0 i` and `x0 i ≤ 99999`
    obtain ⟨p0, p1⟩ := IntOp.andi_eq_one.1 (Host.reduce_andi_all _ _ _ _ _ e0 i)
    exact Nat.lt_succ_of_le (toNat_le_of_signed (x0 i) 99999 (by omega) p0 p1)
  · -- element `i` of the second array is the `and` of `0 ≤ x1 i` and `x1 i ≤ 8191`
    obtain ⟨p0, p1⟩ := IntOp.andi_eq_one.1 (Host.reduce_andi_all _ _ _ _ _ e1 i)
    exact Nat.lt_succ_of_le (toNat_le_of_signed (x1 i) 8191 (by omega) p0 p1)

end Cert.Hist
-- ==== Proof.lean ====
/-
  The token-count kernel against its reference.

  Both programs compute, for each of 32 rows, the table of counts of the row's tokens at positions below the row's
  length: entry (b, v) is the number of positions s < len b with token b s = v, as a wrapping 32-bit sum of ones
  (`Cert.Hist.G`). The kernel does it on thirty-two workers, one row each: a worker zeroes a table, scans its row
  sixteen tokens at a time adding one at the entry each token names under the mask "position below the length", and
  copies the table out to its row of the result; after p positions the table is the count over the first p, and the
  scan stops at or past the length. The reference scatters a one for every (row, token) pair, the tokens at or past
  the length sent to the out-of-range column, which the scatter drops; read at an entry that sum is the same count.
  The two arguments are never written by either program, and the kernel's idealization is its own text (no
  rewrite), so nothing is owed for it.
-/
import proofs.«213801_g6897717477520_cont_9to1_m_30_22_alg».proof.Defs
import proofs.«213801_g6897717477520_cont_9to1_m_30_22_alg».proof.Proof.Gen.Kernel
import proofs.«213801_g6897717477520_cont_9to1_m_30_22_alg».proof.Proof.Gen.Kernel.Skeleton
import proofs.«213801_g6897717477520_cont_9to1_m_30_22_alg».proof.Proof.Gen.KernelIdeal
import proofs.«213801_g6897717477520_cont_9to1_m_30_22_alg».proof.Proof.Gen.KernelIdeal.Skeleton
import proofs.«213801_g6897717477520_cont_9to1_m_30_22_alg».proof.Proof.Gen.ReferenceIdeal
import proofs.«213801_g6897717477520_cont_9to1_m_30_22_alg».proof.Proof.Gen.Pre_input_domain
import proofs.«213801_g6897717477520_cont_9to1_m_30_22_alg».proof.Proof.TileOblBits
import proofs.«213801_g6897717477520_cont_9to1_m_30_22_alg».proof.Proof.TileOblIdeal
import proofs.«213801_g6897717477520_cont_9to1_m_30_22_alg».proof.Proof.RefHist
import proofs.«213801_g6897717477520_cont_9to1_m_30_22_alg».proof.Proof.PreRanges
import Idealize.ShloMosaic.Adequacy
import Idealize.ShloMosaic.Init

noncomputable section

namespace Cert.Proof

open Idealize.ShloMosaic Idealize.SL.Sem

/-- The precondition, decoded: every token names a table entry and every row length is at most the row's extent. -/
theorem preOK_k [Cert.Pre_input_domain.Facts] (m : (ℓ : Loc Cert.Kernel.nD Cert.Kernel.τ Cert.Kernel.sig) → Buf (Elt Bits) ℓ) (h : Cert.Pre_Kernel m) :
    Cert.Kernel.Tile.PreOK (F := Bits) m := fun d => Cert.Hist.pre_ranges (F := Bits) _ _ (h d)
theorem preOK_ki [Cert.Pre_input_domain.Facts] (m : (ℓ : Loc Cert.KernelIdeal.nD Cert.KernelIdeal.τ Cert.KernelIdeal.sig) → Buf (Elt Ideal) ℓ) (h : Cert.Pre_KernelIdeal m) :
    Cert.KernelIdeal.Tile.PreOK (F := Ideal) m := fun d => Cert.Hist.pre_ranges (F := Ideal) _ _ (h d)

theorem claim : Cert.Claim := ⟨Cert.Kernel.Gen.facts, Cert.KernelIdeal.Gen.facts, Cert.ReferenceIdeal.Gen.facts, Cert.Pre_input_domain.Gen.facts, by
  refine ⟨?_, ?_, ?_, trivial, ?_⟩
  · -- the kernel as printed: its run with the result dropped
    intro m g hpre
    exact (θ_run Cert.Kernel.defs _ _).mono (fun _ h c => ⟨(h c).2.1, (h c).2.2⟩) (Cert.Kernel.Tile.run (F := Bits) m g (preOK_k m hpre))
  · -- the idealized kernel: the same
    intro m g hpre
    exact (θ_run Cert.KernelIdeal.defs _ _).mono (fun _ h c => ⟨(h c).2.1, (h c).2.2⟩) (Cert.KernelIdeal.Tile.run (F := Ideal) m g (preOK_ki m hpre))
  · -- the reference: its run with the result dropped
    intro m g _
    exact (θ_run Cert.ReferenceIdeal.defs _ _).mono (fun _ h c => (h c).2) (Cert.ReferenceIdeal.Value.run (F := Ideal) m g)
  · -- both results are the one table of counts of the arguments
    intro m g m' g' hpre hagree
    refine ⟨fun c => Cert.KernelIdeal.Tile.outG m c, ?_, ?_⟩
    · exact (θ_run Cert.KernelIdeal.defs _ _).mono (fun _ h c => h c) (Cert.KernelIdeal.Tile.run (F := Ideal) m g (preOK_ki m hpre))
    · refine (θ_run Cert.ReferenceIdeal.defs _ _).mono (fun _ h c => ⟨?_, (h c).2⟩) (Cert.ReferenceIdeal.Value.run (F := Ideal) m' g')
      have hp := preOK_ki m hpre c
      refine (h c).1.trans ((Cert.ReferenceIdeal.Read.val_main_v29_eq (F := Ideal) _ _).trans ?_)
      rw [(hagree c).1, (hagree c).2]
      exact Cert.RefHist.ref_eq_G (F := Ideal) _ _ hp.1 hp.2⟩

end Cert.Proof

end
